-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x1024 : Shape := ⟨3, ![64, 16, 1024]⟩
abbrev S64x2048x1024 : Shape := ⟨3, ![64, 2048, 1024]⟩
abbrev S1024x2048 : Shape := ⟨2, ![1024, 2048]⟩
abbrev S1024 : Shape := ⟨1, ![1024]⟩
abbrev S1024x16384 : Shape := ⟨2, ![1024, 16384]⟩
abbrev S_ : Shape := ⟨0, ![]⟩

class Facts : Prop where
  bcast_S_S64x16x1024 : S_.BroadcastsInDim S64x16x1024 (![] : Fin 0 → Fin S64x16x1024.rank)
  reducesTo_S64x16x1024_S_d0_1_2 : S64x16x1024.ReducesTo [0, 1, 2] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x16384 : S_.BroadcastsInDim S1024x16384 (![] : Fin 0 → Fin S1024x16384.rank)
  reducesTo_S1024x16384_S_d0_1 : S1024x16384.ReducesTo [0, 1] S_

variable [Facts]

def fn_part1 {F : FTy → Type} [FloatOps F] (main_arg4 : FVec F S1024x16384 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x16384 .f32 := Host.absf main_arg4
  let main_cst_6 : FVec F S_ .f32 := constant S_ .f32 0x7F800000#32
  let main_v20 : FVec F S1024x16384 .f32 := broadcastInDim S1024x16384 ![] bcast_S_S1024x16384 main_cst_6
  let main_v21 : IVec S1024x16384 1 := cmpf .olt main_v19 main_v20
  let main_c_7 : IVec S_ 1 := constantI S_ 1 1#1
  let main_v22 : IVec S_ 1 := (fun x v => Host.reduce IntOp.andi x v reducesTo_S1024x16384_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S64x16x1024 .f32) (main_arg1 : FVec F S64x2048x1024 .f32) (main_arg2 : FVec F S1024x2048 .f32) (main_arg3 : FVec F S1024 .f32) (main_arg4 : FVec F S1024x16384 .f32) (main_arg5 : FVec F S1024 .f32) : IVec S_ 1 :=
  let main_v0 : FVec F S64x16x1024 .f32 := Host.absf main_arg0
  let main_cst : FVec F S_ .f32 := constant S_ .f32 0x7F800000#32
  let main_v1 : FVec F S64x16x1024 .f32 := broadcastInDim S64x16x1024 ![] bcast_S_S64x16x1024 main_cst
  let main_v2 : IVec S64x16x1024 1 := cmpf .olt main_v0 main_v1
  let main_c : IVec S_ 1 := constantI S_ 1 1#1
  let main_v3 : IVec S_ 1 := (fun x v => Host.reduce IntOp.andi x v reducesTo_S64x16x1024_S_d0_1_2 h_S_) main_v2 main_c
  let main_v4 : FVec F S64x2048x1024 .f32 := Host.absf main_arg1
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S64x16x1024 : Shape := ⟨3, ![64, 16, 1024]⟩
abbrev S64x2048x1024 : Shape := ⟨3, ![64, 2048, 1024]⟩
abbrev S1024x2048 : Shape := ⟨2, ![1024, 2048]⟩
abbrev S1024 : Shape := ⟨1, ![1024]⟩
abbrev S1024x16384 : Shape := ⟨2, ![1024, 16384]⟩
abbrev S64x16x2048 : Shape := ⟨3, ![64, 16, 2048]⟩
abbrev S2x16x1024 : Shape := ⟨3, ![2, 16, 1024]⟩
abbrev S2x2048x1024 : Shape := ⟨3, ![2, 2048, 1024]⟩
abbrev S2x16x2048 : Shape := ⟨3, ![2, 16, 2048]⟩
abbrev S2x2048 : Shape := ⟨2, ![2, 2048]⟩
abbrev S2x1x2048 : Shape := ⟨3, ![2, 1, 2048]⟩
abbrev S1024x1024 : Shape := ⟨2, ![1024, 1024]⟩
abbrev S512x1024 : Shape := ⟨2, ![512, 1024]⟩
abbrev S1x1024 : Shape := ⟨2, ![1, 1024]⟩
abbrev S64x16384 : Shape := ⟨2, ![64, 16384]⟩
abbrev S64x1024 : Shape := ⟨2, ![64, 1024]⟩
abbrev S64x4096 : Shape := ⟨2, ![64, 4096]⟩
abbrev S512x4096 : Shape := ⟨2, ![512, 4096]⟩
abbrev S512 : Shape := ⟨1, ![512]⟩
abbrev S64x512 : Shape := ⟨2, ![64, 512]⟩
abbrev S1x512 : Shape := ⟨2, ![1, 512]⟩

abbrev nBuf : Space → Nat
  | .hbm => 15
  | .vmem => 26
  | .smem => 0
  | _ => 0

abbrev bufTy : (tb : Table) → Fin (tcTables nBuf tb) → BufTy
  | .hbm, ⟨0, _⟩ => ⟨S64x16x1024, .f32⟩
  | .hbm, ⟨1, _⟩ => ⟨S64x2048x1024, .f32⟩
  | .hbm, ⟨2, _⟩ => ⟨S1024x2048, .f32⟩
  | .hbm, ⟨3, _⟩ => ⟨S1024, .f32⟩
  | .hbm, ⟨4, _⟩ => ⟨S1024x16384, .f32⟩
  | .hbm, ⟨5, _⟩ => ⟨S1024, .f32⟩
  | .hbm, ⟨6, _⟩ => ⟨S64x16x1024, .f32⟩
  | .hbm, ⟨7, _⟩ => ⟨S64x16x2048, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S64x16384, .f32⟩
  | .hbm, ⟨14, _⟩ => ⟨S64x1024, .f32⟩
  | .local _ .vmem, ⟨0, _⟩ => ⟨S2x16x1024, .f32⟩
  | .local _ .vmem, ⟨1, _⟩ => ⟨S2x16x1024, .f32⟩
  | .local _ .vmem, ⟨2, _⟩ => ⟨S2x2048x1024, .f32⟩
  | .local _ .vmem, ⟨3, _⟩ => ⟨S2x2048x1024, .f32⟩
  | .local _ .vmem, ⟨4, _⟩ => ⟨S2x16x1024, .f32⟩
  | .local _ .vmem, ⟨5, _⟩ => ⟨S2x16x1024, .f32⟩
  | .local _ .vmem, ⟨6, _⟩ => ⟨S2x16x2048, .f32⟩
  | .local _ .vmem, ⟨7, _⟩ => ⟨S2x16x2048, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S1024x1024, .f32⟩
  | .local _ .vmem, ⟨14, _⟩ => ⟨S1024, .f32⟩
  | .local _ .vmem, ⟨15, _⟩ => ⟨S512x1024, .f32⟩
  | .local _ .vmem, ⟨16, _⟩ => ⟨S512x1024, .f32⟩
  | .local _ .vmem, ⟨17, _⟩ => ⟨S64x4096, .f32⟩
  | .local _ .vmem, ⟨18, _⟩ => ⟨S64x4096, .f32⟩
  | .local _ .vmem, ⟨19, _⟩ => ⟨S512x4096, .f32⟩
  | .local _ .vmem, ⟨20, _⟩ => ⟨S512x4096, .f32⟩
  | .local _ .vmem, ⟨21, _⟩ => ⟨S512, .f32⟩
  | .local _ .vmem, ⟨22, _⟩ => ⟨S512, .f32⟩
  | .local _ .vmem, ⟨23, _⟩ => ⟨S64x512, .f32⟩
  | .local _ .vmem, ⟨24, _⟩ => ⟨S64x512, .f32⟩
  | .local _ .vmem, ⟨25, _⟩ => ⟨S64x512, .f32⟩
  | _, _ => ⟨S64x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S2x16x1024_S2x16x1024_0_0_0 : ∀ a, (![0, 0, 0] : Fin 3 → Nat) a + S2x16x1024.size a ≤ S2x16x1024.size a
  h_S2x16x1024 : 0 < S2x16x1024.numel
  inb_S2x2048x1024_S2x2048x1024_0_0_0 : ∀ a, (![0, 0, 0] : Fin 3 → Nat) a + S2x2048x1024.size a ≤ S2x2048x1024.size a
  h_S2x2048x1024 : 0 < S2x2048x1024.numel
  reduces_S2x16x2048_S2x2048 : S2x16x2048.Reduces [1] S2x2048
  shapeCasts_S2x2048_S2x1x2048 : S2x2048.ShapeCasts S2x1x2048
  broadcasts_S2x1x2048_S2x16x2048 : S2x1x2048.Broadcasts S2x16x2048
  inb_S2x16x2048_S2x16x2048_0_0_0 : ∀ a, (![0, 0, 0] : Fin 3 → Nat) a + S2x16x2048.size a ≤ S2x16x2048.size a
  h_S2x16x2048 : 0 < S2x16x2048.numel
  bitsLt_bf16_f32 : FTy.bits .bf16 < FTy.bits .f32
  shapeCasts_S64x16x1024_S1024x1024 : S64x16x1024.ShapeCasts S1024x1024
  slices_S1024x2048_S1024x1024_0_0 : S1024x2048.Slices ![0, 0] S1024x1024
  slices_S1024x2048_S1024x1024_0_1024 : S1024x2048.Slices ![0, 1024] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S1024x1024_S64x16384 : S1024x1024.ShapeCasts S64x16384
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  dot_S2x16x1024_S2x2048x1024_S2x16x2048_2_2_1_1_0_0_wf : DotDims.WF S2x16x1024 S2x2048x1024 S2x16x2048 [2] [2] [1] [1] [0] [0]
  dot_S2x16x2048_S2x2048x1024_S2x16x1024_2_1_1_2_0_0_wf : DotDims.WF S2x16x2048 S2x2048x1024 S2x16x1024 [2] [1] [1] [2] [0] [0]
  dot_S512x1024_S1024x1024_S512x1024_1_1_0_0_n_n_wf : DotDims.WF S512x1024 S1024x1024 S512x1024 [1] [1] [0] [0] [] []
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x1024.size a ≤ S64x16x1024.size a
  hwx0_0 : ∀ i : grid0.Coords, EltTy.bits .f32 = 32 ∨ (Rect.block (s := S64x16x1024) S2x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x1024.size a ≤ S64x2048x1024.size a
  hwx0_1 : ∀ i : grid0.Coords, EltTy.bits .f32 = 32 ∨ (Rect.block (s := S64x2048x1024) S2x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x1024.size a ≤ S64x16x1024.size a
  hwx0_2 : ∀ i : grid0.Coords, EltTy.bits .f32 = 32 ∨ (Rect.block (s := S64x16x1024) S2x16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x16x2048.size a ≤ S64x16x2048.size a
  hwx0_3 : ∀ i : grid0.Coords, EltTy.bits .f32 = 32 ∨ (Rect.block (s := S64x16x2048) S2x16x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x1024.size a
  hwx1_0 : ∀ i : grid1.Coords, EltTy.bits .f32 = 32 ∨ (Rect.block (s := S1024x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S1024x1024.size a
  hwx1_1 : ∀ i : grid1.Coords, EltTy.bits .f32 = 32 ∨ (Rect.block (s := S1024x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S1024x1024.size a
  hwx1_5 : ∀ i : grid1.Coords, EltTy.bits .f32 = 32 ∨ (Rect.block (s := S1024x1024) S512x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x16384.size a
  hwx2_0 : ∀ i : grid2.Coords, EltTy.bits .f32 = 32 ∨ (Rect.block (s := S64x16384) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S1024x16384.size a
  hwx2_1 : ∀ i : grid2.Coords, EltTy.bits .f32 = 32 ∨ (Rect.block (s := S1024x16384) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S1024.size a
  hwx2_2 : ∀ i : grid2.Coords, EltTy.bits .f32 = 32 ∨ (Rect.block (s := S1024) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x512.size a ≤ S64x1024.size a
  hwx2_3 : ∀ i : grid2.Coords, EltTy.bits .f32 = 32 ∨ (Rect.block (s := S64x1024) S64x512.size (cc2_transform_3 i) (hinb2_3 i)).WholeWords (EltTy.packing .f32)

variable [Facts₀]

def dot_S2x16x1024_S2x2048x1024_S2x16x2048_2_2_1_1_0_0 : DotDims S2x16x1024 S2x2048x1024 S2x16x2048 where
  lhsContracting := [2]
  rhsContracting := [2]
  lhsNonContracting := [1]
  rhsNonContracting := [1]
  lhsBatch := [0]
  rhsBatch := [0]
  wf := dot_S2x16x1024_S2x2048x1024_S2x16x2048_2_2_1_1_0_0_wf
def dot_S2x16x2048_S2x2048x1024_S2x16x1024_2_1_1_2_0_0 : DotDims S2x16x2048 S2x2048x1024 S2x16x1024 where
  lhsContracting := [2]
  rhsContracting := [1]
  lhsNonContracting := [1]
  rhsNonContracting := [2]
  lhsBatch := [0]
  rhsBatch := [0]
  wf := dot_S2x16x2048_S2x2048x1024_S2x16x1024_2_1_1_2_0_0_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S2x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x16x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x16x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6) S64x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S64x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S64x16x1024 : Shape := ⟨3, ![64, 16, 1024]⟩
abbrev S64x2048x1024 : Shape := ⟨3, ![64, 2048, 1024]⟩
abbrev S1024x2048 : Shape := ⟨2, ![1024, 2048]⟩
abbrev S1024 : Shape := ⟨1, ![1024]⟩
abbrev S1024x16384 : Shape := ⟨2, ![1024, 16384]⟩
abbrev S64x16x2048 : Shape := ⟨3, ![64, 16, 2048]⟩
abbrev S_ : Shape := ⟨0, ![]⟩
abbrev S64x2048 : Shape := ⟨2, ![64, 2048]⟩
abbrev S64x1x2048 : Shape := ⟨3, ![64, 1, 2048]⟩
abbrev S1x1x1024 : Shape := ⟨3, ![1, 1, 1024]⟩
abbrev S64x16384 : Shape := ⟨2, ![64, 16384]⟩
abbrev S16384x1024 : Shape := ⟨2, ![16384, 1024]⟩
abbrev S64x1024 : Shape := ⟨2, ![64, 1024]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S64x16x1024, .f32⟩
  | .hbm, ⟨1, _⟩ => ⟨S64x2048x1024, .f32⟩
  | .hbm, ⟨2, _⟩ => ⟨S1024x2048, .f32⟩
  | .hbm, ⟨3, _⟩ => ⟨S1024, .f32⟩
  | .hbm, ⟨4, _⟩ => ⟨S1024x16384, .f32⟩
  | .hbm, ⟨5, _⟩ => ⟨S1024, .f32⟩
  | .hbm, ⟨6, _⟩ => ⟨S64x16x2048, .f32⟩
  | .hbm, ⟨7, _⟩ => ⟨S_, .f32⟩
  | .hbm, ⟨8, _⟩ => ⟨S64x2048, .f32⟩
  | .hbm, ⟨9, _⟩ => ⟨S_, .f32⟩
  | .hbm, ⟨10, _⟩ => ⟨S64x2048, .f32⟩
  | .hbm, ⟨11, _⟩ => ⟨S64x2048, .f32⟩
  | .hbm, ⟨12, _⟩ => ⟨S64x1x2048, .f32⟩
  | .hbm, ⟨13, _⟩ => ⟨S64x16x2048, .f32⟩
  | .hbm, ⟨14, _⟩ => ⟨S64x16x2048, .f32⟩
  | .hbm, ⟨15, _⟩ => ⟨S64x16x2048, .f32⟩
  | .hbm, ⟨16, _⟩ => ⟨S_, .f32⟩
  | .hbm, ⟨17, _⟩ => ⟨S64x2048, .f32⟩
  | .hbm, ⟨18, _⟩ => ⟨S64x1x2048, .f32⟩
  | .hbm, ⟨19, _⟩ => ⟨S64x16x2048, .f32⟩
  | .hbm, ⟨20, _⟩ => ⟨S64x16x2048, .f32⟩
  | .hbm, ⟨21, _⟩ => ⟨S64x16x1024, .f32⟩
  | .hbm, ⟨22, _⟩ => ⟨S64x16x2048, .f32⟩
  | .hbm, ⟨23, _⟩ => ⟨S64x16x1024, .f32⟩
  | .hbm, ⟨24, _⟩ => ⟨S1x1x1024, .f32⟩
  | .hbm, ⟨25, _⟩ => ⟨S64x16x1024, .f32⟩
  | .hbm, ⟨26, _⟩ => ⟨S64x16x1024, .f32⟩
  | .hbm, ⟨27, _⟩ => ⟨S64x16x1024, .f32⟩
  | .hbm, ⟨28, _⟩ => ⟨S64x16384, .f32⟩
  | .hbm, ⟨29, _⟩ => ⟨S16384x1024, .f32⟩
  | .hbm, ⟨30, _⟩ => ⟨S64x1024, .f32⟩
  | .hbm, ⟨31, _⟩ => ⟨S1x1024, .f32⟩
  | .hbm, ⟨32, _⟩ => ⟨S64x1024, .f32⟩
  | .hbm, ⟨33, _⟩ => ⟨S64x1024, .f32⟩
  | _, _ => ⟨S64x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S64x16x2048_S64x2048_d1 : S64x16x2048.ReducesTo [1] S64x2048
  h_S_ : 0 < S_.numel
  bcast_S_S64x2048 : S_.BroadcastsInDim S64x2048 (![] : Fin 0 → Fin S64x2048.rank)
  bcast_S64x2048_S64x1x2048_0_2 : S64x2048.BroadcastsInDim S64x1x2048 (![0, 2] : Fin 2 → Fin S64x1x2048.rank)
  bcast_S64x1x2048_S64x16x2048_0_1_2 : S64x1x2048.BroadcastsInDim S64x16x2048 (![0, 1, 2] : Fin 3 → Fin S64x16x2048.rank)
  concatenates_S64x16x1024_S64x16x1024_S64x16x2048_d2 : Shape.Concatenates [S64x16x1024, S64x16x1024] S64x16x2048 2
  bcast_S1024_S1x1x1024_2 : S1024.BroadcastsInDim S1x1x1024 (![2] : Fin 1 → Fin S1x1x1024.rank)
  bcast_S1x1x1024_S64x16x1024_0_1_2 : S1x1x1024.BroadcastsInDim S64x16x1024 (![0, 1, 2] : Fin 3 → Fin S64x16x1024.rank)
  shapeCasts_S64x16x1024_S64x16384 : S64x16x1024.ShapeCasts S64x16384
  transposes_S1024x16384_S16384x1024_1_0 : S1024x16384.Transposes [1, 0] S16384x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  dot_S64x16x1024_S64x2048x1024_S64x16x2048_2_2_1_1_0_0_wf : DotDims.WF S64x16x1024 S64x2048x1024 S64x16x2048 [2] [2] [1] [1] [0] [0]
  dot_S64x16x2048_S64x2048x1024_S64x16x1024_2_1_1_2_0_0_wf : DotDims.WF S64x16x2048 S64x2048x1024 S64x16x1024 [2] [1] [1] [2] [0] [0]
  dot_S64x16x2048_S1024x2048_S64x16x1024_2_1_01_0_n_n_wf : DotDims.WF S64x16x2048 S1024x2048 S64x16x1024 [2] [1] [0, 1] [0] [] []
  dot_S64x16384_S16384x1024_S64x1024_1_0_0_1_n_n_wf : DotDims.WF S64x16384 S16384x1024 S64x1024 [1] [0] [0] [1] [] []

variable [Facts₀]

def dot_S64x16x1024_S64x2048x1024_S64x16x2048_2_2_1_1_0_0 : DotDims S64x16x1024 S64x2048x1024 S64x16x2048 where
  lhsContracting := [2]
  rhsContracting := [2]
  lhsNonContracting := [1]
  rhsNonContracting := [1]
  lhsBatch := [0]
  rhsBatch := [0]
  wf := dot_S64x16x1024_S64x2048x1024_S64x16x2048_2_2_1_1_0_0_wf
def dot_S64x16x2048_S64x2048x1024_S64x16x1024_2_1_1_2_0_0 : DotDims S64x16x2048 S64x2048x1024 S64x16x1024 where
  lhsContracting := [2]
  rhsContracting := [1]
  lhsNonContracting := [1]
  rhsNonContracting := [2]
  lhsBatch := [0]
  rhsBatch := [0]
  wf := dot_S64x16x2048_S64x2048x1024_S64x16x1024_2_1_1_2_0_0_wf
def dot_S64x16x2048_S1024x2048_S64x16x1024_2_1_01_0_n_n : DotDims S64x16x2048 S1024x2048 S64x16x1024 where
  lhsContracting := [2]
  rhsContracting := [1]
  lhsNonContracting := [0, 1]
  rhsNonContracting := [0]
  lhsBatch := []
  rhsBatch := []
  wf := dot_S64x16x2048_S1024x2048_S64x16x1024_2_1_01_0_n_n_wf
def dot_S64x16384_S16384x1024_S64x1024_1_0_0_1_n_n : DotDims S64x16384 S16384x1024 S64x1024 where
  lhsContracting := [1]
  rhsContracting := [0]
  lhsNonContracting := [0]
  rhsNonContracting := [1]
  lhsBatch := []
  rhsBatch := []
  wf := dot_S64x16384_S16384x1024_S64x1024_1_0_0_1_n_n_wf

class Facts : Prop extends Facts₀ where

variable [Facts]
-- ==== Proof.K.Region0.lean ====
import proofs.«168501_j15375982920258_2_alg».proof.Proof.Gen.Kernel.Launch
import proofs.«168501_j15375982920258_2_alg».proof.Proof.Gen.Kernel.Skeleton
import proofs.«168501_j15375982920258_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
# Region 0: the attention kernel's body, point by point

The program's first kernel runs on a grid of 32 points with four windows: the two inputs (windows 0 and 1,
fetched at every point) and the two outputs (window 2, the energy block, and window 3, the attention
block, both written back at every point). Its body reads both input blocks whole, and overwrites both
output staging buffers whole. So what it leaves is a function of the two input blocks alone.

This module gives, at an arbitrary valuation `V` of the core's buffers on entry to the region:
the block of each window at each point, the contents of the two output buffers after the body, the
separation-logic triple of the body, the pipeline's proof data, and the body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- The block of window `w` at point `t`: the part of the window's array, as the region finds it,
    that the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block untouched holds that block when the body starts, at
    every point: either it was just fetched, or its block index did not move since the point before.
    Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each staging buffer, whole -/

/-- All of a `2×16×1024` buffer (windows 0 and 2). -/
abbrev rKey : Rect S2x16x1024 := Rect.unit (s := S2x16x1024) ![0, 0, 0] S2x16x1024.size inb_S2x16x1024_S2x16x1024_0_0_0
/-- All of a `2×2048×1024` buffer (window 1). -/
abbrev rQuery : Rect S2x2048x1024 := Rect.unit (s := S2x2048x1024) ![0, 0, 0] S2x2048x1024.size inb_S2x2048x1024_S2x2048x1024_0_0_0
/-- All of a `2×16×2048` buffer (window 3). -/
abbrev rAttn : Rect S2x16x2048 := Rect.unit (s := S2x16x2048) ![0, 0, 0] S2x16x2048.size inb_S2x16x2048_S2x16x2048_0_0_0

/-- The three zero offsets, as a constant function. -/
theorem zeros3 : (![0, 0, 0] : Fin 3 → ℕ) = fun _ => 0 := by
  funext a; fin_cases a <;> rfl

/-! ## What the body leaves in the two output buffers -/

/-- Window 2's staging buffer after the body, from the two input blocks: the single store into it,
    whose value is the second matrix product, computed from what the two loads read. -/
def energyBlk (x0 : Vec F S2x16x1024 .f32) (x1 : Vec F S2x2048x1024 .f32) : Vec F S2x16x1024 .f32 :=
  View.canon [⟨rKey, k0_pay2 (View.ld x0 rKey) (View.ld x1 rQuery)⟩]

/-- Window 3's staging buffer after the body: the single store into it, whose value is the softmax
    of the first matrix product, computed from what the two loads read. -/
def attnBlk (x0 : Vec F S2x16x1024 .f32) (x1 : Vec F S2x2048x1024 .f32) : Vec F S2x16x2048 .f32 :=
  View.canon [⟨rAttn, k0_pay1 (View.ld x0 rKey) (View.ld x1 rQuery)⟩]

/-- A load of a whole buffer reads its contents and one store of a whole buffer leaves its value: the
    energy block is the second product of the input blocks, -/
theorem energyBlk_eq (x0 : Vec F S2x16x1024 .f32) (x1 : Vec F S2x2048x1024 .f32) : energyBlk x0 x1 = k0_pay2 x0 x1 := by
  unfold energyBlk
  rw [View.canon_unit_zero zeros3]
  simp only [View.ld_unit_zero (S := S2x16x1024) zeros3, View.ld_unit_zero (S := S2x2048x1024) zeros3]

/-- and the attention block is the softmax of the first. -/
theorem attnBlk_eq (x0 : Vec F S2x16x1024 .f32) (x1 : Vec F S2x2048x1024 .f32) : attnBlk x0 x1 = k0_pay1 x0 x1 := by
  unfold attnBlk
  rw [View.canon_unit_zero zeros3]
  simp only [View.ld_unit_zero (S := S2x16x1024) zeros3, View.ld_unit_zero (S := S2x2048x1024) zeros3]

/-- The one store into window 2's buffer covers it. -/
theorem coverEnergy (p : Vec F S2x16x1024 .f32) (y : S2x16x1024.Idx) :
    ∃ pc ∈ ([⟨rKey, p⟩] : List (View.Piece (Elt F) S2x16x1024 .f32)), y ∈ pc.1.set :=
  ⟨_, List.mem_singleton_self _, View.mem_set_unit_zero (S := S2x16x1024) zeros3 inb_S2x16x1024_S2x16x1024_0_0_0 y⟩

/-- The one store into window 3's buffer covers it. -/
theorem coverAttn (p : Vec F S2x16x2048 .f32) (y : S2x16x2048.Idx) :
    ∃ pc ∈ ([⟨rAttn, p⟩] : List (View.Piece (Elt F) S2x16x2048 .f32)), y ∈ pc.1.set :=
  ⟨_, List.mem_singleton_self _, View.mem_set_unit_zero (S := S2x16x2048) zeros3 inb_S2x16x2048_S2x16x2048_0_0_0 y⟩

/-! ## The body's triple -/

set_option maxHeartbeats 1000000 in
/-- The body, run on four whole staging memrefs — the inputs' reading `x0` and `x1`, the outputs' holding
    anything —, ends with the inputs' unchanged and the outputs' at `energyBlk x0 x1` and `attnBlk x0 x1`.
    (The body's loads of the output buffers read whatever is there and the values are dropped.) -/
theorem sound_kernel0 (c : Dev nD) (E : Set ℕ) (i : grid0.Coords)
    (arg1 : Memref sig .tc .vmem S2x16x1024 .f32) (harg1 : arg1.IsWhole)
    (arg2 : Memref sig .tc .vmem S2x2048x1024 .f32) (harg2 : arg2.IsWhole)
    (arg3 : Memref sig .tc .vmem S2x16x1024 .f32) (harg3 : arg3.IsWhole)
    (arg4 : Memref sig .tc .vmem S2x16x2048 .f32) (harg4 : arg4.IsWhole)
    (x0 : Vec F S2x16x1024 .f32) (x1 : Vec F S2x2048x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (energyBlk x0 x1) ∗ owns (c : Thread nD τ) arg4 fullShare (attnBlk x0 x1)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverEnergy _)
  iexists _; isplitr
  swap; · iexact H3
  ipureintro
  exact View.read_writes_eq_canon _ _ _ (coverAttn _)

/-! ## The pipeline's proof data -/

/-- The proof data of the pipeline on core `c`: the arrays as the region finds them; after the body at
    point `t` each input's buffer still at its block, window 2's at the energy block and window 3's at the
    attention block of the two input blocks; as invariant the buffers the pipeline does not stage and the
    generator register, untouched; full shares, nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => energyBlk (iblk0 V c 0 t) (iblk0 V c 1 t)
    | ⟨3, _⟩ => attnBlk (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = energyBlk (iblk0 V c 0 t) (iblk0 V c 1 t) := by dsimp only [dat0]
theorem after0_3 (c : Dev nD) (t : Fin cfg0.N) : (dat0 V c).after 3 t = attnBlk (iblk0 V c 0 t) (iblk0 V c 1 t) := by dsimp only [dat0]

/-- Each input's current staging buffer holds its block when the body starts. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, the core's debts, and each window's
    current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«168501_j15375982920258_2_alg».proof.Proof.Gen.Kernel.Launch
import proofs.«168501_j15375982920258_2_alg».proof.Proof.Gen.Kernel.Skeleton
import proofs.«168501_j15375982920258_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
# Region 1: the linear layer's body, point by point

The program's second kernel runs on a grid of 2 points with six windows: five inputs — two row blocks
(windows 0 and 1, whose block index follows the point and which are fetched at every point), the two
weight slices and the bias (windows 2, 3 and 4, whose block index is constant, so they are fetched at
the first point only and found in place at the second) — and one output (window 5, the hidden block,
written back at every point). Its body reads the five input blocks whole and overwrites the output
staging buffer whole. So what it leaves is a function of the five input blocks alone.

This module gives, at an arbitrary valuation `V` of the core's buffers on entry to the region:
the block of each window at each point, the contents of the output buffer after the body, the
separation-logic triple of the body, the pipeline's proof data, and the body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- The block of window `w` at point `t`: the part of the window's array, as the region finds it,
    that the window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block untouched holds that block when the body starts, at
    every point: either it was just fetched, or its block index did not move since the point before and
    the buffer still holds the earlier point's block, which is this point's. Window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (fetched at the first point only). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (fetched at the first point only). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (fetched at the first point only). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each staging buffer, whole -/

/-- All of a `512×1024` buffer (windows 0, 1 and 5). -/
abbrev rRows : Rect S512x1024 := Rect.unit (s := S512x1024) ![0, 0] S512x1024.size inb_S512x1024_S512x1024_0_0
/-- All of a `1024×1024` buffer (windows 2 and 3). -/
abbrev rWeight : Rect S1024x1024 := Rect.unit (s := S1024x1024) ![0, 0] S1024x1024.size inb_S1024x1024_S1024x1024_0_0
/-- All of a `1024` buffer (window 4). -/
abbrev rBias : Rect S1024 := Rect.unit (s := S1024) ![0] S1024.size inb_S1024_S1024_0

/-- Zero offsets, as constant functions. -/
theorem zeros2 : (![0, 0] : Fin 2 → ℕ) = fun _ => 0 := by
  funext a; fin_cases a <;> rfl
theorem zeros1 : (![0] : Fin 1 → ℕ) = fun _ => 0 := by
  funext a; fin_cases a; rfl

/-! ## What the body leaves in the output buffer -/

/-- Window 5's staging buffer after the body, from the five input blocks: the single store into it,
    whose value is the hyperbolic tangent of the two products' sum plus the bias, computed from what the
    five loads read. -/
def hiddenBlk (x0 x1 : Vec F S512x1024 .f32) (x2 x3 : Vec F S1024x1024 .f32) (x4 : Vec F S1024 .f32) : Vec F S512x1024 .f32 :=
  View.canon [⟨rRows, k1_pay1 (View.ld x0 rRows) (View.ld x1 rRows) (View.ld x2 rWeight) (View.ld x3 rWeight) (View.ld x4 rBias)⟩]

/-- A load of a whole buffer reads its contents and one store of a whole buffer leaves its value: the
    hidden block is that value at the five input blocks. -/
theorem hiddenBlk_eq (x0 x1 : Vec F S512x1024 .f32) (x2 x3 : Vec F S1024x1024 .f32) (x4 : Vec F S1024 .f32) :
    hiddenBlk x0 x1 x2 x3 x4 = k1_pay1 x0 x1 x2 x3 x4 := by
  unfold hiddenBlk
  rw [View.canon_unit_zero zeros2]
  simp only [View.ld_unit_zero (S := S512x1024) zeros2, View.ld_unit_zero (S := S1024x1024) zeros2,
    View.ld_unit_zero (S := S1024) zeros1]

/-- The one store into window 5's buffer covers it. -/
theorem coverHidden (p : Vec F S512x1024 .f32) (y : S512x1024.Idx) :
    ∃ pc ∈ ([⟨rRows, p⟩] : List (View.Piece (Elt F) S512x1024 .f32)), y ∈ pc.1.set :=
  ⟨_, List.mem_singleton_self _, View.mem_set_unit_zero (S := S512x1024) zeros2 inb_S512x1024_S512x1024_0_0 y⟩

/-! ## The body's triple -/

set_option maxHeartbeats 1000000 in
/-- The body, run on six whole staging memrefs — the inputs' reading `x0 … x4`, the output's holding
    anything —, ends with the inputs' unchanged and the output's at `hiddenBlk x0 x1 x2 x3 x4`.
    (The body's load of the output buffer reads whatever is there and the value is dropped.) -/
theorem sound_kernel1 (c : Dev nD) (E : Set ℕ) (i : grid1.Coords)
    (arg1 : Memref sig .tc .vmem S512x1024 .f32) (harg1 : arg1.IsWhole)
    (arg2 : Memref sig .tc .vmem S512x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024 .f32) (harg5 : arg5.IsWhole)
    (arg6 : Memref sig .tc .vmem S512x1024 .f32) (harg6 : arg6.IsWhole)
    (x0 x1 : Vec F S512x1024 .f32) (x2 x3 : Vec F S1024x1024 .f32) (x4 : Vec F S1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (hiddenBlk x0 x1 x2 x3 x4)) -∗ K ⟨⟩))
      ⊢ wp frame (wpE (defs₀ (F := F)) Variants.none c none) E
          (cc1__lin_kernel i arg1 harg1 arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverHidden _)

/-! ## The pipeline's proof data -/

/-- The proof data of the pipeline on core `c`: the arrays as the region finds them; after the body at
    point `t` each input's buffer still at its block and window 5's at the hidden block of the five
    input blocks; as invariant the buffers the pipeline does not stage and the generator register,
    untouched; full shares, nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => hiddenBlk (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    hiddenBlk (iblk1 V c 0 t) (iblk1 V c 1 t) (iblk1 V c 2 t) (iblk1 V c 3 t) (iblk1 V c 4 t) := by dsimp only [dat1]

/-- Each input's current staging buffer holds its block when the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`: the invariant, the core's debts, and each window's
    current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the
    invariant and the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Fc0.lean ====
/-
  The last layer's kernel (a 2 × 4 grid: output-feature half p, contraction tile k) — what its runs share.

  The body keeps a 64 × 512 accumulator in a scratch buffer across the four tiles of one half: at k = 0 it is
  zeroed, at every k the tile's partial product is added to it, and at k = 3 the accumulator plus the bias is
  stored into the output block, which the pipeline writes back there and nowhere else. Here: the two branch
  conditions decided over the grid, where the output window is idle, each input window's block at a point, and
  the region invariant split at the scratch buffer.
-/
import proofs.«168501_j15375982920258_2_alg».proof.Proof.Gen.Kernel.Launch
import proofs.«168501_j15375982920258_2_alg».proof.Proof.Gen.Kernel.Skeleton
import proofs.«168501_j15375982920258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- "This is the first contraction tile": the body's first branch, as the scalar chain it prints. -/
abbrev firstTile (i : grid2.Coords) : Prop :=
  (Scalar.cmpi .ne (Scalar.extui (Scalar.cmpi .eq (BitVec.ofNat 32 (i 1).val) 0#32)) 0#32) = 1#1
/-- It holds at the points ≡ 0 (mod 4). -/
theorem firstTile_iff : ∀ t : Fin cfg2.N, firstTile (grid2.coords t) ↔ t.val % 4 = 0 :=
  (by decide +kernel : ∀ t : Fin grid2.N, firstTile (grid2.coords t) ↔ t.val % 4 = 0)

/-- "This is the last contraction tile": the body's second branch. -/
abbrev lastTile (i : grid2.Coords) : Prop := k2_cond2 i = 1#1
/-- It holds at the points ≡ 3 (mod 4). -/
theorem lastTile_iff : ∀ t : Fin cfg2.N, lastTile (grid2.coords t) ↔ t.val % 4 = 3 :=
  (by decide +kernel : ∀ t : Fin grid2.N, lastTile (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Off the last tile the output window is idle: nothing is stored into it … -/
theorem idle2_3 : ∀ t : Fin cfg2.N, ¬ t.val % 4 = 3 → cfg2.idle 3 (grid2.coords t) = true := by decide +kernel
/-- … and it is not written back. -/
theorem noFlush2_3 : ∀ t : Fin cfg2.N, ¬ t.val % 4 = 3 → (cfg2.win 3).flush t = false := by decide +kernel
/-- On the last tile it is live. -/
theorem live2_3 : ∀ t : Fin cfg2.N, t.val % 4 = 3 → cfg2.idle 3 (grid2.coords t) = false := by decide +kernel

/-! ## The memrefs the body is called with -/

abbrev ms2_0 (t : Fin cfg2.N) : Memref sig .tc .vmem S64x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x512 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev accM : Memref sig .tc .vmem S64x512 .f32 := Memref.whole cc2_scratch0

/-! ## The region invariant, split at the accumulator -/

/-- The class's invariant is the accumulator at some contents, every other scoped buffer that is no staging buffer of
    this kernel (unopened), and the generator register at some state. -/
theorem PhiA2_eq (c : Dev nD) :
    (Pipeline.ΦA spec2 c : sProp 𝕄)
      = iprop(((∃ d, owns (c : Thread nD τ) (accM) fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [accM, owns_whole]
  rfl

section Blocks

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    not (unfetched, its block index has not moved since the point that did). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.Kernel.Hand

end
-- ==== Proof.K.Fc1.lean ====
/-
  The last layer's kernel body, run once per kind of point.

  On a first tile (k = 0) the accumulator is zeroed and the tile's partial product added: it ends at
  `k2_pay2 x0 x1 k2_pay1`. On a middle tile it goes from `xs` to `k2_pay2 x0 x1 xs`. On the last tile it does the
  same and the output block is stored: `k2_pay3` of the new accumulator and the bias block. Buffers a case never
  touches are left out of its triple.
-/
import proofs.«168501_j15375982920258_2_alg».proof.Proof.K.Fc0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz1 : (![0] : Fin 1 → Nat) = fun _ => 0 := by funext a; fin_cases a; rfl

set_option maxHeartbeats 1000000 in
/-- A middle tile: neither branch taken. -/
theorem fc_middle (c : Dev nD) (i : grid2.Coords) (E : Set ℕ)
    (arg2 : Memref sig .tc .vmem S64x4096 .f32) (harg2 : arg2.IsWhole) (arg3 : Memref sig .tc .vmem S512x4096 .f32) (harg3 : arg3.IsWhole)
    (arg4 : Memref sig .tc .vmem S512 .f32) (harg4 : arg4.IsWhole) (arg5 : Memref sig .tc .vmem S64x512 .f32) (harg5 : arg5.IsWhole)
    (arg6 : Memref sig .tc .vmem S64x512 .f32) (harg6 : arg6.IsWhole)
    (hc0 : ¬ firstTile i) (hc1 : ¬ lastTile i)
    (x0 : Vec F S64x4096 .f32) (x1 : Vec F S512x4096 .f32) (xs : Vec F S64x512 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k2_pay2 x0 x1 xs)) -∗ K ⟨⟩))
      ⊢ wp frame (wpE (defs₀ (F := F)) Variants.none c none) E (cc2__fc_kernel i arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  rw [View.read_writes_eq_canon _ _ _ (fun y => ⟨_, List.mem_cons.mpr (Or.inl rfl), View.mem_set_unit_zero hz2 inb_S64x512_S64x512_0_0 y⟩), View.canon_unit_zero hz2]
  simp only [View.readAt_eq_ld, View.ld_unit_zero (S := S64x4096) hz2, View.ld_unit_zero (S := S512x4096) hz2, View.ld_unit_zero (S := S64x512) hz2]

set_option maxHeartbeats 1000000 in
/-- A first tile: the accumulator, at anything, is zeroed, then the partial product added. -/
theorem fc_first (c : Dev nD) (i : grid2.Coords) (E : Set ℕ)
    (arg2 : Memref sig .tc .vmem S64x4096 .f32) (harg2 : arg2.IsWhole) (arg3 : Memref sig .tc .vmem S512x4096 .f32) (harg3 : arg3.IsWhole)
    (arg4 : Memref sig .tc .vmem S512 .f32) (harg4 : arg4.IsWhole) (arg5 : Memref sig .tc .vmem S64x512 .f32) (harg5 : arg5.IsWhole)
    (arg6 : Memref sig .tc .vmem S64x512 .f32) (harg6 : arg6.IsWhole)
    (hc0 : firstTile i) (hc1 : ¬ lastTile i)
    (x0 : Vec F S64x4096 .f32) (x1 : Vec F S512x4096 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k2_pay2 x0 x1 k2_pay1)) -∗ K ⟨⟩))
      ⊢ wp frame (wpE (defs₀ (F := F)) Variants.none c none) E (cc2__fc_kernel i arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (fun y => ⟨_, List.mem_cons.mpr (Or.inl rfl), View.mem_set_unit_zero hz2 inb_S64x512_S64x512_0_0 y⟩)]
  rw [View.canon_cons_unit_zero (S := S64x512) hz2, View.readCov_unit_zero (S := S64x512) _ hz2]
  simp only [View.readAt_eq_ld, View.ld_unit_zero (S := S64x4096) hz2, View.ld_unit_zero (S := S512x4096) hz2]

set_option maxHeartbeats 1000000 in
/-- The last tile: the partial product added, then accumulator plus bias stored into the output block. -/
theorem fc_last (c : Dev nD) (i : grid2.Coords) (E : Set ℕ)
    (arg2 : Memref sig .tc .vmem S64x4096 .f32) (harg2 : arg2.IsWhole) (arg3 : Memref sig .tc .vmem S512x4096 .f32) (harg3 : arg3.IsWhole)
    (arg4 : Memref sig .tc .vmem S512 .f32) (harg4 : arg4.IsWhole) (arg5 : Memref sig .tc .vmem S64x512 .f32) (harg5 : arg5.IsWhole)
    (arg6 : Memref sig .tc .vmem S64x512 .f32) (harg6 : arg6.IsWhole)
    (hc0 : ¬ firstTile i) (hc1 : lastTile i)
    (x0 : Vec F S64x4096 .f32) (x1 : Vec F S512x4096 .f32) (x2 : Vec F S512 .f32) (xs : Vec F S64x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 xs) x2)
            ∗ owns (c : Thread nD τ) arg6 fullShare (k2_pay2 x0 x1 xs)) -∗ K ⟨⟩))
      ⊢ wp frame (wpE (defs₀ (F := F)) Variants.none c none) E (cc2__fc_kernel i arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons.mpr (Or.inl rfl), View.mem_set_unit_zero hz2 inb_S64x512_S64x512_0_0 y⟩)]
    rw [View.canon_unit_zero (S := S64x512) hz2, View.readCov_unit_zero (S := S64x512) _ hz2]
    simp only [View.readAt_eq_ld, View.ld_unit_zero (S := S64x4096) hz2, View.ld_unit_zero (S := S512x4096) hz2, View.ld_unit_zero (S := S64x512) hz2, View.ld_unit_zero (S := S512) hz1]
  iexists _; isplitr
  swap; · iexact H6
  ipureintro
  sl_unfold_words
  rw [View.read_writes_eq_canon _ _ _ (fun y => ⟨_, List.mem_cons.mpr (Or.inl rfl), View.mem_set_unit_zero hz2 inb_S64x512_S64x512_0_0 y⟩), View.canon_unit_zero hz2]
  simp only [View.readAt_eq_ld, View.ld_unit_zero (S := S64x4096) hz2, View.ld_unit_zero (S := S512x4096) hz2, View.ld_unit_zero (S := S64x512) hz2]

end Cert.Kernel.Hand

end
-- ==== Proof.K.Fc2.lean ====
/-
  The last layer's kernel over its grid: what the accumulator holds after each point, the region invariant that
  carries it from point to point, the proof data, and the body obligation.

  After point n the accumulator holds the sum of the partial products of the tiles of n's half seen so far:
  `accAt n = k2_pay2 (flat block at n) (weight block at n) (zero, if n is a first tile, else accAt (n − 1))`.
  The output block is stored on the last tile only: `k2_pay3 (accAt n) (bias block at n)`.
-/
import proofs.«168501_j15375982920258_2_alg».proof.Proof.K.Fc1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`. -/
def accAt (c : Dev nD) : (n : ℕ) → n < cfg2.N → Vec F S64x512 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 4 = 0 then k2_pay1 else accAt c n (Nat.lt_of_succ_lt hn))

/-- On a first tile it restarts from zero. -/
theorem accAt_first (c : Dev nD) (t : Fin cfg2.N) (h : t.val % 4 = 0) :
    accAt V c t.val t.isLt = k2_pay2 (iblk2 V c 0 t) (iblk2 V c 1 t) k2_pay1 := by
  obtain ⟨n, hn⟩ := t
  cases n with
  | zero => rfl
  | succ n => show k2_pay2 _ _ (if (n + 1) % 4 = 0 then _ else _) = _; rw [if_pos h]

/-- On any other tile it adds to what the point before left. -/
theorem accAt_next (c : Dev nD) (t : Fin cfg2.N) (h : ¬ t.val % 4 = 0) :
    accAt V c t.val t.isLt = k2_pay2 (iblk2 V c 0 t) (iblk2 V c 1 t)
      (accAt V c (t.val - 1) (Nat.lt_of_le_of_lt (Nat.sub_le _ _) t.isLt)) := by
  obtain ⟨n, hn⟩ := t
  cases n with
  | zero => exact absurd (Nat.zero_mod _) h
  | succ n => show k2_pay2 _ _ (if (n + 1) % 4 = 0 then _ else _) = _; rw [if_neg h]; rfl

/-- The region invariant before position `n`: before the first point the class's; afterwards the accumulator at what
    the point before left, the other scoped buffers unopened, the generator register at some state. -/
def PhiS (c : Dev nD) : (n : ℕ) → n ≤ cfg2.N → sProp 𝕄
  | 0, _ => Pipeline.ΦA spec2 c
  | n + 1, hn => iprop((owns (c : Thread nD τ) accM fullShare (accAt V c n hn) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((owns (c : Thread nD τ) accM fullShare (accAt V c n hn) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop((owns (c : Thread nD τ) accM fullShare (accAt V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this pipeline on core `c`, at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt V c t.val t.isLt) (iblk2 V c 2 t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (accAt V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: its position modulo 4 says which kind of point it is; the invariant hands the body the
    accumulator (at anything before the first point; at what the point before left afterwards) and takes it back at
    this point's contents; off the last tile the output's buffer goes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 8 := lt_of_lt_of_eq t.isLt (show cfg2.N = 8 from N_2)
  by_cases h0 : t.val % 4 = 0
  · have h3 : ¬ t.val % 4 = 3 := by omega
    rw [Dat.leavesExact_idle (dat2 V c) 3 t (idle2_3 t h3) (noFlush2_3 t h3), accAt_first V c t h0]
    by_cases hz : t.val = 0
    · rw [PhiS_castSucc V c t, PhiS_zero V c _ _ hz, PhiA2_eq]
      iintro ⟨⟨⟨HS, HR⟩, Hg⟩, Ho, ⟨%d0, H0⟩, ⟨%d1, H1⟩, ⟨%d2, H2⟩, H3⟩
      iapply (fc_first c (grid2.coords t) Set.univ _ _ _ _ _ _ _ _ _ _ ((firstTile_iff t).mpr h0) (fun h => h3 ((lastTile_iff t).mp h)) (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, HR⟩, Hg⟩, Ho, ⟨%d0, H0⟩, ⟨%d1, H1⟩, ⟨%d2, H2⟩, H3⟩
      iapply (fc_first c (grid2.coords t) Set.univ _ _ _ _ _ _ _ _ _ _ ((firstTile_iff t).mpr h0) (fun h => h3 ((lastTile_iff t).mp h)) (iblk2 V c 0 t) (iblk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [PhiS_castSucc V c t, PhiS_pos V c _ _ hz, accAt_next V c t h0]
    by_cases h3 : t.val % 4 = 3
    · rw [show (dat2 V c).leavesExact 3 t = owns (c : Thread nD τ) (ms2_3 t) fullShare ((dat2 V c).after 3 t) from by
        unfold Dat.leavesExact; rw [live2_3 t h3], after2_3, accAt_next V c t h0]
      iintro ⟨⟨⟨HS, HR⟩, Hg⟩, Ho, ⟨%d0, H0⟩, ⟨%d1, H1⟩, ⟨%d2, H2⟩, ⟨%d3, H3⟩⟩
      iapply (fc_last c (grid2.coords t) Set.univ _ _ _ _ _ _ _ _ _ _ (fun h => h0 ((firstTile_iff t).mp h)) ((lastTile_iff t).mpr h3) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat2 V c) 3 t (idle2_3 t h3) (noFlush2_3 t h3)]
      iintro ⟨⟨⟨HS, HR⟩, Hg⟩, Ho, ⟨%d0, H0⟩, ⟨%d1, H1⟩, ⟨%d2, H2⟩, H3⟩
      iapply (fc_middle c (grid2.coords t) Set.univ _ _ _ _ _ _ _ _ _ _ (fun h => h0 ((firstTile_iff t).mp h)) (fun h => h3 ((lastTile_iff t).mp h)) (iblk2 V c 0 t) (iblk2 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]

/-- After the last point the invariant gives the class's back: what the accumulator holds is forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 8 := N_2; omega), PhiA2_eq]
  iintro ⟨⟨HS, HR⟩, Hg⟩
  isplitl [HS HR]
  · isplitl [HS]; · iexists _; iexact HS
    iexact HR
  iexact Hg

end Cert.Kernel.Hand

end
-- ==== Proof.K.Run.lean ====
/-
  The run of the whole program: three kernel regions with two stretches of host operations between them.

  The buffer contents at each boundary are a fold from the launch memory: a region leaves its arrays at what its
  write-backs leave and every other buffer as it found it; a host stretch leaves what its operations compute. Each
  region is entered from every unscoped buffer at the boundary's contents (with the generator register at some state
  and nothing owed) and left at the next boundary's. Every weakly fair execution terminates, and the final memory
  holds every unscoped buffer at the last boundary's contents; the six argument arrays walk back through the fold to
  their launch contents, since no host operation and no region writes one.
-/
import proofs.«168501_j15375982920258_2_alg».proof.Proof.K.Region0
import proofs.«168501_j15375982920258_2_alg».proof.Proof.K.Region1
import proofs.«168501_j15375982920258_2_alg».proof.Proof.K.Fc2
import proofs.«168501_j15375982920258_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev M0 : Dev nD → Valuation τ sig (Elt F) := fun c b => (s₀ m ρ).mem ((c : Dev nD), b)
abbrev E0 : (c : Dev nD) → (b : Ref sig .tc) → Buf (Elt F) ((c : Thread nD τ).loc b) := fun c b => M0 m ρ c b

/-- At region 0's exit: its arrays at what the pipeline leaves (the inputs as entered, each output's write-backs folded),
    every other buffer as entered. -/
def M1 (c : Dev nD) : Valuation τ sig (Elt F) :=
  Pipeline.withArrays spec0 c (M0 m ρ c) fun w => (dat0 (E0 m ρ) c).arrAt w cfg0.N
theorem M1_arr (c : Dev nD) (w : Fin cfg0.W) :
    M1 m ρ c (Proc.devRef .tc (Pipeline.arrRef spec0 w)) = (dat0 (E0 m ρ) c).arrAt w cfg0.N := by
  unfold M1; exact Pipeline.withArrays_arr spec0 launch0.win.arr_inj c _ _ w
theorem M1_of_ne (c : Dev nD) (b : Ref sig .tc) (hb : ∀ w, Pipeline.arrRef spec0 w ≠ b) :
    M1 m ρ c (Proc.devRef .tc b) = M0 m ρ c (Proc.devRef .tc b) := by
  unfold M1; exact Pipeline.withArrays_of_ne spec0 c _ _ b hb
/-- The same read at the TensorCore's references. -/
abbrev E1 : (c : Dev nD) → (b : Ref sig .tc) → Buf (Elt F) ((c : Thread nD τ).loc b) := fun c b => M1 m ρ c b
theorem hF0 (c : Dev nD) (w : Fin cfg0.W) : (dat0 (E0 m ρ) c).arrAt w cfg0.N = E1 m ρ c (Pipeline.arrRef spec0 w) :=
  (M1_arr m ρ c w).symm
theorem hrest0 (c : Dev nD) : ∀ b, b ∉ Finset.univ.image (Pipeline.arrRef spec0) → E1 m ρ c b = E0 m ρ c b :=
  fun b hb => M1_of_ne m ρ c b fun w e => hb (Finset.mem_image.mpr ⟨w, Finset.mem_univ _, e⟩)

/-- After the first host stretch (region 1's entry). -/
abbrev M2 : Dev nD → Valuation τ sig (Elt F) := fun c => StableHlo.after hostOps1 (M1 m ρ c)
abbrev E2 : (c : Dev nD) → (b : Ref sig .tc) → Buf (Elt F) ((c : Thread nD τ).loc b) := fun c b => M2 m ρ c b

/-- At region 1's exit: its arrays at what the pipeline leaves (the inputs as entered, each output's write-backs folded),
    every other buffer as entered. -/
def M3 (c : Dev nD) : Valuation τ sig (Elt F) :=
  Pipeline.withArrays spec1 c (M2 m ρ c) fun w => (dat1 (E2 m ρ) c).arrAt w cfg1.N
theorem M3_arr (c : Dev nD) (w : Fin cfg1.W) :
    M3 m ρ c (Proc.devRef .tc (Pipeline.arrRef spec1 w)) = (dat1 (E2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
/-- The same read at the TensorCore's references. -/
abbrev E3 : (c : Dev nD) → (b : Ref sig .tc) → Buf (Elt F) ((c : Thread nD τ).loc b) := fun c b => M3 m ρ c b
theorem hF1 (c : Dev nD) (w : Fin cfg1.W) : (dat1 (E2 m ρ) c).arrAt w cfg1.N = E3 m ρ c (Pipeline.arrRef spec1 w) :=
  (M3_arr m ρ c w).symm
theorem hrest1 (c : Dev nD) : ∀ b, b ∉ Finset.univ.image (Pipeline.arrRef spec1) → E3 m ρ c b = E2 m ρ c b :=
  fun b hb => M3_of_ne m ρ c b fun w e => hb (Finset.mem_image.mpr ⟨w, Finset.mem_univ _, e⟩)

/-- After the second host stretch (region 2's entry). -/
abbrev M4 : Dev nD → Valuation τ sig (Elt F) := fun c => StableHlo.after hostOps2 (M3 m ρ c)
abbrev E4 : (c : Dev nD) → (b : Ref sig .tc) → Buf (Elt F) ((c : Thread nD τ).loc b) := fun c b => M4 m ρ c b

/-- At region 2's exit: its arrays at what the pipeline leaves (the inputs as entered, each output's write-backs folded),
    every other buffer as entered. -/
def M5 (c : Dev nD) : Valuation τ sig (Elt F) :=
  Pipeline.withArrays spec2 c (M4 m ρ c) fun w => (dat2 (E4 m ρ) c).arrAt w cfg2.N
theorem M5_arr (c : Dev nD) (w : Fin cfg2.W) :
    M5 m ρ c (Proc.devRef .tc (Pipeline.arrRef spec2 w)) = (dat2 (E4 m ρ) c).arrAt w cfg2.N := by
  unfold M5; exact Pipeline.withArrays_arr spec2 launch2.win.arr_inj c _ _ w
theorem M5_of_ne (c : Dev nD) (b : Ref sig .tc) (hb : ∀ w, Pipeline.arrRef spec2 w ≠ b) :
    M5 m ρ c (Proc.devRef .tc b) = M4 m ρ c (Proc.devRef .tc b) := by
  unfold M5; exact Pipeline.withArrays_of_ne spec2 c _ _ b hb
/-- The same read at the TensorCore's references. -/
abbrev E5 : (c : Dev nD) → (b : Ref sig .tc) → Buf (Elt F) ((c : Thread nD τ).loc b) := fun c b => M5 m ρ c b
theorem hF2 (c : Dev nD) (w : Fin cfg2.W) : (dat2 (E4 m ρ) c).arrAt w cfg2.N = E5 m ρ c (Pipeline.arrRef spec2 w) :=
  (M5_arr m ρ c w).symm
theorem hrest2 (c : Dev nD) : ∀ b, b ∉ Finset.univ.image (Pipeline.arrRef spec2) → E5 m ρ c b = E4 m ρ c b :=
  fun b hb => M5_of_ne m ρ c b fun w e => hb (Finset.mem_image.mpr ⟨w, Finset.mem_univ _, e⟩)

/-! ## The arguments end as launched -/

theorem M5_main_arg0 (c : Dev nD) : M5 m ρ c (Proc.devRef .tc main_arg0) = m ((c : Thread nD τ).loc main_arg0) :=
  calc M5 m ρ c (Proc.devRef .tc main_arg0)
    _ = M4 m ρ c (Proc.devRef .tc main_arg0) := M5_of_ne m ρ c main_arg0 (by decide)
    _ = M3 m ρ c (Proc.devRef .tc main_arg0) := StableHlo.after_of_writes_sub hostOps2 _ hostOps2_writes (by decide)
    _ = M2 m ρ c (Proc.devRef .tc main_arg0) := M3_of_ne m ρ c main_arg0 (by decide)
    _ = M1 m ρ c (Proc.devRef .tc main_arg0) := StableHlo.after_of_writes_sub hostOps1 _ hostOps1_writes (by decide)
    _ = M0 m ρ c (Proc.devRef .tc main_arg0) := (M1_arr m ρ c 0).trans (((dat0 (E0 m ρ) c).arrAt_in 0 rfl _).trans (A_eq0 (E0 m ρ) c 0))
    _ = m ((c : Thread nD τ).loc main_arg0) := rfl

theorem M5_main_arg1 (c : Dev nD) : M5 m ρ c (Proc.devRef .tc main_arg1) = m ((c : Thread nD τ).loc main_arg1) :=
  calc M5 m ρ c (Proc.devRef .tc main_arg1)
    _ = M4 m ρ c (Proc.devRef .tc main_arg1) := M5_of_ne m ρ c main_arg1 (by decide)
    _ = M3 m ρ c (Proc.devRef .tc main_arg1) := StableHlo.after_of_writes_sub hostOps2 _ hostOps2_writes (by decide)
    _ = M2 m ρ c (Proc.devRef .tc main_arg1) := M3_of_ne m ρ c main_arg1 (by decide)
    _ = M1 m ρ c (Proc.devRef .tc main_arg1) := StableHlo.after_of_writes_sub hostOps1 _ hostOps1_writes (by decide)
    _ = M0 m ρ c (Proc.devRef .tc main_arg1) := (M1_arr m ρ c 1).trans (((dat0 (E0 m ρ) c).arrAt_in 1 rfl _).trans (A_eq0 (E0 m ρ) c 1))
    _ = m ((c : Thread nD τ).loc main_arg1) := rfl

theorem M5_main_arg2 (c : Dev nD) : M5 m ρ c (Proc.devRef .tc main_arg2) = m ((c : Thread nD τ).loc main_arg2) :=
  calc M5 m ρ c (Proc.devRef .tc main_arg2)
    _ = M4 m ρ c (Proc.devRef .tc main_arg2) := M5_of_ne m ρ c main_arg2 (by decide)
    _ = M3 m ρ c (Proc.devRef .tc main_arg2) := StableHlo.after_of_writes_sub hostOps2 _ hostOps2_writes (by decide)
    _ = M2 m ρ c (Proc.devRef .tc main_arg2) := M3_of_ne m ρ c main_arg2 (by decide)
    _ = M1 m ρ c (Proc.devRef .tc main_arg2) := StableHlo.after_of_writes_sub hostOps1 _ hostOps1_writes (by decide)
    _ = M0 m ρ c (Proc.devRef .tc main_arg2) := M1_of_ne m ρ c main_arg2 (by decide)
    _ = m ((c : Thread nD τ).loc main_arg2) := rfl

theorem M5_main_arg3 (c : Dev nD) : M5 m ρ c (Proc.devRef .tc main_arg3) = m ((c : Thread nD τ).loc main_arg3) :=
  calc M5 m ρ c (Proc.devRef .tc main_arg3)
    _ = M4 m ρ c (Proc.devRef .tc main_arg3) := M5_of_ne m ρ c main_arg3 (by decide)
    _ = M3 m ρ c (Proc.devRef .tc main_arg3) := StableHlo.after_of_writes_sub hostOps2 _ hostOps2_writes (by decide)
    _ = M2 m ρ c (Proc.devRef .tc main_arg3) := (M3_arr m ρ c 4).trans (((dat1 (E2 m ρ) c).arrAt_in 4 rfl _).trans (A_eq1 (E2 m ρ) c 4))
    _ = M1 m ρ c (Proc.devRef .tc main_arg3) := StableHlo.after_of_writes_sub hostOps1 _ hostOps1_writes (by decide)
    _ = M0 m ρ c (Proc.devRef .tc main_arg3) := M1_of_ne m ρ c main_arg3 (by decide)
    _ = m ((c : Thread nD τ).loc main_arg3) := rfl

theorem M5_main_arg4 (c : Dev nD) : M5 m ρ c (Proc.devRef .tc main_arg4) = m ((c : Thread nD τ).loc main_arg4) :=
  calc M5 m ρ c (Proc.devRef .tc main_arg4)
    _ = M4 m ρ c (Proc.devRef .tc main_arg4) := (M5_arr m ρ c 1).trans (((dat2 (E4 m ρ) c).arrAt_in 1 rfl _).trans (A_eq2 (E4 m ρ) c 1))
    _ = M3 m ρ c (Proc.devRef .tc main_arg4) := StableHlo.after_of_writes_sub hostOps2 _ hostOps2_writes (by decide)
    _ = M2 m ρ c (Proc.devRef .tc main_arg4) := M3_of_ne m ρ c main_arg4 (by decide)
    _ = M1 m ρ c (Proc.devRef .tc main_arg4) := StableHlo.after_of_writes_sub hostOps1 _ hostOps1_writes (by decide)
    _ = M0 m ρ c (Proc.devRef .tc main_arg4) := M1_of_ne m ρ c main_arg4 (by decide)
    _ = m ((c : Thread nD τ).loc main_arg4) := rfl

theorem M5_main_arg5 (c : Dev nD) : M5 m ρ c (Proc.devRef .tc main_arg5) = m ((c : Thread nD τ).loc main_arg5) :=
  calc M5 m ρ c (Proc.devRef .tc main_arg5)
    _ = M4 m ρ c (Proc.devRef .tc main_arg5) := (M5_arr m ρ c 2).trans (((dat2 (E4 m ρ) c).arrAt_in 2 rfl _).trans (A_eq2 (E4 m ρ) c 2))
    _ = M3 m ρ c (Proc.devRef .tc main_arg5) := StableHlo.after_of_writes_sub hostOps2 _ hostOps2_writes (by decide)
    _ = M2 m ρ c (Proc.devRef .tc main_arg5) := M3_of_ne m ρ c main_arg5 (by decide)
    _ = M1 m ρ c (Proc.devRef .tc main_arg5) := StableHlo.after_of_writes_sub hostOps1 _ hostOps1_writes (by decide)
    _ = M0 m ρ c (Proc.devRef .tc main_arg5) := M1_of_ne m ρ c main_arg5 (by decide)
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (M5 m ρ c) ∗ ∃ r, prngReg c r)

/-! ## The regions as segments -/

set_option backward.isDefEq.respectTransparency.types false in
/-- Region 0 over the thread state: entered from every unscoped buffer at `M0`, left at `M1`. Its arrays are split
    out of the unscoped buffers and put back at what the write-backs leave; the generator register goes into the region
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (M0 m ρ c) ∗ R c)
  post c := iprop(StableHlo.held (c : Thread nD τ) (Pipeline.ucRefs τ sig) (M1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `M2`, left at `M3`. Its arrays are split
    out of the unscoped buffers and put back at what the write-backs leave; the generator register goes into the region
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `M4`, left at `M5`. Its arrays are split
    out of the unscoped buffers and put back at what the write-backs leave; the generator register goes into the region
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (M4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (E4 m ρ) c).Φ 0 from rfl]
    have h := hin2 (E4 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (E4 m ρ) c).Φ (Fin.last cfg2.N) from rfl]
    have h := hout2 (E4 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (M1 m ρ)),
    .region (reg1 m ρ),
    .host (hseg hostOps2 hostOps2_sub hostOps2_fresh (M3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = M5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M5 m ρ c b)
    (hfin := fun c s' => by
      iintro ⟨⟨Hh, -⟩, HSI⟩
      unfold StableHlo.held
      imodintro
      iapply (pointsTo_read_all (Pipeline.ucRefs τ sig) (fun b => (((c : Thread nD τ)).1, b)) (M5 m ρ c) s')
      isplitl [Hh] <;> iassumption)
    (hQ := fun s h c => h c)

end Cert.Kernel.Hand

end
-- ==== Proof.K.Frame.lean ====
/-
  The frame: every weakly fair execution terminates, nothing faults, and the six argument arrays end as launched —
  the run of the three regions read at the arguments.
-/
import proofs.«168501_j15375982920258_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (M5_main_arg0 m ρ c),
     (h c _ (mem_uc main_arg1 (by decide))).trans (M5_main_arg1 m ρ c),
     (h c _ (mem_uc main_arg2 (by decide))).trans (M5_main_arg2 m ρ c),
     (h c _ (mem_uc main_arg3 (by decide))).trans (M5_main_arg3 m ρ c),
     (h c _ (mem_uc main_arg4 (by decide))).trans (M5_main_arg4 m ρ c),
     (h c _ (mem_uc main_arg5 (by decide))).trans (M5_main_arg5 m ρ c)⟩)
    (run_all m ρ)

end Cert.Kernel.Hand

end
-- ==== Proof.KI.Region0.lean ====
import proofs.«168501_j15375982920258_2_alg».proof.Proof.Gen.KernelIdeal.Launch
import proofs.«168501_j15375982920258_2_alg».proof.Proof.Gen.KernelIdeal.Skeleton
import proofs.«168501_j15375982920258_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
# Region 0: the attention kernel's body, point by point

The program's first kernel runs on a grid of 32 points with four windows: the two inputs (windows 0 and 1,
fetched at every point) and the two outputs (window 2, the energy block, and window 3, the attention
block, both written back at every point). Its body reads both input blocks whole, and overwrites both
output staging buffers whole. So what it leaves is a function of the two input blocks alone.

This module gives, at an arbitrary valuation `V` of the core's buffers on entry to the region:
the block of each window at each point, the contents of the two output buffers after the body, the
separation-logic triple of the body, the pipeline's proof data, and the body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- The block of window `w` at point `t`: the part of the window's array, as the region finds it,
    that the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block untouched holds that block when the body starts, at
    every point: either it was just fetched, or its block index did not move since the point before.
    Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each staging buffer, whole -/

/-- All of a `2×16×1024` buffer (windows 0 and 2). -/
abbrev rKey : Rect S2x16x1024 := Rect.unit (s := S2x16x1024) ![0, 0, 0] S2x16x1024.size inb_S2x16x1024_S2x16x1024_0_0_0
/-- All of a `2×2048×1024` buffer (window 1). -/
abbrev rQuery : Rect S2x2048x1024 := Rect.unit (s := S2x2048x1024) ![0, 0, 0] S2x2048x1024.size inb_S2x2048x1024_S2x2048x1024_0_0_0
/-- All of a `2×16×2048` buffer (window 3). -/
abbrev rAttn : Rect S2x16x2048 := Rect.unit (s := S2x16x2048) ![0, 0, 0] S2x16x2048.size inb_S2x16x2048_S2x16x2048_0_0_0

/-- The three zero offsets, as a constant function. -/
theorem zeros3 : (![0, 0, 0] : Fin 3 → ℕ) = fun _ => 0 := by
  funext a; fin_cases a <;> rfl

/-! ## What the body leaves in the two output buffers -/

/-- Window 2's staging buffer after the body, from the two input blocks: the single store into it,
    whose value is the second matrix product, computed from what the two loads read. -/
def energyBlk (x0 : Vec F S2x16x1024 .f32) (x1 : Vec F S2x2048x1024 .f32) : Vec F S2x16x1024 .f32 :=
  View.canon [⟨rKey, k0_pay2 (View.ld x0 rKey) (View.ld x1 rQuery)⟩]

/-- Window 3's staging buffer after the body: the single store into it, whose value is the softmax
    of the first matrix product, computed from what the two loads read. -/
def attnBlk (x0 : Vec F S2x16x1024 .f32) (x1 : Vec F S2x2048x1024 .f32) : Vec F S2x16x2048 .f32 :=
  View.canon [⟨rAttn, k0_pay1 (View.ld x0 rKey) (View.ld x1 rQuery)⟩]

/-- A load of a whole buffer reads its contents and one store of a whole buffer leaves its value: the
    energy block is the second product of the input blocks, -/
theorem energyBlk_eq (x0 : Vec F S2x16x1024 .f32) (x1 : Vec F S2x2048x1024 .f32) : energyBlk x0 x1 = k0_pay2 x0 x1 := by
  unfold energyBlk
  rw [View.canon_unit_zero zeros3]
  simp only [View.ld_unit_zero (S := S2x16x1024) zeros3, View.ld_unit_zero (S := S2x2048x1024) zeros3]

/-- and the attention block is the softmax of the first. -/
theorem attnBlk_eq (x0 : Vec F S2x16x1024 .f32) (x1 : Vec F S2x2048x1024 .f32) : attnBlk x0 x1 = k0_pay1 x0 x1 := by
  unfold attnBlk
  rw [View.canon_unit_zero zeros3]
  simp only [View.ld_unit_zero (S := S2x16x1024) zeros3, View.ld_unit_zero (S := S2x2048x1024) zeros3]

/-- The one store into window 2's buffer covers it. -/
theorem coverEnergy (p : Vec F S2x16x1024 .f32) (y : S2x16x1024.Idx) :
    ∃ pc ∈ ([⟨rKey, p⟩] : List (View.Piece (Elt F) S2x16x1024 .f32)), y ∈ pc.1.set :=
  ⟨_, List.mem_singleton_self _, View.mem_set_unit_zero (S := S2x16x1024) zeros3 inb_S2x16x1024_S2x16x1024_0_0_0 y⟩

/-- The one store into window 3's buffer covers it. -/
theorem coverAttn (p : Vec F S2x16x2048 .f32) (y : S2x16x2048.Idx) :
    ∃ pc ∈ ([⟨rAttn, p⟩] : List (View.Piece (Elt F) S2x16x2048 .f32)), y ∈ pc.1.set :=
  ⟨_, List.mem_singleton_self _, View.mem_set_unit_zero (S := S2x16x2048) zeros3 inb_S2x16x2048_S2x16x2048_0_0_0 y⟩

/-! ## The body's triple -/

set_option maxHeartbeats 1000000 in
/-- The body, run on four whole staging memrefs — the inputs' reading `x0` and `x1`, the outputs' holding
    anything —, ends with the inputs' unchanged and the outputs' at `energyBlk x0 x1` and `attnBlk x0 x1`.
    (The body's loads of the output buffers read whatever is there and the values are dropped.) -/
theorem sound_kernel0 (c : Dev nD) (E : Set ℕ) (i : grid0.Coords)
    (arg1 : Memref sig .tc .vmem S2x16x1024 .f32) (harg1 : arg1.IsWhole)
    (arg2 : Memref sig .tc .vmem S2x2048x1024 .f32) (harg2 : arg2.IsWhole)
    (arg3 : Memref sig .tc .vmem S2x16x1024 .f32) (harg3 : arg3.IsWhole)
    (arg4 : Memref sig .tc .vmem S2x16x2048 .f32) (harg4 : arg4.IsWhole)
    (x0 : Vec F S2x16x1024 .f32) (x1 : Vec F S2x2048x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (energyBlk x0 x1) ∗ owns (c : Thread nD τ) arg4 fullShare (attnBlk x0 x1)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverEnergy _)
  iexists _; isplitr
  swap; · iexact H3
  ipureintro
  exact View.read_writes_eq_canon _ _ _ (coverAttn _)

/-! ## The pipeline's proof data -/

/-- The proof data of the pipeline on core `c`: the arrays as the region finds them; after the body at
    point `t` each input's buffer still at its block, window 2's at the energy block and window 3's at the
    attention block of the two input blocks; as invariant the buffers the pipeline does not stage and the
    generator register, untouched; full shares, nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => energyBlk (iblk0 V c 0 t) (iblk0 V c 1 t)
    | ⟨3, _⟩ => attnBlk (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = energyBlk (iblk0 V c 0 t) (iblk0 V c 1 t) := by dsimp only [dat0]
theorem after0_3 (c : Dev nD) (t : Fin cfg0.N) : (dat0 V c).after 3 t = attnBlk (iblk0 V c 0 t) (iblk0 V c 1 t) := by dsimp only [dat0]

/-- Each input's current staging buffer holds its block when the body starts. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, the core's debts, and each window's
    current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«168501_j15375982920258_2_alg».proof.Proof.Gen.KernelIdeal.Launch
import proofs.«168501_j15375982920258_2_alg».proof.Proof.Gen.KernelIdeal.Skeleton
import proofs.«168501_j15375982920258_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
# Region 1: the linear layer's body, point by point

The program's second kernel runs on a grid of 2 points with six windows: five inputs — two row blocks
(windows 0 and 1, whose block index follows the point and which are fetched at every point), the two
weight slices and the bias (windows 2, 3 and 4, whose block index is constant, so they are fetched at
the first point only and found in place at the second) — and one output (window 5, the hidden block,
written back at every point). Its body reads the five input blocks whole and overwrites the output
staging buffer whole. So what it leaves is a function of the five input blocks alone.

This module gives, at an arbitrary valuation `V` of the core's buffers on entry to the region:
the block of each window at each point, the contents of the output buffer after the body, the
separation-logic triple of the body, the pipeline's proof data, and the body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- The block of window `w` at point `t`: the part of the window's array, as the region finds it,
    that the window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block untouched holds that block when the body starts, at
    every point: either it was just fetched, or its block index did not move since the point before and
    the buffer still holds the earlier point's block, which is this point's. Window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (fetched at the first point only). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (fetched at the first point only). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (fetched at the first point only). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each staging buffer, whole -/

/-- All of a `512×1024` buffer (windows 0, 1 and 5). -/
abbrev rRows : Rect S512x1024 := Rect.unit (s := S512x1024) ![0, 0] S512x1024.size inb_S512x1024_S512x1024_0_0
/-- All of a `1024×1024` buffer (windows 2 and 3). -/
abbrev rWeight : Rect S1024x1024 := Rect.unit (s := S1024x1024) ![0, 0] S1024x1024.size inb_S1024x1024_S1024x1024_0_0
/-- All of a `1024` buffer (window 4). -/
abbrev rBias : Rect S1024 := Rect.unit (s := S1024) ![0] S1024.size inb_S1024_S1024_0

/-- Zero offsets, as constant functions. -/
theorem zeros2 : (![0, 0] : Fin 2 → ℕ) = fun _ => 0 := by
  funext a; fin_cases a <;> rfl
theorem zeros1 : (![0] : Fin 1 → ℕ) = fun _ => 0 := by
  funext a; fin_cases a; rfl

/-! ## What the body leaves in the output buffer -/

/-- Window 5's staging buffer after the body, from the five input blocks: the single store into it,
    whose value is the hyperbolic tangent of the two products' sum plus the bias, computed from what the
    five loads read. -/
def hiddenBlk (x0 x1 : Vec F S512x1024 .f32) (x2 x3 : Vec F S1024x1024 .f32) (x4 : Vec F S1024 .f32) : Vec F S512x1024 .f32 :=
  View.canon [⟨rRows, k1_pay1 (View.ld x0 rRows) (View.ld x1 rRows) (View.ld x2 rWeight) (View.ld x3 rWeight) (View.ld x4 rBias)⟩]

/-- A load of a whole buffer reads its contents and one store of a whole buffer leaves its value: the
    hidden block is that value at the five input blocks. -/
theorem hiddenBlk_eq (x0 x1 : Vec F S512x1024 .f32) (x2 x3 : Vec F S1024x1024 .f32) (x4 : Vec F S1024 .f32) :
    hiddenBlk x0 x1 x2 x3 x4 = k1_pay1 x0 x1 x2 x3 x4 := by
  unfold hiddenBlk
  rw [View.canon_unit_zero zeros2]
  simp only [View.ld_unit_zero (S := S512x1024) zeros2, View.ld_unit_zero (S := S1024x1024) zeros2,
    View.ld_unit_zero (S := S1024) zeros1]

/-- The one store into window 5's buffer covers it. -/
theorem coverHidden (p : Vec F S512x1024 .f32) (y : S512x1024.Idx) :
    ∃ pc ∈ ([⟨rRows, p⟩] : List (View.Piece (Elt F) S512x1024 .f32)), y ∈ pc.1.set :=
  ⟨_, List.mem_singleton_self _, View.mem_set_unit_zero (S := S512x1024) zeros2 inb_S512x1024_S512x1024_0_0 y⟩

/-! ## The body's triple -/

set_option maxHeartbeats 1000000 in
/-- The body, run on six whole staging memrefs — the inputs' reading `x0 … x4`, the output's holding
    anything —, ends with the inputs' unchanged and the output's at `hiddenBlk x0 x1 x2 x3 x4`.
    (The body's load of the output buffer reads whatever is there and the value is dropped.) -/
theorem sound_kernel1 (c : Dev nD) (E : Set ℕ) (i : grid1.Coords)
    (arg1 : Memref sig .tc .vmem S512x1024 .f32) (harg1 : arg1.IsWhole)
    (arg2 : Memref sig .tc .vmem S512x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024 .f32) (harg5 : arg5.IsWhole)
    (arg6 : Memref sig .tc .vmem S512x1024 .f32) (harg6 : arg6.IsWhole)
    (x0 x1 : Vec F S512x1024 .f32) (x2 x3 : Vec F S1024x1024 .f32) (x4 : Vec F S1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (hiddenBlk x0 x1 x2 x3 x4)) -∗ K ⟨⟩))
      ⊢ wp frame (wpE (defs₀ (F := F)) Variants.none c none) E
          (cc1__lin_kernel i arg1 harg1 arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverHidden _)

/-! ## The pipeline's proof data -/

/-- The proof data of the pipeline on core `c`: the arrays as the region finds them; after the body at
    point `t` each input's buffer still at its block and window 5's at the hidden block of the five
    input blocks; as invariant the buffers the pipeline does not stage and the generator register,
    untouched; full shares, nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => hiddenBlk (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    hiddenBlk (iblk1 V c 0 t) (iblk1 V c 1 t) (iblk1 V c 2 t) (iblk1 V c 3 t) (iblk1 V c 4 t) := by dsimp only [dat1]

/-- Each input's current staging buffer holds its block when the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`: the invariant, the core's debts, and each window's
    current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the
    invariant and the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fc0.lean ====
/-
  The last layer's kernel (a 2 × 4 grid: output-feature half p, contraction tile k) — what its runs share.

  The body keeps a 64 × 512 accumulator in a scratch buffer across the four tiles of one half: at k = 0 it is
  zeroed, at every k the tile's partial product is added to it, and at k = 3 the accumulator plus the bias is
  stored into the output block, which the pipeline writes back there and nowhere else. Here: the two branch
  conditions decided over the grid, where the output window is idle, each input window's block at a point, and
  the region invariant split at the scratch buffer.
-/
import proofs.«168501_j15375982920258_2_alg».proof.Proof.Gen.KernelIdeal.Launch
import proofs.«168501_j15375982920258_2_alg».proof.Proof.Gen.KernelIdeal.Skeleton
import proofs.«168501_j15375982920258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- "This is the first contraction tile": the body's first branch, as the scalar chain it prints. -/
abbrev firstTile (i : grid2.Coords) : Prop :=
  (Scalar.cmpi .ne (Scalar.extui (Scalar.cmpi .eq (BitVec.ofNat 32 (i 1).val) 0#32)) 0#32) = 1#1
/-- It holds at the points ≡ 0 (mod 4). -/
theorem firstTile_iff : ∀ t : Fin cfg2.N, firstTile (grid2.coords t) ↔ t.val % 4 = 0 :=
  (by decide +kernel : ∀ t : Fin grid2.N, firstTile (grid2.coords t) ↔ t.val % 4 = 0)

/-- "This is the last contraction tile": the body's second branch. -/
abbrev lastTile (i : grid2.Coords) : Prop := k2_cond2 i = 1#1
/-- It holds at the points ≡ 3 (mod 4). -/
theorem lastTile_iff : ∀ t : Fin cfg2.N, lastTile (grid2.coords t) ↔ t.val % 4 = 3 :=
  (by decide +kernel : ∀ t : Fin grid2.N, lastTile (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Off the last tile the output window is idle: nothing is stored into it … -/
theorem idle2_3 : ∀ t : Fin cfg2.N, ¬ t.val % 4 = 3 → cfg2.idle 3 (grid2.coords t) = true := by decide +kernel
/-- … and it is not written back. -/
theorem noFlush2_3 : ∀ t : Fin cfg2.N, ¬ t.val % 4 = 3 → (cfg2.win 3).flush t = false := by decide +kernel
/-- On the last tile it is live. -/
theorem live2_3 : ∀ t : Fin cfg2.N, t.val % 4 = 3 → cfg2.idle 3 (grid2.coords t) = false := by decide +kernel

/-! ## The memrefs the body is called with -/

abbrev ms2_0 (t : Fin cfg2.N) : Memref sig .tc .vmem S64x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x512 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev accM : Memref sig .tc .vmem S64x512 .f32 := Memref.whole cc2_scratch0

/-! ## The region invariant, split at the accumulator -/

/-- The class's invariant is the accumulator at some contents, every other scoped buffer that is no staging buffer of
    this kernel (unopened), and the generator register at some state. -/
theorem PhiA2_eq (c : Dev nD) :
    (Pipeline.ΦA spec2 c : sProp 𝕄)
      = iprop(((∃ d, owns (c : Thread nD τ) (accM) fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [accM, owns_whole]
  rfl

section Blocks

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    not (unfetched, its block index has not moved since the point that did). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.KernelIdeal.Hand

end
-- ==== Proof.KI.Fc1.lean ====
/-
  The last layer's kernel body, run once per kind of point.

  On a first tile (k = 0) the accumulator is zeroed and the tile's partial product added: it ends at
  `k2_pay2 x0 x1 k2_pay1`. On a middle tile it goes from `xs` to `k2_pay2 x0 x1 xs`. On the last tile it does the
  same and the output block is stored: `k2_pay3` of the new accumulator and the bias block. Buffers a case never
  touches are left out of its triple.
-/
import proofs.«168501_j15375982920258_2_alg».proof.Proof.KI.Fc0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz1 : (![0] : Fin 1 → Nat) = fun _ => 0 := by funext a; fin_cases a; rfl

set_option maxHeartbeats 1000000 in
/-- A middle tile: neither branch taken. -/
theorem fc_middle (c : Dev nD) (i : grid2.Coords) (E : Set ℕ)
    (arg2 : Memref sig .tc .vmem S64x4096 .f32) (harg2 : arg2.IsWhole) (arg3 : Memref sig .tc .vmem S512x4096 .f32) (harg3 : arg3.IsWhole)
    (arg4 : Memref sig .tc .vmem S512 .f32) (harg4 : arg4.IsWhole) (arg5 : Memref sig .tc .vmem S64x512 .f32) (harg5 : arg5.IsWhole)
    (arg6 : Memref sig .tc .vmem S64x512 .f32) (harg6 : arg6.IsWhole)
    (hc0 : ¬ firstTile i) (hc1 : ¬ lastTile i)
    (x0 : Vec F S64x4096 .f32) (x1 : Vec F S512x4096 .f32) (xs : Vec F S64x512 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k2_pay2 x0 x1 xs)) -∗ K ⟨⟩))
      ⊢ wp frame (wpE (defs₀ (F := F)) Variants.none c none) E (cc2__fc_kernel i arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  rw [View.read_writes_eq_canon _ _ _ (fun y => ⟨_, List.mem_cons.mpr (Or.inl rfl), View.mem_set_unit_zero hz2 inb_S64x512_S64x512_0_0 y⟩), View.canon_unit_zero hz2]
  simp only [View.readAt_eq_ld, View.ld_unit_zero (S := S64x4096) hz2, View.ld_unit_zero (S := S512x4096) hz2, View.ld_unit_zero (S := S64x512) hz2]

set_option maxHeartbeats 1000000 in
/-- A first tile: the accumulator, at anything, is zeroed, then the partial product added. -/
theorem fc_first (c : Dev nD) (i : grid2.Coords) (E : Set ℕ)
    (arg2 : Memref sig .tc .vmem S64x4096 .f32) (harg2 : arg2.IsWhole) (arg3 : Memref sig .tc .vmem S512x4096 .f32) (harg3 : arg3.IsWhole)
    (arg4 : Memref sig .tc .vmem S512 .f32) (harg4 : arg4.IsWhole) (arg5 : Memref sig .tc .vmem S64x512 .f32) (harg5 : arg5.IsWhole)
    (arg6 : Memref sig .tc .vmem S64x512 .f32) (harg6 : arg6.IsWhole)
    (hc0 : firstTile i) (hc1 : ¬ lastTile i)
    (x0 : Vec F S64x4096 .f32) (x1 : Vec F S512x4096 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k2_pay2 x0 x1 k2_pay1)) -∗ K ⟨⟩))
      ⊢ wp frame (wpE (defs₀ (F := F)) Variants.none c none) E (cc2__fc_kernel i arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (fun y => ⟨_, List.mem_cons.mpr (Or.inl rfl), View.mem_set_unit_zero hz2 inb_S64x512_S64x512_0_0 y⟩)]
  rw [View.canon_cons_unit_zero (S := S64x512) hz2, View.readCov_unit_zero (S := S64x512) _ hz2]
  simp only [View.readAt_eq_ld, View.ld_unit_zero (S := S64x4096) hz2, View.ld_unit_zero (S := S512x4096) hz2]

set_option maxHeartbeats 1000000 in
/-- The last tile: the partial product added, then accumulator plus bias stored into the output block. -/
theorem fc_last (c : Dev nD) (i : grid2.Coords) (E : Set ℕ)
    (arg2 : Memref sig .tc .vmem S64x4096 .f32) (harg2 : arg2.IsWhole) (arg3 : Memref sig .tc .vmem S512x4096 .f32) (harg3 : arg3.IsWhole)
    (arg4 : Memref sig .tc .vmem S512 .f32) (harg4 : arg4.IsWhole) (arg5 : Memref sig .tc .vmem S64x512 .f32) (harg5 : arg5.IsWhole)
    (arg6 : Memref sig .tc .vmem S64x512 .f32) (harg6 : arg6.IsWhole)
    (hc0 : ¬ firstTile i) (hc1 : lastTile i)
    (x0 : Vec F S64x4096 .f32) (x1 : Vec F S512x4096 .f32) (x2 : Vec F S512 .f32) (xs : Vec F S64x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 xs) x2)
            ∗ owns (c : Thread nD τ) arg6 fullShare (k2_pay2 x0 x1 xs)) -∗ K ⟨⟩))
      ⊢ wp frame (wpE (defs₀ (F := F)) Variants.none c none) E (cc2__fc_kernel i arg2 harg2 arg3 harg3 arg4 harg4 arg5 harg5 arg6 harg6) K := by
  simp only [cc2__fc_kernel_eq_skeleton]; unfold cc2__fc_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons.mpr (Or.inl rfl), View.mem_set_unit_zero hz2 inb_S64x512_S64x512_0_0 y⟩)]
    rw [View.canon_unit_zero (S := S64x512) hz2, View.readCov_unit_zero (S := S64x512) _ hz2]
    simp only [View.readAt_eq_ld, View.ld_unit_zero (S := S64x4096) hz2, View.ld_unit_zero (S := S512x4096) hz2, View.ld_unit_zero (S := S64x512) hz2, View.ld_unit_zero (S := S512) hz1]
  iexists _; isplitr
  swap; · iexact H6
  ipureintro
  sl_unfold_words
  rw [View.read_writes_eq_canon _ _ _ (fun y => ⟨_, List.mem_cons.mpr (Or.inl rfl), View.mem_set_unit_zero hz2 inb_S64x512_S64x512_0_0 y⟩), View.canon_unit_zero hz2]
  simp only [View.readAt_eq_ld, View.ld_unit_zero (S := S64x4096) hz2, View.ld_unit_zero (S := S512x4096) hz2, View.ld_unit_zero (S := S64x512) hz2]

end Cert.KernelIdeal.Hand

end
-- ==== Proof.KI.Fc2.lean ====
/-
  The last layer's kernel over its grid: what the accumulator holds after each point, the region invariant that
  carries it from point to point, the proof data, and the body obligation.

  After point n the accumulator holds the sum of the partial products of the tiles of n's half seen so far:
  `accAt n = k2_pay2 (flat block at n) (weight block at n) (zero, if n is a first tile, else accAt (n − 1))`.
  The output block is stored on the last tile only: `k2_pay3 (accAt n) (bias block at n)`.
-/
import proofs.«168501_j15375982920258_2_alg».proof.Proof.KI.Fc1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`. -/
def accAt (c : Dev nD) : (n : ℕ) → n < cfg2.N → Vec F S64x512 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 4 = 0 then k2_pay1 else accAt c n (Nat.lt_of_succ_lt hn))

/-- On a first tile it restarts from zero. -/
theorem accAt_first (c : Dev nD) (t : Fin cfg2.N) (h : t.val % 4 = 0) :
    accAt V c t.val t.isLt = k2_pay2 (iblk2 V c 0 t) (iblk2 V c 1 t) k2_pay1 := by
  obtain ⟨n, hn⟩ := t
  cases n with
  | zero => rfl
  | succ n => show k2_pay2 _ _ (if (n + 1) % 4 = 0 then _ else _) = _; rw [if_pos h]

/-- On any other tile it adds to what the point before left. -/
theorem accAt_next (c : Dev nD) (t : Fin cfg2.N) (h : ¬ t.val % 4 = 0) :
    accAt V c t.val t.isLt = k2_pay2 (iblk2 V c 0 t) (iblk2 V c 1 t)
      (accAt V c (t.val - 1) (Nat.lt_of_le_of_lt (Nat.sub_le _ _) t.isLt)) := by
  obtain ⟨n, hn⟩ := t
  cases n with
  | zero => exact absurd (Nat.zero_mod _) h
  | succ n => show k2_pay2 _ _ (if (n + 1) % 4 = 0 then _ else _) = _; rw [if_neg h]; rfl

/-- The region invariant before position `n`: before the first point the class's; afterwards the accumulator at what
    the point before left, the other scoped buffers unopened, the generator register at some state. -/
def PhiS (c : Dev nD) : (n : ℕ) → n ≤ cfg2.N → sProp 𝕄
  | 0, _ => Pipeline.ΦA spec2 c
  | n + 1, hn => iprop((owns (c : Thread nD τ) accM fullShare (accAt V c n hn) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((owns (c : Thread nD τ) accM fullShare (accAt V c n hn) ∗ Pipeline.scopedRestBut (Ix := Unit) (Name := ℕ) (U := UR sig nD τ) (Lvl := ℕ) (Val := Elt F) spec2 c [cc2_scratch0]) ∗ (∃ r, prngReg c r)) := rfl

theorem PhiS_pos (c : Dev nD) (n : ℕ) (h : n ≤ cfg2.N) (hz : n ≠ 0) :
    PhiS V c n h = iprop((owns (c : Thread nD τ) accM fullShare (accAt V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this pipeline on core `c`, at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt V c t.val t.isLt) (iblk2 V c 2 t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (accAt V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: its position modulo 4 says which kind of point it is; the invariant hands the body the
    accumulator (at anything before the first point; at what the point before left afterwards) and takes it back at
    this point's contents; off the last tile the output's buffer goes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 8 := lt_of_lt_of_eq t.isLt (show cfg2.N = 8 from N_2)
  by_cases h0 : t.val % 4 = 0
  · have h3 : ¬ t.val % 4 = 3 := by omega
    rw [Dat.leavesExact_idle (dat2 V c) 3 t (idle2_3 t h3) (noFlush2_3 t h3), accAt_first V c t h0]
    by_cases hz : t.val = 0
    · rw [PhiS_castSucc V c t, PhiS_zero V c _ _ hz, PhiA2_eq]
      iintro ⟨⟨⟨HS, HR⟩, Hg⟩, Ho, ⟨%d0, H0⟩, ⟨%d1, H1⟩, ⟨%d2, H2⟩, H3⟩
      iapply (fc_first c (grid2.coords t) Set.univ _ _ _ _ _ _ _ _ _ _ ((firstTile_iff t).mpr h0) (fun h => h3 ((lastTile_iff t).mp h)) (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, HR⟩, Hg⟩, Ho, ⟨%d0, H0⟩, ⟨%d1, H1⟩, ⟨%d2, H2⟩, H3⟩
      iapply (fc_first c (grid2.coords t) Set.univ _ _ _ _ _ _ _ _ _ _ ((firstTile_iff t).mpr h0) (fun h => h3 ((lastTile_iff t).mp h)) (iblk2 V c 0 t) (iblk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [PhiS_castSucc V c t, PhiS_pos V c _ _ hz, accAt_next V c t h0]
    by_cases h3 : t.val % 4 = 3
    · rw [show (dat2 V c).leavesExact 3 t = owns (c : Thread nD τ) (ms2_3 t) fullShare ((dat2 V c).after 3 t) from by
        unfold Dat.leavesExact; rw [live2_3 t h3], after2_3, accAt_next V c t h0]
      iintro ⟨⟨⟨HS, HR⟩, Hg⟩, Ho, ⟨%d0, H0⟩, ⟨%d1, H1⟩, ⟨%d2, H2⟩, ⟨%d3, H3⟩⟩
      iapply (fc_last c (grid2.coords t) Set.univ _ _ _ _ _ _ _ _ _ _ (fun h => h0 ((firstTile_iff t).mp h)) ((lastTile_iff t).mpr h3) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat2 V c) 3 t (idle2_3 t h3) (noFlush2_3 t h3)]
      iintro ⟨⟨⟨HS, HR⟩, Hg⟩, Ho, ⟨%d0, H0⟩, ⟨%d1, H1⟩, ⟨%d2, H2⟩, H3⟩
      iapply (fc_middle c (grid2.coords t) Set.univ _ _ _ _ _ _ _ _ _ _ (fun h => h0 ((firstTile_iff t).mp h)) (fun h => h3 ((lastTile_iff t).mp h)) (iblk2 V c 0 t) (iblk2 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]

/-- After the last point the invariant gives the class's back: what the accumulator holds is forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 8 := N_2; omega), PhiA2_eq]
  iintro ⟨⟨HS, HR⟩, Hg⟩
  isplitl [HS HR]
  · isplitl [HS]; · iexists _; iexact HS
    iexact HR
  iexact Hg

end Cert.KernelIdeal.Hand

end
-- ==== Proof.KI.Run.lean ====
/-
  The run of the whole program: three kernel regions with two stretches of host operations between them.

  The buffer contents at each boundary are a fold from the launch memory: a region leaves its arrays at what its
  write-backs leave and every other buffer as it found it; a host stretch leaves what its operations compute. Each
  region is entered from every unscoped buffer at the boundary's contents (with the generator register at some state
  and nothing owed) and left at the next boundary's. Every weakly fair execution terminates, and the final memory
  holds every unscoped buffer at the last boundary's contents; the six argument arrays walk back through the fold to
  their launch contents, since no host operation and no region writes one.
-/
import proofs.«168501_j15375982920258_2_alg».proof.Proof.KI.Region0
import proofs.«168501_j15375982920258_2_alg».proof.Proof.KI.Region1
import proofs.«168501_j15375982920258_2_alg».proof.Proof.KI.Fc2
import proofs.«168501_j15375982920258_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev M0 : Dev nD → Valuation τ sig (Elt F) := fun c b => (s₀ m ρ).mem ((c : Dev nD), b)
abbrev E0 : (c : Dev nD) → (b : Ref sig .tc) → Buf (Elt F) ((c : Thread nD τ).loc b) := fun c b => M0 m ρ c b

/-- At region 0's exit: its arrays at what the pipeline leaves (the inputs as entered, each output's write-backs folded),
    every other buffer as entered. -/
def M1 (c : Dev nD) : Valuation τ sig (Elt F) :=
  Pipeline.withArrays spec0 c (M0 m ρ c) fun w => (dat0 (E0 m ρ) c).arrAt w cfg0.N
theorem M1_arr (c : Dev nD) (w : Fin cfg0.W) :
    M1 m ρ c (Proc.devRef .tc (Pipeline.arrRef spec0 w)) = (dat0 (E0 m ρ) c).arrAt w cfg0.N := by
  unfold M1; exact Pipeline.withArrays_arr spec0 launch0.win.arr_inj c _ _ w
theorem M1_of_ne (c : Dev nD) (b : Ref sig .tc) (hb : ∀ w, Pipeline.arrRef spec0 w ≠ b) :
    M1 m ρ c (Proc.devRef .tc b) = M0 m ρ c (Proc.devRef .tc b) := by
  unfold M1; exact Pipeline.withArrays_of_ne spec0 c _ _ b hb
/-- The same read at the TensorCore's references. -/
abbrev E1 : (c : Dev nD) → (b : Ref sig .tc) → Buf (Elt F) ((c : Thread nD τ).loc b) := fun c b => M1 m ρ c b
theorem hF0 (c : Dev nD) (w : Fin cfg0.W) : (dat0 (E0 m ρ) c).arrAt w cfg0.N = E1 m ρ c (Pipeline.arrRef spec0 w) :=
  (M1_arr m ρ c w).symm
theorem hrest0 (c : Dev nD) : ∀ b, b ∉ Finset.univ.image (Pipeline.arrRef spec0) → E1 m ρ c b = E0 m ρ c b :=
  fun b hb => M1_of_ne m ρ c b fun w e => hb (Finset.mem_image.mpr ⟨w, Finset.mem_univ _, e⟩)

/-- After the first host stretch (region 1's entry). -/
abbrev M2 : Dev nD → Valuation τ sig (Elt F) := fun c => StableHlo.after hostOps1 (M1 m ρ c)
abbrev E2 : (c : Dev nD) → (b : Ref sig .tc) → Buf (Elt F) ((c : Thread nD τ).loc b) := fun c b => M2 m ρ c b

/-- At region 1's exit: its arrays at what the pipeline leaves (the inputs as entered, each output's write-backs folded),
    every other buffer as entered. -/
def M3 (c : Dev nD) : Valuation τ sig (Elt F) :=
  Pipeline.withArrays spec1 c (M2 m ρ c) fun w => (dat1 (E2 m ρ) c).arrAt w cfg1.N
theorem M3_arr (c : Dev nD) (w : Fin cfg1.W) :
    M3 m ρ c (Proc.devRef .tc (Pipeline.arrRef spec1 w)) = (dat1 (E2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
/-- The same read at the TensorCore's references. -/
abbrev E3 : (c : Dev nD) → (b : Ref sig .tc) → Buf (Elt F) ((c : Thread nD τ).loc b) := fun c b => M3 m ρ c b
theorem hF1 (c : Dev nD) (w : Fin cfg1.W) : (dat1 (E2 m ρ) c).arrAt w cfg1.N = E3 m ρ c (Pipeline.arrRef spec1 w) :=
  (M3_arr m ρ c w).symm
theorem hrest1 (c : Dev nD) : ∀ b, b ∉ Finset.univ.image (Pipeline.arrRef spec1) → E3 m ρ c b = E2 m ρ c b :=
  fun b hb => M3_of_ne m ρ c b fun w e => hb (Finset.mem_image.mpr ⟨w, Finset.mem_univ _, e⟩)

/-- After the second host stretch (region 2's entry). -/
abbrev M4 : Dev nD → Valuation τ sig (Elt F) := fun c => StableHlo.after hostOps2 (M3 m ρ c)
abbrev E4 : (c : Dev nD) → (b : Ref sig .tc) → Buf (Elt F) ((c : Thread nD τ).loc b) := fun c b => M4 m ρ c b

/-- At region 2's exit: its arrays at what the pipeline leaves (the inputs as entered, each output's write-backs folded),
    every other buffer as entered. -/
def M5 (c : Dev nD) : Valuation τ sig (Elt F) :=
  Pipeline.withArrays spec2 c (M4 m ρ c) fun w => (dat2 (E4 m ρ) c).arrAt w cfg2.N
theorem M5_arr (c : Dev nD) (w : Fin cfg2.W) :
    M5 m ρ c (Proc.devRef .tc (Pipeline.arrRef spec2 w)) = (dat2 (E4 m ρ) c).arrAt w cfg2.N := by
  unfold M5; exact Pipeline.withArrays_arr spec2 launch2.win.arr_inj c _ _ w
theorem M5_of_ne (c : Dev nD) (b : Ref sig .tc) (hb : ∀ w, Pipeline.arrRef spec2 w ≠ b) :
    M5 m ρ c (Proc.devRef .tc b) = M4 m ρ c (Proc.devRef .tc b) := by
  unfold M5; exact Pipeline.withArrays_of_ne spec2 c _ _ b hb
/-- The same read at the TensorCore's references. -/
abbrev E5 : (c : Dev nD) → (b : Ref sig .tc) → Buf (Elt F) ((c : Thread nD τ).loc b) := fun c b => M5 m ρ c b
theorem hF2 (c : Dev nD) (w : Fin cfg2.W) : (dat2 (E4 m ρ) c).arrAt w cfg2.N = E5 m ρ c (Pipeline.arrRef spec2 w) :=
  (M5_arr m ρ c w).symm
theorem hrest2 (c : Dev nD) : ∀ b, b ∉ Finset.univ.image (Pipeline.arrRef spec2) → E5 m ρ c b = E4 m ρ c b :=
  fun b hb => M5_of_ne m ρ c b fun w e => hb (Finset.mem_image.mpr ⟨w, Finset.mem_univ _, e⟩)

/-! ## The arguments end as launched -/

theorem M5_main_arg0 (c : Dev nD) : M5 m ρ c (Proc.devRef .tc main_arg0) = m ((c : Thread nD τ).loc main_arg0) :=
  calc M5 m ρ c (Proc.devRef .tc main_arg0)
    _ = M4 m ρ c (Proc.devRef .tc main_arg0) := M5_of_ne m ρ c main_arg0 (by decide)
    _ = M3 m ρ c (Proc.devRef .tc main_arg0) := StableHlo.after_of_writes_sub hostOps2 _ hostOps2_writes (by decide)
    _ = M2 m ρ c (Proc.devRef .tc main_arg0) := M3_of_ne m ρ c main_arg0 (by decide)
    _ = M1 m ρ c (Proc.devRef .tc main_arg0) := StableHlo.after_of_writes_sub hostOps1 _ hostOps1_writes (by decide)
    _ = M0 m ρ c (Proc.devRef .tc main_arg0) := (M1_arr m ρ c 0).trans (((dat0 (E0 m ρ) c).arrAt_in 0 rfl _).trans (A_eq0 (E0 m ρ) c 0))
    _ = m ((c : Thread nD τ).loc main_arg0) := rfl

theorem M5_main_arg1 (c : Dev nD) : M5 m ρ c (Proc.devRef .tc main_arg1) = m ((c : Thread nD τ).loc main_arg1) :=
  calc M5 m ρ c (Proc.devRef .tc main_arg1)
    _ = M4 m ρ c (Proc.devRef .tc main_arg1) := M5_of_ne m ρ c main_arg1 (by decide)
    _ = M3 m ρ c (Proc.devRef .tc main_arg1) := StableHlo.after_of_writes_sub hostOps2 _ hostOps2_writes (by decide)
    _ = M2 m ρ c (Proc.devRef .tc main_arg1) := M3_of_ne m ρ c main_arg1 (by decide)
    _ = M1 m ρ c (Proc.devRef .tc main_arg1) := StableHlo.after_of_writes_sub hostOps1 _ hostOps1_writes (by decide)
    _ = M0 m ρ c (Proc.devRef .tc main_arg1) := (M1_arr m ρ c 1).trans (((dat0 (E0 m ρ) c).arrAt_in 1 rfl _).trans (A_eq0 (E0 m ρ) c 1))
    _ = m ((c : Thread nD τ).loc main_arg1) := rfl

theorem M5_main_arg2 (c : Dev nD) : M5 m ρ c (Proc.devRef .tc main_arg2) = m ((c : Thread nD τ).loc main_arg2) :=
  calc M5 m ρ c (Proc.devRef .tc main_arg2)
    _ = M4 m ρ c (Proc.devRef .tc main_arg2) := M5_of_ne m ρ c main_arg2 (by decide)
    _ = M3 m ρ c (Proc.devRef .tc main_arg2) := StableHlo.after_of_writes_sub hostOps2 _ hostOps2_writes (by decide)
    _ = M2 m ρ c (Proc.devRef .tc main_arg2) := M3_of_ne m ρ c main_arg2 (by decide)
    _ = M1 m ρ c (Proc.devRef .tc main_arg2) := StableHlo.after_of_writes_sub hostOps1 _ hostOps1_writes (by decide)
    _ = M0 m ρ c (Proc.devRef .tc main_arg2) := M1_of_ne m ρ c main_arg2 (by decide)
    _ = m ((c : Thread nD τ).loc main_arg2) := rfl

theorem M5_main_arg3 (c : Dev nD) : M5 m ρ c (Proc.devRef .tc main_arg3) = m ((c : Thread nD τ).loc main_arg3) :=
  calc M5 m ρ c (Proc.devRef .tc main_arg3)
    _ = M4 m ρ c (Proc.devRef .tc main_arg3) := M5_of_ne m ρ c main_arg3 (by decide)
    _ = M3 m ρ c (Proc.devRef .tc main_arg3) := StableHlo.after_of_writes_sub hostOps2 _ hostOps2_writes (by decide)
    _ = M2 m ρ c (Proc.devRef .tc main_arg3) := (M3_arr m ρ c 4).trans (((dat1 (E2 m ρ) c).arrAt_in 4 rfl _).trans (A_eq1 (E2 m ρ) c 4))
    _ = M1 m ρ c (Proc.devRef .tc main_arg3) := StableHlo.after_of_writes_sub hostOps1 _ hostOps1_writes (by decide)
    _ = M0 m ρ c (Proc.devRef .tc main_arg3) := M1_of_ne m ρ c main_arg3 (by decide)
    _ = m ((c : Thread nD τ).loc main_arg3) := rfl

theorem M5_main_arg4 (c : Dev nD) : M5 m ρ c (Proc.devRef .tc main_arg4) = m ((c : Thread nD τ).loc main_arg4) :=
  calc M5 m ρ c (Proc.devRef .tc main_arg4)
    _ = M4 m ρ c (Proc.devRef .tc main_arg4) := (M5_arr m ρ c 1).trans (((dat2 (E4 m ρ) c).arrAt_in 1 rfl _).trans (A_eq2 (E4 m ρ) c 1))
    _ = M3 m ρ c (Proc.devRef .tc main_arg4) := StableHlo.after_of_writes_sub hostOps2 _ hostOps2_writes (by decide)
    _ = M2 m ρ c (Proc.devRef .tc main_arg4) := M3_of_ne m ρ c main_arg4 (by decide)
    _ = M1 m ρ c (Proc.devRef .tc main_arg4) := StableHlo.after_of_writes_sub hostOps1 _ hostOps1_writes (by decide)
    _ = M0 m ρ c (Proc.devRef .tc main_arg4) := M1_of_ne m ρ c main_arg4 (by decide)
    _ = m ((c : Thread nD τ).loc main_arg4) := rfl

theorem M5_main_arg5 (c : Dev nD) : M5 m ρ c (Proc.devRef .tc main_arg5) = m ((c : Thread nD τ).loc main_arg5) :=
  calc M5 m ρ c (Proc.devRef .tc main_arg5)
    _ = M4 m ρ c (Proc.devRef .tc main_arg5) := (M5_arr m ρ c 2).trans (((dat2 (E4 m ρ) c).arrAt_in 2 rfl _).trans (A_eq2 (E4 m ρ) c 2))
    _ = M3 m ρ c (Proc.devRef .tc main_arg5) := StableHlo.after_of_writes_sub hostOps2 _ hostOps2_writes (by decide)
    _ = M2 m ρ c (Proc.devRef .tc main_arg5) := M3_of_ne m ρ c main_arg5 (by decide)
    _ = M1 m ρ c (Proc.devRef .tc main_arg5) := StableHlo.after_of_writes_sub hostOps1 _ hostOps1_writes (by decide)
    _ = M0 m ρ c (Proc.devRef .tc main_arg5) := M1_of_ne m ρ c main_arg5 (by decide)
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (M5 m ρ c) ∗ ∃ r, prngReg c r)

/-! ## The regions as segments -/

set_option backward.isDefEq.respectTransparency.types false in
/-- Region 0 over the thread state: entered from every unscoped buffer at `M0`, left at `M1`. Its arrays are split
    out of the unscoped buffers and put back at what the write-backs leave; the generator register goes into the region
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (M0 m ρ c) ∗ R c)
  post c := iprop(StableHlo.held (c : Thread nD τ) (Pipeline.ucRefs τ sig) (M1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `M2`, left at `M3`. Its arrays are split
    out of the unscoped buffers and put back at what the write-backs leave; the generator register goes into the region
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `M4`, left at `M5`. Its arrays are split
    out of the unscoped buffers and put back at what the write-backs leave; the generator register goes into the region
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (M4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (E4 m ρ) c).Φ 0 from rfl]
    have h := hin2 (E4 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (E4 m ρ) c).Φ (Fin.last cfg2.N) from rfl]
    have h := hout2 (E4 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (M1 m ρ)),
    .region (reg1 m ρ),
    .host (hseg hostOps2 hostOps2_sub hostOps2_fresh (M3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = M5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M5 m ρ c b)
    (hfin := fun c s' => by
      iintro ⟨⟨Hh, -⟩, HSI⟩
      unfold StableHlo.held
      imodintro
      iapply (pointsTo_read_all (Pipeline.ucRefs τ sig) (fun b => (((c : Thread nD τ)).1, b)) (M5 m ρ c) s')
      isplitl [Hh] <;> iassumption)
    (hQ := fun s h c => h c)

end Cert.KernelIdeal.Hand

end
-- ==== Proof.KI.Frame.lean ====
/-
  The frame: every weakly fair execution terminates, nothing faults, and the six argument arrays end as launched —
  the run of the three regions read at the arguments.
-/
import proofs.«168501_j15375982920258_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (M5_main_arg0 m ρ c),
     (h c _ (mem_uc main_arg1 (by decide))).trans (M5_main_arg1 m ρ c),
     (h c _ (mem_uc main_arg2 (by decide))).trans (M5_main_arg2 m ρ c),
     (h c _ (mem_uc main_arg3 (by decide))).trans (M5_main_arg3 m ρ c),
     (h c _ (mem_uc main_arg4 (by decide))).trans (M5_main_arg4 m ρ c),
     (h c _ (mem_uc main_arg5 (by decide))).trans (M5_main_arg5 m ρ c)⟩)
    (run_all m ρ)

end Cert.KernelIdeal.Hand

end
-- ==== Proof.KI.Host.lean ====
/-
  What the host operations between the regions compute, read at an index.

  Between the attention region and the linear region: the energy array and the key array are each re-laid from
  [64, 16, 1024] to [1024, 1024] (row 16·b + k holds the pair (b, k)), and the first weight matrix is cut into its
  two column halves. Between the linear region and the last one the hidden rows are re-laid to [64, 16384] (entry
  (b, j) is row 16·b + j / 1024, column j % 1024). The argument arrays a later region stages still hold their launch
  contents when it is entered.
-/
import proofs.«168501_j15375982920258_2_alg».proof.Proof.KI.Run
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt F) ℓ) (ρ : Dev nD → PrngReg)

/-! ## The arguments at the regions' entries -/

theorem E0_arg (c : Dev nD) (b : Ref sig .tc) : E0 m ρ c b = m ((c : Thread nD τ).loc b) := rfl

theorem E1_main_arg0 (c : Dev nD) : E1 m ρ c main_arg0 = m ((c : Thread nD τ).loc main_arg0) :=
  (M1_arr m ρ c 0).trans (((dat0 (E0 m ρ) c).arrAt_in 0 rfl _).trans (A_eq0 (E0 m ρ) c 0))
theorem E1_main_arg2 (c : Dev nD) : E1 m ρ c main_arg2 = m ((c : Thread nD τ).loc main_arg2) :=
  M1_of_ne m ρ c main_arg2 (by decide)
theorem E2_main_arg3 (c : Dev nD) : E2 m ρ c main_arg3 = m ((c : Thread nD τ).loc main_arg3) :=
  (StableHlo.after_of_writes_sub hostOps1 _ hostOps1_writes (by decide)).trans (M1_of_ne m ρ c main_arg3 (by decide))
theorem E4_main_arg4 (c : Dev nD) : E4 m ρ c main_arg4 = m ((c : Thread nD τ).loc main_arg4) :=
  (StableHlo.after_of_writes_sub hostOps2 _ hostOps2_writes (by decide)).trans <| (M3_of_ne m ρ c main_arg4 (by decide)).trans <|
    (StableHlo.after_of_writes_sub hostOps1 _ hostOps1_writes (by decide)).trans (M1_of_ne m ρ c main_arg4 (by decide))
theorem E4_main_arg5 (c : Dev nD) : E4 m ρ c main_arg5 = m ((c : Thread nD τ).loc main_arg5) :=
  (StableHlo.after_of_writes_sub hostOps2 _ hostOps2_writes (by decide)).trans <| (M3_of_ne m ρ c main_arg5 (by decide)).trans <|
    (StableHlo.after_of_writes_sub hostOps1 _ hostOps1_writes (by decide)).trans (M1_of_ne m ρ c main_arg5 (by decide))

/-! ## The first stretch -/

/-- The pair (batch, key row) a flattened row stands for. -/
def batchOfRow (r : Fin 1024) : Fin 64 := ⟨r.val / 16, by omega⟩
def keyOfRow (r : Fin 1024) : Fin 16 := ⟨r.val % 16, by omega⟩

theorem E2_v1 (c : Dev nD) : (E2 m ρ c main_v1 : S1024x1024.Idx → Elt F .f32)
    = shapeCast S1024x1024 (E1 m ρ c main_v0_0) shapeCasts_S64x16x1024_S1024x1024 := by
  show StableHlo.after hostOps1 (M1 m ρ c) (Proc.devRef .tc main_v1) = _
  after_results <;> rfl
theorem E2_v2 (c : Dev nD) : (E2 m ρ c main_v2 : S1024x1024.Idx → Elt F .f32)
    = shapeCast S1024x1024 (E1 m ρ c main_arg0) shapeCasts_S64x16x1024_S1024x1024 := by
  show StableHlo.after hostOps1 (M1 m ρ c) (Proc.devRef .tc main_v2) = _
  after_results <;> rfl
theorem E2_v3 (c : Dev nD) : (E2 m ρ c main_v3 : S1024x1024.Idx → Elt F .f32)
    = extractStridedSlice S1024x1024 ![0, 0] (E1 m ρ c main_arg2) slices_S1024x2048_S1024x1024_0_0 := by
  show StableHlo.after hostOps1 (M1 m ρ c) (Proc.devRef .tc main_v3) = _
  after_results <;> rfl
theorem E2_v4 (c : Dev nD) : (E2 m ρ c main_v4 : S1024x1024.Idx → Elt F .f32)
    = extractStridedSlice S1024x1024 ![0, 1024] (E1 m ρ c main_arg2) slices_S1024x2048_S1024x1024_0_1024 := by
  show StableHlo.after hostOps1 (M1 m ρ c) (Proc.devRef .tc main_v4) = _
  after_results <;> rfl

/-- A [64,16,1024] array re-laid to [1024,1024], read at (r, f): the entry (r / 16, r % 16, f). -/
theorem relay_rows_apply (x : S64x16x1024.Idx → Elt F .f32) (r : Fin 1024) (f : Fin 1024) :
    shapeCast S1024x1024 x shapeCasts_S64x16x1024_S1024x1024 (ix2 r f) = x (ix3 (batchOfRow r) (keyOfRow r) f) := by
  refine shapeCast_apply x _ (ix2 r f) (ix3 (batchOfRow r) (keyOfRow r) f) ?_
  rw [Shape.rowMajor_val_three, Shape.rowMajor_val_two]
  show ((r.val / 16) * 16 + r.val % 16) * 1024 + f.val = r.val * 1024 + f.val
  omega

theorem E2_v1_apply (c : Dev nD) (r f : Fin 1024) :
    E2 m ρ c main_v1 (ix2 r f) = E1 m ρ c main_v0_0 (ix3 (batchOfRow r) (keyOfRow r) f) := by
  rw [E2_v1]; exact relay_rows_apply _ r f
theorem E2_v2_apply (c : Dev nD) (r f : Fin 1024) :
    E2 m ρ c main_v2 (ix2 r f) = m ((c : Thread nD τ).loc main_arg0) (ix3 (batchOfRow r) (keyOfRow r) f) := by
  rw [E2_v2, E1_main_arg0]; exact relay_rows_apply _ r f

theorem E2_v3_apply (c : Dev nD) (d f : Fin 1024) :
    E2 m ρ c main_v3 (ix2 d f) = m ((c : Thread nD τ).loc main_arg2) (ix2 d (⟨f.val, by omega⟩ : Fin 2048)) := by
  rw [E2_v3, E1_main_arg2]
  refine extractStridedSlice_apply _ _ _ (ix2 d f) (ix2 d (⟨f.val, by omega⟩ : Fin 2048)) fun a => ?_
  match a with
  | ⟨0, _⟩ => show d.val = 0 + d.val; omega
  | ⟨1, _⟩ => show f.val = 0 + f.val; omega
theorem E2_v4_apply (c : Dev nD) (d f : Fin 1024) :
    E2 m ρ c main_v4 (ix2 d f) = m ((c : Thread nD τ).loc main_arg2) (ix2 d (⟨1024 + f.val, by omega⟩ : Fin 2048)) := by
  rw [E2_v4, E1_main_arg2]
  refine extractStridedSlice_apply _ _ _ (ix2 d f) (ix2 d (⟨1024 + f.val, by omega⟩ : Fin 2048)) fun a => ?_
  match a with
  | ⟨0, _⟩ => show d.val = 0 + d.val; omega
  | ⟨1, _⟩ => show 1024 + f.val = 1024 + f.val; rfl

/-! ## The second stretch -/

theorem E4_v6 (c : Dev nD) : (E4 m ρ c main_v6 : S64x16384.Idx → Elt F .f32)
    = shapeCast S64x16384 (E3 m ρ c main_v5) shapeCasts_S1024x1024_S64x16384 := by
  show StableHlo.after hostOps2 (M3 m ρ c) (Proc.devRef .tc main_v6) = _
  after_results <;> rfl

/-- The [1024,1024] hidden rows re-laid to [64,16384], read at (b, j): row 16·b + j / 1024, column j % 1024. -/
theorem E4_v6_apply (c : Dev nD) (b : Fin 64) (j : Fin 16384) :
    E4 m ρ c main_v6 (ix2 b j)
      = E3 m ρ c main_v5 (ix2 (⟨16 * b.val + j.val / 1024, by omega⟩ : Fin 1024) (⟨j.val % 1024, by omega⟩ : Fin 1024)) := by
  rw [E4_v6]
  refine shapeCast_apply _ _ (ix2 b j) (ix2 (⟨16 * b.val + j.val / 1024, by omega⟩ : Fin 1024) (⟨j.val % 1024, by omega⟩ : Fin 1024)) ?_
  rw [Shape.rowMajor_val_two, Shape.rowMajor_val_two]
  show (16 * b.val + j.val / 1024) * 1024 + j.val % 1024 = b.val * 16384 + j.val
  omega

end Cert.KernelIdeal.Hand

end
-- ==== Proof.KI.Arr0.lean ====
import proofs.«168501_j15375982920258_2_alg».proof.Proof.KI.Region0
import Idealize.ShloMosaic.Lib.Pipeline.Value
import Idealize.ShloMosaic.Lib.ValueIdx

/-!
# Region 0: blocks and arrays

At point `t` of the 32-point grid every window of the first kernel sits on batch rows `2t` and
`2t + 1` of its array and on all of the other two axes. So an input block read at `(bb, k, d)` is the
array read at `(2t + bb, k, d)`, and the 32 output blocks, one written back per point, tile each output
array: if every block agrees entry by entry with one function of the whole array, the array ends as
that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- A point of the grid is below 32. -/
theorem lt_N0 (t : Fin cfg0.N) : t.val < 32 :=
  lt_of_lt_of_eq t.isLt (show cfg0.N = 32 from N_0)

/-- The batch row of the array that row `bb` of a block at point `t` is. -/
def batchOf (t : Fin cfg0.N) (bb : Fin 2) : Fin 64 := ⟨2 * t.val + bb.val, by have := lt_N0 t; have := bb.isLt; omega⟩

/-- The four index maps over the grid: block `t` on the batch axis, block 0 on the other two. -/
theorem index0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## The input blocks, entry by entry -/

/-- Window 0's block at point `t`, at `(bb, k, d)`, is the first argument at `(2t + bb, k, d)`. -/
theorem iblk0_0_apply (c : Dev nD) (t : Fin cfg0.N) (bb : Fin 2) (k : Fin 16) (d : Fin 1024) :
    (iblk0 V c 0 t : Vec F S2x16x1024 .f32) (ix3 bb k d)
      = (V c main_arg0 : S64x16x1024.Idx → Elt F .f32) (ix3 (batchOf t bb) k d) := by
  obtain ⟨⟨e0, e1, e2⟩, -, -, -⟩ := index0 t
  unfold iblk0
  rw [View.read_apply]
  show V c main_arg0 _ = V c main_arg0 _
  congr 1
  funext a
  apply Fin.ext
  match a with
  | ⟨0, _⟩ => show win0_0.index t (0 : Fin 3) * 2 + 1 * bb.val = 2 * t.val + bb.val; omega
  | ⟨1, _⟩ => show win0_0.index t (1 : Fin 3) * 16 + 1 * k.val = k.val; omega
  | ⟨2, _⟩ => show win0_0.index t (2 : Fin 3) * 1024 + 1 * d.val = d.val; omega

/-- Window 1's block at point `t`, at `(bb, q, d)`, is the second argument at `(2t + bb, q, d)`. -/
theorem iblk0_1_apply (c : Dev nD) (t : Fin cfg0.N) (bb : Fin 2) (q : Fin 2048) (d : Fin 1024) :
    (iblk0 V c 1 t : Vec F S2x2048x1024 .f32) (ix3 bb q d)
      = (V c main_arg1 : S64x2048x1024.Idx → Elt F .f32) (ix3 (batchOf t bb) q d) := by
  obtain ⟨-, ⟨e0, e1, e2⟩, -, -⟩ := index0 t
  unfold iblk0
  rw [View.read_apply]
  show V c main_arg1 _ = V c main_arg1 _
  congr 1
  funext a
  apply Fin.ext
  match a with
  | ⟨0, _⟩ => show win0_1.index t (0 : Fin 3) * 2 + 1 * bb.val = 2 * t.val + bb.val; omega
  | ⟨1, _⟩ => show win0_1.index t (1 : Fin 3) * 2048 + 1 * q.val = q.val; omega
  | ⟨2, _⟩ => show win0_1.index t (2 : Fin 3) * 1024 + 1 * d.val = d.val; omega

/-! ## The output arrays from their blocks -/

/-- An entry of window 2's array is in point `t`'s block iff each coordinate is in the block's range. -/
theorem mem_blk0_2 (t : Fin cfg0.N) (i : S64x16x1024.Idx) :
    i ∈ ((cfg0.win 2).blk t).view.set ↔ ∀ a : Fin 3, win0_2.index t a * S2x16x1024.size a ≤ (i a).val ∧ (i a).val < win0_2.index t a * S2x16x1024.size a + S2x16x1024.size a := by
  show i ∈ ((View.whole main_v0_0).slice (win0_2.rect t)).set ↔ _
  rw [View.set_slice_whole, Rect.mem_set_unit]
  exact Iff.rfl

/-- The same for window 3's array. -/
theorem mem_blk0_3 (t : Fin cfg0.N) (i : S64x16x2048.Idx) :
    i ∈ ((cfg0.win 3).blk t).view.set ↔ ∀ a : Fin 3, win0_3.index t a * S2x16x2048.size a ≤ (i a).val ∧ (i a).val < win0_3.index t a * S2x16x2048.size a + S2x16x2048.size a := by
  show i ∈ ((View.whole main_v0_1).slice (win0_3.rect t)).set ↔ _
  rw [View.set_slice_whole, Rect.mem_set_unit]
  exact Iff.rfl

/-- If every block the body leaves in window 2 agrees, entry by entry, with `G` at the array's
    coordinates, the array the region leaves is `G`: the 32 blocks written back tile it, batch row `r`
    lying in point `r / 2`'s. -/
theorem arrAt0_2_eq (c : Dev nD) (G : S64x16x1024.Idx → Elt F .f32)
    (h : ∀ (t : Fin cfg0.N) (bb : Fin 2) (k : Fin 16) (d : Fin 1024),
      ((dat0 V c).after 2 t : Vec F S2x16x1024 .f32) (ix3 bb k d) = G (ix3 (batchOf t bb) k d)) :
    (dat0 V c).arrAt 2 cfg0.N = G := by
  refine (dat0 V c).arrAt_eq_of_cover 2 G (fun t _ => ?_) (fun i => ?_)
  · show (cfg0.win 2).cut (grid0.coords t) ((dat0 V c).after 2 t) = _
    obtain ⟨-, -, ⟨e0, e1, e2⟩, -⟩ := index0 t
    funext (j : S2x16x1024.Idx)
    show ((dat0 V c).after 2 t : Vec F S2x16x1024 .f32) j = G (((cfg0.win 2).blk t).view.emb j)
    refine ((congrArg ((dat0 V c).after 2 t : Vec F S2x16x1024 .f32) (eq_ix3 j)).trans (h t (j 0) (j 1) (j 2))).trans (congrArg G ?_)
    funext a
    apply Fin.ext
    match a with
    | ⟨0, _⟩ => show 2 * t.val + (j 0).val = win0_2.index t (0 : Fin 3) * 2 + 1 * (j 0).val; omega
    | ⟨1, _⟩ => show (j 1).val = win0_2.index t (1 : Fin 3) * 16 + 1 * (j 1).val; omega
    | ⟨2, _⟩ => show (j 2).val = win0_2.index t (2 : Fin 3) * 1024 + 1 * (j 2).val; omega
  · have h0 : (i 0).val < 64 := (i 0).isLt
    have h1 : (i 1).val < 16 := (i 1).isLt
    have h2 : (i 2).val < 1024 := (i 2).isLt
    have hN : cfg0.N = 32 := N_0
    let t : Fin cfg0.N := ⟨(i 0).val / 2, by rw [hN]; omega⟩
    obtain ⟨-, -, ⟨e0, e1, e2⟩, -⟩ := index0 t
    have ht : t.val = (i 0).val / 2 := rfl
    refine ⟨t, flush0_2 t, ?_⟩
    rw [mem_blk0_2]
    intro a
    match a with
    | ⟨0, _⟩ => show win0_2.index t (0 : Fin 3) * 2 ≤ (i 0).val ∧ (i 0).val < win0_2.index t (0 : Fin 3) * 2 + 2; omega
    | ⟨1, _⟩ => show win0_2.index t (1 : Fin 3) * 16 ≤ (i 1).val ∧ (i 1).val < win0_2.index t (1 : Fin 3) * 16 + 16; omega
    | ⟨2, _⟩ => show win0_2.index t (2 : Fin 3) * 1024 ≤ (i 2).val ∧ (i 2).val < win0_2.index t (2 : Fin 3) * 1024 + 1024; omega

/-- The same for window 3 and its array. -/
theorem arrAt0_3_eq (c : Dev nD) (G : S64x16x2048.Idx → Elt F .f32)
    (h : ∀ (t : Fin cfg0.N) (bb : Fin 2) (k : Fin 16) (q : Fin 2048),
      ((dat0 V c).after 3 t : Vec F S2x16x2048 .f32) (ix3 bb k q) = G (ix3 (batchOf t bb) k q)) :
    (dat0 V c).arrAt 3 cfg0.N = G := by
  refine (dat0 V c).arrAt_eq_of_cover 3 G (fun t _ => ?_) (fun i => ?_)
  · show (cfg0.win 3).cut (grid0.coords t) ((dat0 V c).after 3 t) = _
    obtain ⟨-, -, -, ⟨e0, e1, e2⟩⟩ := index0 t
    funext (j : S2x16x2048.Idx)
    show ((dat0 V c).after 3 t : Vec F S2x16x2048 .f32) j = G (((cfg0.win 3).blk t).view.emb j)
    refine ((congrArg ((dat0 V c).after 3 t : Vec F S2x16x2048 .f32) (eq_ix3 j)).trans (h t (j 0) (j 1) (j 2))).trans (congrArg G ?_)
    funext a
    apply Fin.ext
    match a with
    | ⟨0, _⟩ => show 2 * t.val + (j 0).val = win0_3.index t (0 : Fin 3) * 2 + 1 * (j 0).val; omega
    | ⟨1, _⟩ => show (j 1).val = win0_3.index t (1 : Fin 3) * 16 + 1 * (j 1).val; omega
    | ⟨2, _⟩ => show (j 2).val = win0_3.index t (2 : Fin 3) * 2048 + 1 * (j 2).val; omega
  · have h0 : (i 0).val < 64 := (i 0).isLt
    have h1 : (i 1).val < 16 := (i 1).isLt
    have h2 : (i 2).val < 2048 := (i 2).isLt
    have hN : cfg0.N = 32 := N_0
    let t : Fin cfg0.N := ⟨(i 0).val / 2, by rw [hN]; omega⟩
    obtain ⟨-, -, -, ⟨e0, e1, e2⟩⟩ := index0 t
    have ht : t.val = (i 0).val / 2 := rfl
    refine ⟨t, flush0_3 t, ?_⟩
    rw [mem_blk0_3]
    intro a
    match a with
    | ⟨0, _⟩ => show win0_3.index t (0 : Fin 3) * 2 ≤ (i 0).val ∧ (i 0).val < win0_3.index t (0 : Fin 3) * 2 + 2; omega
    | ⟨1, _⟩ => show win0_3.index t (1 : Fin 3) * 16 ≤ (i 1).val ∧ (i 1).val < win0_3.index t (1 : Fin 3) * 16 + 16; omega
    | ⟨2, _⟩ => show win0_3.index t (2 : Fin 3) * 2048 ≤ (i 2).val ∧ (i 2).val < win0_3.index t (2 : Fin 3) * 2048 + 2048; omega

end Cert.KernelIdeal.Hand

end
-- ==== Proof.KI.Arr1.lean ====
import proofs.«168501_j15375982920258_2_alg».proof.Proof.KI.Region1
import Idealize.ShloMosaic.Lib.Pipeline.Value
import Idealize.ShloMosaic.Lib.ValueIdx

/-!
# Region 1: blocks and arrays

At point `t` of the 2-point grid the two row-block inputs and the output sit on rows `512 t …` of
their arrays and on all columns; the two weight slices and the bias are taken whole at both points. So
a row-block input read at `(r, f)` is its array read at `(512 t + r, f)`, a weight or bias block is its
array, and the two output blocks, one written back per point, tile the output array: if each agrees
entry by entry with one function of the whole array, the array ends as that function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- A point of the grid is below 2. -/
theorem lt_N1 (t : Fin cfg1.N) : t.val < 2 :=
  lt_of_lt_of_eq t.isLt (show cfg1.N = 2 from N_1)

/-- The row of the array that row `r` of a block at point `t` is. -/
def rowAt (t : Fin cfg1.N) (r : Fin 512) : Fin 1024 := ⟨512 * t.val + r.val, by have := lt_N1 t; have := r.isLt; omega⟩

/-- The six index maps over the grid: the row blocks follow the point, the rest stay at block 0. -/
theorem index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 1) = 0)
    ∧ (win1_5.index t (0 : Fin 2) = t.val ∧ win1_5.index t (1 : Fin 2) = 0) :=
  (by decide +kernel : ∀ t : Fin grid1.N, _)

/-! ## The input blocks, entry by entry -/

/-- Window 0's block at point `t`, at `(r, f)`, is its array at `(512 t + r, f)`. -/
theorem iblk1_0_apply (c : Dev nD) (t : Fin cfg1.N) (r : Fin 512) (f : Fin 1024) :
    (iblk1 V c 0 t : Vec F S512x1024 .f32) (ix2 r f)
      = (V c main_v1 : S1024x1024.Idx → Elt F .f32) (ix2 (rowAt t r) f) := by
  obtain ⟨⟨e0, e1⟩, -, -, -, -, -⟩ := index1 t
  unfold iblk1
  rw [View.read_apply]
  show V c main_v1 _ = V c main_v1 _
  congr 1
  funext a
  apply Fin.ext
  match a with
  | ⟨0, _⟩ => show win1_0.index t (0 : Fin 2) * 512 + 1 * r.val = 512 * t.val + r.val; omega
  | ⟨1, _⟩ => show win1_0.index t (1 : Fin 2) * 1024 + 1 * f.val = f.val; omega

/-- Window 1's block at point `t`, at `(r, f)`, is its array at `(512 t + r, f)`. -/
theorem iblk1_1_apply (c : Dev nD) (t : Fin cfg1.N) (r : Fin 512) (f : Fin 1024) :
    (iblk1 V c 1 t : Vec F S512x1024 .f32) (ix2 r f)
      = (V c main_v2 : S1024x1024.Idx → Elt F .f32) (ix2 (rowAt t r) f) := by
  obtain ⟨-, ⟨e0, e1⟩, -, -, -, -⟩ := index1 t
  unfold iblk1
  rw [View.read_apply]
  show V c main_v2 _ = V c main_v2 _
  congr 1
  funext a
  apply Fin.ext
  match a with
  | ⟨0, _⟩ => show win1_1.index t (0 : Fin 2) * 512 + 1 * r.val = 512 * t.val + r.val; omega
  | ⟨1, _⟩ => show win1_1.index t (1 : Fin 2) * 1024 + 1 * f.val = f.val; omega

/-- Window 2's block is the first weight slice, at every point. -/
theorem iblk1_2_apply (c : Dev nD) (t : Fin cfg1.N) (d f : Fin 1024) :
    (iblk1 V c 2 t : Vec F S1024x1024 .f32) (ix2 d f)
      = (V c main_v3 : S1024x1024.Idx → Elt F .f32) (ix2 d f) := by
  obtain ⟨-, -, ⟨e0, e1⟩, -, -, -⟩ := index1 t
  unfold iblk1
  rw [View.read_apply]
  show V c main_v3 _ = V c main_v3 _
  congr 1
  funext a
  apply Fin.ext
  match a with
  | ⟨0, _⟩ => show win1_2.index t (0 : Fin 2) * 1024 + 1 * d.val = d.val; omega
  | ⟨1, _⟩ => show win1_2.index t (1 : Fin 2) * 1024 + 1 * f.val = f.val; omega

/-- Window 3's block is the second weight slice, at every point. -/
theorem iblk1_3_apply (c : Dev nD) (t : Fin cfg1.N) (d f : Fin 1024) :
    (iblk1 V c 3 t : Vec F S1024x1024 .f32) (ix2 d f)
      = (V c main_v4 : S1024x1024.Idx → Elt F .f32) (ix2 d f) := by
  obtain ⟨-, -, -, ⟨e0, e1⟩, -, -⟩ := index1 t
  unfold iblk1
  rw [View.read_apply]
  show V c main_v4 _ = V c main_v4 _
  congr 1
  funext a
  apply Fin.ext
  match a with
  | ⟨0, _⟩ => show win1_3.index t (0 : Fin 2) * 1024 + 1 * d.val = d.val; omega
  | ⟨1, _⟩ => show win1_3.index t (1 : Fin 2) * 1024 + 1 * f.val = f.val; omega

/-- Window 4's block is the bias, at every point. -/
theorem iblk1_4_apply (c : Dev nD) (t : Fin cfg1.N) (d : Fin 1024) :
    (iblk1 V c 4 t : Vec F S1024 .f32) (ix1 d)
      = (V c main_arg3 : S1024.Idx → Elt F .f32) (ix1 d) := by
  obtain ⟨-, -, -, -, e0, -⟩ := index1 t
  unfold iblk1
  rw [View.read_apply]
  show V c main_arg3 _ = V c main_arg3 _
  congr 1
  funext a
  apply Fin.ext
  match a with
  | ⟨0, _⟩ => show win1_4.index t (0 : Fin 1) * 1024 + 1 * d.val = d.val; omega

/-! ## The output array from its blocks -/

/-- An entry of the output array is in point `t`'s block iff each coordinate is in the block's range. -/
theorem mem_blk1_5 (t : Fin cfg1.N) (i : S1024x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v5).slice (win1_5.rect t)).set ↔ _
  rw [View.set_slice_whole, Rect.mem_set_unit]
  exact Iff.rfl

/-- If every block the body leaves in the output window agrees, entry by entry, with `G` at the
    array's coordinates, the array the region leaves is `G`: the two blocks written back tile it, row
    `r` lying in point `r / 512`'s. -/
theorem arrAt1_5_eq (c : Dev nD) (G : S1024x1024.Idx → Elt F .f32)
    (h : ∀ (t : Fin cfg1.N) (r : Fin 512) (d : Fin 1024),
      ((dat1 V c).after 5 t : Vec F S512x1024 .f32) (ix2 r d) = G (ix2 (rowAt t r) d)) :
    (dat1 V c).arrAt 5 cfg1.N = G := by
  refine (dat1 V c).arrAt_eq_of_cover 5 G (fun t _ => ?_) (fun i => ?_)
  · show (cfg1.win 5).cut (grid1.coords t) ((dat1 V c).after 5 t) = _
    obtain ⟨-, -, -, -, -, ⟨e0, e1⟩⟩ := index1 t
    funext (j : S512x1024.Idx)
    show ((dat1 V c).after 5 t : Vec F S512x1024 .f32) j = G (((cfg1.win 5).blk t).view.emb j)
    refine ((congrArg ((dat1 V c).after 5 t : Vec F S512x1024 .f32) (eq_ix2 j)).trans (h t (j 0) (j 1))).trans (congrArg G ?_)
    funext a
    apply Fin.ext
    match a with
    | ⟨0, _⟩ => show 512 * t.val + (j 0).val = win1_5.index t (0 : Fin 2) * 512 + 1 * (j 0).val; omega
    | ⟨1, _⟩ => show (j 1).val = win1_5.index t (1 : Fin 2) * 1024 + 1 * (j 1).val; omega
  · have h0 : (i 0).val < 1024 := (i 0).isLt
    have h1 : (i 1).val < 1024 := (i 1).isLt
    have hN : cfg1.N = 2 := N_1
    let t : Fin cfg1.N := ⟨(i 0).val / 512, by rw [hN]; omega⟩
    obtain ⟨-, -, -, -, -, ⟨e0, e1⟩⟩ := index1 t
    have ht : t.val = (i 0).val / 512 := rfl
    refine ⟨t, flush1_5 t, ?_⟩
    rw [mem_blk1_5]
    intro a
    match a with
    | ⟨0, _⟩ => show win1_5.index t (0 : Fin 2) * 512 ≤ (i 0).val ∧ (i 0).val < win1_5.index t (0 : Fin 2) * 512 + 512; omega
    | ⟨1, _⟩ => show win1_5.index t (1 : Fin 2) * 1024 ≤ (i 1).val ∧ (i 1).val < win1_5.index t (1 : Fin 2) * 1024 + 1024; omega

end Cert.KernelIdeal.Hand

end
-- ==== Proof.KI.Arr2.lean ====
import proofs.«168501_j15375982920258_2_alg».proof.Proof.KI.Fc2
import Idealize.ShloMosaic.Lib.Pipeline.Value
import Idealize.ShloMosaic.Lib.ValueIdx

/-!
# Region 2: blocks and arrays

The last kernel's grid is 2 × 4: point `t` is output-feature half `t / 4` and contraction tile
`t % 4`. At point `t` window 0 sits on all 64 rows and on columns `4096 (t % 4) …` of its array,
window 1 on rows `512 (t / 4) …` and the same columns of the weight, window 2 on entries
`512 (t / 4) …` of the bias, and the output window on all rows and columns `512 (t / 4) …` of the
result. The output is written back at the last tile of each half only, and those two blocks tile the
result: if each agrees entry by entry with one function of the whole array, the array ends as that
function.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- A point of the grid is below 8. -/
theorem lt_N2 (t : Fin cfg2.N) : t.val < 8 :=
  lt_of_lt_of_eq t.isLt (show cfg2.N = 8 from N_2)

/-- The output-feature half of a point. -/
def halfOf (t : Fin cfg2.N) : Fin 2 := ⟨t.val / 4, by have := lt_N2 t; omega⟩
/-- The contraction tile of a point. -/
def tileOf (t : Fin cfg2.N) : Fin 4 := ⟨t.val % 4, by omega⟩
/-- The output feature that entry `d` of half `p` is. -/
def featAt (p : Fin 2) (d : Fin 512) : Fin 1024 := ⟨512 * p.val + d.val, by have := p.isLt; have := d.isLt; omega⟩
/-- The contraction column that entry `f` of tile `k` is. -/
def colAt (k : Fin 4) (f : Fin 4096) : Fin 16384 := ⟨4096 * k.val + f.val, by have := k.isLt; have := f.isLt; omega⟩

/-- The four index maps over the grid. -/
theorem index2 : ∀ t : Fin cfg2.N,
    (win2_0.index t (0 : Fin 2) = 0 ∧ win2_0.index t (1 : Fin 2) = t.val % 4)
    ∧ (win2_1.index t (0 : Fin 2) = t.val / 4 ∧ win2_1.index t (1 : Fin 2) = t.val % 4)
    ∧ (win2_2.index t (0 : Fin 1) = t.val / 4)
    ∧ (win2_3.index t (0 : Fin 2) = 0 ∧ win2_3.index t (1 : Fin 2) = t.val / 4) :=
  (by decide +kernel : ∀ t : Fin grid2.N, _)

/-! ## The input blocks, entry by entry -/

/-- Window 0's block at point `t`, at `(b, f)`, is its array at `(b, 4096 (t % 4) + f)`. -/
theorem iblk2_0_apply (c : Dev nD) (t : Fin cfg2.N) (b : Fin 64) (f : Fin 4096) :
    (iblk2 V c 0 t : Vec F S64x4096 .f32) (ix2 b f)
      = (V c main_v6 : S64x16384.Idx → Elt F .f32) (ix2 b (colAt (tileOf t) f)) := by
  obtain ⟨⟨e0, e1⟩, -, -, -⟩ := index2 t
  unfold iblk2
  rw [View.read_apply]
  show V c main_v6 _ = V c main_v6 _
  congr 1
  funext a
  apply Fin.ext
  match a with
  | ⟨0, _⟩ => show win2_0.index t (0 : Fin 2) * 64 + 1 * b.val = b.val; omega
  | ⟨1, _⟩ => show win2_0.index t (1 : Fin 2) * 4096 + 1 * f.val = 4096 * (t.val % 4) + f.val; omega

/-- Window 1's block at point `t`, at `(d, f)`, is the weight at `(512 (t / 4) + d, 4096 (t % 4) + f)`. -/
theorem iblk2_1_apply (c : Dev nD) (t : Fin cfg2.N) (d : Fin 512) (f : Fin 4096) :
    (iblk2 V c 1 t : Vec F S512x4096 .f32) (ix2 d f)
      = (V c main_arg4 : S1024x16384.Idx → Elt F .f32) (ix2 (featAt (halfOf t) d) (colAt (tileOf t) f)) := by
  obtain ⟨-, ⟨e0, e1⟩, -, -⟩ := index2 t
  unfold iblk2
  rw [View.read_apply]
  show V c main_arg4 _ = V c main_arg4 _
  congr 1
  funext a
  apply Fin.ext
  match a with
  | ⟨0, _⟩ => show win2_1.index t (0 : Fin 2) * 512 + 1 * d.val = 512 * (t.val / 4) + d.val; omega
  | ⟨1, _⟩ => show win2_1.index t (1 : Fin 2) * 4096 + 1 * f.val = 4096 * (t.val % 4) + f.val; omega

/-- Window 2's block at point `t`, at `d`, is the bias at `512 (t / 4) + d`. -/
theorem iblk2_2_apply (c : Dev nD) (t : Fin cfg2.N) (d : Fin 512) :
    (iblk2 V c 2 t : Vec F S512 .f32) (ix1 d)
      = (V c main_arg5 : S1024.Idx → Elt F .f32) (ix1 (featAt (halfOf t) d)) := by
  obtain ⟨-, -, e0, -⟩ := index2 t
  unfold iblk2
  rw [View.read_apply]
  show V c main_arg5 _ = V c main_arg5 _
  congr 1
  funext a
  apply Fin.ext
  match a with
  | ⟨0, _⟩ => show win2_2.index t (0 : Fin 1) * 512 + 1 * d.val = 512 * (t.val / 4) + d.val; omega

/-! ## The output array from its blocks -/

/-- An entry of the result is in point `t`'s block iff each coordinate is in the block's range. -/
theorem mem_blk2_3 (t : Fin cfg2.N) (i : S64x1024.Idx) :
    i ∈ ((cfg2.win 3).blk t).view.set ↔ ∀ a : Fin 2, win2_3.index t a * S64x512.size a ≤ (i a).val ∧ (i a).val < win2_3.index t a * S64x512.size a + S64x512.size a := by
  show i ∈ ((View.whole main_v7).slice (win2_3.rect t)).set ↔ _
  rw [View.set_slice_whole, Rect.mem_set_unit]
  exact Iff.rfl

/-- If at each half's last tile the block the body leaves in the output window agrees, entry by
    entry, with `G` at the array's coordinates, the array the region leaves is `G`: the two blocks
    written back tile it, feature `j` lying in the block of half `j / 512`. -/
theorem arrAt2_3_eq (c : Dev nD) (G : S64x1024.Idx → Elt F .f32)
    (h : ∀ (t : Fin cfg2.N), t.val % 4 = 3 → ∀ (b : Fin 64) (d : Fin 512),
      ((dat2 V c).after 3 t : Vec F S64x512 .f32) (ix2 b d) = G (ix2 b (featAt (halfOf t) d))) :
    (dat2 V c).arrAt 3 cfg2.N = G := by
  refine (dat2 V c).arrAt_eq_of_cover 3 G (fun t hf => ?_) (fun i => ?_)
  · have h3 : t.val % 4 = 3 := (flush2_3 t).mp hf
    show (cfg2.win 3).cut (grid2.coords t) ((dat2 V c).after 3 t) = _
    obtain ⟨-, -, -, ⟨e0, e1⟩⟩ := index2 t
    funext (j : S64x512.Idx)
    show ((dat2 V c).after 3 t : Vec F S64x512 .f32) j = G (((cfg2.win 3).blk t).view.emb j)
    refine ((congrArg ((dat2 V c).after 3 t : Vec F S64x512 .f32) (eq_ix2 j)).trans (h t h3 (j 0) (j 1))).trans (congrArg G ?_)
    funext a
    apply Fin.ext
    match a with
    | ⟨0, _⟩ => show (j 0).val = win2_3.index t (0 : Fin 2) * 64 + 1 * (j 0).val; omega
    | ⟨1, _⟩ => show 512 * (t.val / 4) + (j 1).val = win2_3.index t (1 : Fin 2) * 512 + 1 * (j 1).val; omega
  · have h0 : (i 0).val < 64 := (i 0).isLt
    have h1 : (i 1).val < 1024 := (i 1).isLt
    have hN : cfg2.N = 8 := N_2
    let t : Fin cfg2.N := ⟨4 * ((i 1).val / 512) + 3, by rw [hN]; omega⟩
    obtain ⟨-, -, -, ⟨e0, e1⟩⟩ := index2 t
    have ht : t.val = 4 * ((i 1).val / 512) + 3 := rfl
    refine ⟨t, (flush2_3 t).mpr (by omega), ?_⟩
    rw [mem_blk2_3]
    intro a
    match a with
    | ⟨0, _⟩ => show win2_3.index t (0 : Fin 2) * 64 ≤ (i 0).val ∧ (i 0).val < win2_3.index t (0 : Fin 2) * 64 + 64; omega
    | ⟨1, _⟩ => show win2_3.index t (1 : Fin 2) * 512 ≤ (i 1).val ∧ (i 1).val < win2_3.index t (1 : Fin 2) * 512 + 512; omega

end Cert.KernelIdeal.Hand

end
-- ==== Proof.Spec.lean ====
/-
  The function both programs compute, stated once over the extended reals with explicit coordinates.

  Inputs: key[b,k,d] (64×16×1024), query[b,q,d] (64×2048×1024), wlin[d,f] (1024×2048), blin[d] (1024),
  wfc[d,j] (1024×16384), bfc[d] (1024).

    score b k q  = Σ_d key[b,k,d] · query[b,q,d]
    colMax b q   = max over the 16 keys k of score b k q            (a fold of max from −∞)
    expo b k q   = exp (score b k q − colMax b q)
    colSum b q   = Σ_k expo b k q
    attn b k q   = expo b k q / colSum b q                           (softmax over the KEY axis)
    energy b k d = Σ_q attn b k q · query[b,q,d]
    hidden b k d = tanh ( Σ_{f<1024} energy b k f · wlin[d,f]  +  Σ_{f<1024} key[b,k,f] · wlin[d,1024+f]  +  blin[d] )
    out b d      = ( Σ_{t<4} Σ_{f<4096} hidden b ((4096t+f)/1024) ((4096t+f)%1024) · wfc[d,4096t+f] )  +  bfc[d]

  The contraction of the hidden layer over the 2048 concatenated features is written as its two halves, and the
  contraction of the last layer over 16384 as four tiles of 4096: both are regroupings of one finite sum.
-/
import Idealize.ShloMosaic.PureOps.Ideal
import Idealize.ShloMosaic.Lib.ValueIdx

noncomputable section

namespace Cert.AttnSpec

open Idealize.ShloMosaic Idealize.ShloMosaic.ValueIdx
open scoped BigOperators

abbrev KeyA : Type := (⟨3, ![64, 16, 1024]⟩ : Shape).Idx → EReal
abbrev QueryA : Type := (⟨3, ![64, 2048, 1024]⟩ : Shape).Idx → EReal
abbrev WlinA : Type := (⟨2, ![1024, 2048]⟩ : Shape).Idx → EReal
abbrev BiasA : Type := (⟨1, ![1024]⟩ : Shape).Idx → EReal
abbrev WfcA : Type := (⟨2, ![1024, 16384]⟩ : Shape).Idx → EReal

/-- Feature `f` of the first half of the 2048 concatenated features. -/
def loCol (f : Fin 1024) : Fin 2048 := ⟨f.val, by omega⟩
/-- Feature `f` of the second half. -/
def hiCol (f : Fin 1024) : Fin 2048 := ⟨1024 + f.val, by omega⟩
/-- Position `f` of tile `t` of the 16384 flattened hidden features. -/
def tileCol (t : Fin 4) (f : Fin 4096) : Fin 16384 := ⟨4096 * t.val + f.val, by omega⟩
/-- The key row a flattened feature belongs to. -/
def rowOf (j : Fin 16384) : Fin 16 := ⟨j.val / 1024, by omega⟩
/-- Its position inside that row. -/
def colOf (j : Fin 16384) : Fin 1024 := ⟨j.val % 1024, by omega⟩

/-- The value −∞ the column maximum starts from (kept as the float word both programs print). -/
def negInf : EReal := Ideal.ofBits .f32 0xFF800000#32

variable (key : KeyA) (query : QueryA)

def score (b : Fin 64) (k : Fin 16) (q : Fin 2048) : EReal :=
  ∑ d : Fin 1024, key (ix3 b k d) * query (ix3 b q d)

def colMax (b : Fin 64) (q : Fin 2048) : EReal :=
  (Finset.univ : Finset (Fin 16)).fold max negInf (fun k => score key query b k q)

def expo (b : Fin 64) (k : Fin 16) (q : Fin 2048) : EReal :=
  Ideal.exp (score key query b k q - colMax key query b q)

def colSum (b : Fin 64) (q : Fin 2048) : EReal :=
  ∑ k : Fin 16, expo key query b k q

def attn (b : Fin 64) (k : Fin 16) (q : Fin 2048) : EReal :=
  Ideal.div (expo key query b k q) (colSum key query b q)

def energy (b : Fin 64) (k : Fin 16) (d : Fin 1024) : EReal :=
  ∑ q : Fin 2048, attn key query b k q * query (ix3 b q d)

variable (wlin : WlinA) (blin : BiasA)

def hidden (b : Fin 64) (k : Fin 16) (d : Fin 1024) : EReal :=
  Ideal.tanh ((∑ f : Fin 1024, energy key query b k f * wlin (ix2 d (loCol f)))
    + (∑ f : Fin 1024, key (ix3 b k f) * wlin (ix2 d (hiCol f))) + blin (ix1 d))

variable (wfc : WfcA) (bfc : BiasA)

def out (b : Fin 64) (d : Fin 1024) : EReal :=
  (∑ t : Fin 4, ∑ f : Fin 4096,
      hidden key query wlin blin b (rowOf (tileCol t f)) (colOf (tileCol t f)) * wfc (ix2 d (tileCol t f)))
    + bfc (ix1 d)

/-- The first result as an array: `out` at (b, d). -/
def outArr : (⟨2, ![64, 1024]⟩ : Shape).Idx → EReal :=
  fun i => out key query wlin blin wfc bfc (i 0) (i 1)

/-- The second result as an array: `attn` at (b, k, q). -/
def attnArr : (⟨3, ![64, 16, 2048]⟩ : Shape).Idx → EReal :=
  fun i => attn key query (i 0) (i 1) (i 2)

end Cert.AttnSpec

end
-- ==== Proof.KI.PayFc.lean ====
/-
  The last layer's kernel blocks, read entry by entry over the extended reals.

  The accumulator block starts as zero; each grid step adds to entry (b, d) the contraction, over one tile of 4096
  flattened features, of the hidden tile's row b with the weight tile's row d (both operands are narrowed to a
  shorter float format first, which is the identity on extended reals); the last step adds the bias entry d.
-/
import proofs.«168501_j15375982920258_2_alg».proof.Proof.Gen.KernelIdeal.Skeleton
import proofs.«168501_j15375982920258_2_alg».proof.Proof.Spec
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Cert.AttnSpec Idealize.ShloMosaic Idealize.ShloMosaic.ValueIdx
open scoped BigOperators

/-! ## The contraction of a [64, 4096] tile with a [512, 4096] tile over their second axes -/

theorem fc_lhs0 (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide),
    dif_pos (show (0 : Fin S64x4096.rank) ∈ dot_S64x4096_S512x4096_S64x512_1_1_0_0_n_n.lhsNonContracting by decide)]
  rfl
theorem fc_lhs1 (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q
theorem fc_rhs0 (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide),
    dif_pos (show (0 : Fin S512x4096.rank) ∈ dot_S64x4096_S512x4096_S64x512_1_1_0_0_n_n.rhsNonContracting by decide)]
  rfl
theorem fc_rhs1 (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- Into a zero accumulator, entry (b, d) of the product is the sum over the 4096 shared positions of row b of the left
    operand times row d of the right operand. -/
theorem fc_matmul_apply {φ₁ φ₂ : FTy} (prec : Option ContractPrecision) (lhs : FVec Ideal S64x4096 φ₁)
    (rhs : FVec Ideal S512x4096 φ₂) (b : Fin 64) (d : Fin 512) :
    FloatOps.matmul dot_S64x4096_S512x4096_S64x512_1_1_0_0_n_n prec lhs rhs (constant (F := Ideal) S64x512 .f32 0x00000000#32) (ix2 b d)
      = ∑ f : Fin 4096, lhs (ix2 b f) * rhs (ix2 d f) := by
  rw [Ideal.matmul_constant_zero_apply,
    ← Equiv.sum_comp (ValueIdx.contrEquiv1 dot_S64x4096_S512x4096_S64x512_1_1_0_0_n_n 4096 rfl rfl).symm]
  refine Finset.sum_congr rfl fun f _ => ?_
  have hk := ValueIdx.contrEquiv1_symm_val dot_S64x4096_S512x4096_S64x512_1_1_0_0_n_n 4096 rfl rfl f
  have el : dot_S64x4096_S512x4096_S64x512_1_1_0_0_n_n.lhsIdx (ix2 b d)
      ((ValueIdx.contrEquiv1 dot_S64x4096_S512x4096_S64x512_1_1_0_0_n_n 4096 rfl rfl).symm f) = ix2 b f :=
    funext fun a => Fin.ext (by
      match a with
      | ⟨0, _⟩ => exact fc_lhs0 _ _
      | ⟨1, _⟩ => exact (fc_lhs1 _ _).trans hk)
  have er : dot_S64x4096_S512x4096_S64x512_1_1_0_0_n_n.rhsIdx (ix2 b d)
      ((ValueIdx.contrEquiv1 dot_S64x4096_S512x4096_S64x512_1_1_0_0_n_n 4096 rfl rfl).symm f) = ix2 d f :=
    funext fun a => Fin.ext (by
      match a with
      | ⟨0, _⟩ => exact fc_rhs0 _ _
      | ⟨1, _⟩ => exact (fc_rhs1 _ _).trans hk)
  rw [el, er]

/-! ## The three blocks -/

/-- The initial accumulator block is zero everywhere. -/
theorem fc_zero (b : Fin 64) (d : Fin 512) : k2_pay1 (F := Ideal) (ix2 b d) = 0 := by
  unfold k2_pay1
  rw [shapeCast_self]
  exact Ideal.ofBits_zero_f32

/-- One accumulation step: the accumulator plus the tile's partial contraction. -/
theorem fc_add (x0 : Vec Ideal S64x4096 .f32) (x1 : Vec Ideal S512x4096 .f32) (acc : Vec Ideal S64x512 .f32) (b : Fin 64) (d : Fin 512) :
    k2_pay2 (F := Ideal) x0 x1 acc (ix2 b d) = acc (ix2 b d) + ∑ f : Fin 4096, x0 (ix2 b f) * x1 (ix2 d f) := by
  unfold k2_pay2
  rw [shapeCast_self, shapeCast_self]
  refine (addf_apply _ _ _).trans (congrArg (acc (ix2 b d) + ·) ?_)
  exact fc_matmul_apply none _ _ b d

/-- The closing step: the accumulator plus the bias, which is broadcast down the 64 rows. -/
theorem fc_bias (acc : Vec Ideal S64x512 .f32) (x2 : Vec Ideal S512 .f32) (b : Fin 64) (d : Fin 512) :
    k2_pay3 (F := Ideal) acc x2 (ix2 b d) = acc (ix2 b d) + x2 (ix1 d) := by
  unfold k2_pay3
  refine (addf_apply _ _ _).trans (congrArg (acc (ix2 b d) + ·) ?_)
  refine (broadcastTo_apply _ broadcasts_S1x512_S64x512 (ix2 b d) (ix2 (⟨0, Nat.one_pos⟩ : Fin 1) d) (fun a => by
    match a with
    | ⟨0, _⟩ => show (0 : Nat) = if (1 : Nat) = 1 then 0 else b.val; rw [if_pos rfl]
    | ⟨1, _⟩ => show d.val = if (512 : Nat) = 1 then 0 else d.val; rw [if_neg (by decide)])).trans ?_
  exact shapeCast_apply x2 shapeCasts_S512_S1x512 (ix2 (⟨0, Nat.one_pos⟩ : Fin 1) d) (ix1 d)
    (by rewrite [Shape.rowMajor_val_one, Shape.rowMajor_val_two]; show d.val = 0 * 512 + d.val; omega)

end Cert.KernelIdeal.PayValue

end
-- ==== Proof.KI.FcValue.lean ====
/-
  The last layer's kernel at the ideal values: what its accumulator and its output block hold.

  One step adds to the accumulator, at (b, d), the dot product over the tile's 4096 columns of row b of the flattened
  hidden array with row (512·p + d) of the last weight matrix. So after the point at tile k of half p the accumulator
  holds the sum of those dot products over the tiles 0 … k (it restarts from zero at tile 0), and on the last tile the
  stored output entry is the sum over all four tiles plus the bias entry.
-/
import proofs.«168501_j15375982920258_2_alg».proof.Proof.KI.Arr2
import proofs.«168501_j15375982920258_2_alg».proof.Proof.KI.PayFc
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.PayValue Idealize.ShloMosaic.ValueIdx
open scoped BigOperators

variable (V : (c : Dev nD) → (b : Ref sig .tc) → Buf (Elt Ideal) ((c : Thread nD τ).loc b))

/-- The dot product of row `b` of the flattened hidden array with row `512·p + d` of the weight matrix over tile `k`. -/
def tileDotOf (flat : S64x16384.Idx → EReal) (w : S1024x16384.Idx → EReal) (p : Fin 2) (k : Fin 4) (b : Fin 64) (d : Fin 512) : EReal :=
  ∑ f : Fin 4096, flat (ix2 b (colAt k f)) * w (ix2 (featAt p d) (colAt k f))

/-- … of the arrays the region finds. -/
def tileDot (c : Dev nD) (p : Fin 2) (k : Fin 4) (b : Fin 64) (d : Fin 512) : EReal :=
  tileDotOf (V c main_v6) (V c main_arg4) p k b d

/-- The same with the tile a natural number (zero past the last tile): the summand of a sum over a range. -/
def tileDotN (c : Dev nD) (p : Fin 2) (k : ℕ) (b : Fin 64) (d : Fin 512) : EReal :=
  if h : k < 4 then tileDot V c p ⟨k, h⟩ b d else 0

/-- One accumulation step at point `t`. -/
theorem acc_step (c : Dev nD) (t : Fin cfg2.N) (acc : Vec Ideal S64x512 .f32) (b : Fin 64) (d : Fin 512) :
    k2_pay2 (F := Ideal) (iblk2 V c 0 t) (iblk2 V c 1 t) acc (ix2 b d)
      = acc (ix2 b d) + tileDot V c (halfOf t) (tileOf t) b d := by
  refine (fc_add (iblk2 V c 0 t) (iblk2 V c 1 t) acc b d).trans ?_
  refine congrArg (acc (ix2 b d) + ·) ?_
  unfold tileDot tileDotOf
  exact Finset.sum_congr rfl fun f _ => congrArg₂ (· * ·) (iblk2_0_apply V c t b f) (iblk2_1_apply V c t d f)

/-- After the point at position `n` the accumulator holds the tiles 0 … n % 4 of its half. -/
theorem accAt_sum (c : Dev nD) (b : Fin 64) (d : Fin 512) : ∀ (n : ℕ) (hn : n < cfg2.N),
    accAt V c n hn (ix2 b d) = ∑ k ∈ Finset.range (n % 4 + 1), tileDotN V c (halfOf ⟨n, hn⟩) k b d := by
  intro n
  induction n with
  | zero =>
    intro hn
    rw [accAt_first V c ⟨0, hn⟩ rfl, acc_step, fc_zero, zero_add]
    show _ = ∑ k ∈ Finset.range 1, _
    rw [Finset.sum_range_one]
    show _ = dite _ _ _
    rw [dif_pos (by decide : 0 < 4)]
    first | rfl | skip
  | succ n ih =>
    intro hn
    have hN : n + 1 < 8 := lt_of_lt_of_eq hn (show cfg2.N = 8 from N_2)
    by_cases h0 : (n + 1) % 4 = 0
    · rw [accAt_first V c ⟨n + 1, hn⟩ h0, acc_step, fc_zero, zero_add]
      rw [show (n + 1) % 4 + 1 = 1 from by omega, Finset.sum_range_one]
      show _ = dite _ _ _
      rw [dif_pos (by decide : 0 < 4)]
      first | exact congrArg (fun k => tileDot V c _ k b d) (Fin.ext h0) | rfl
    · rw [accAt_next V c ⟨n + 1, hn⟩ h0, acc_step]
      have ih' := ih (Nat.lt_of_succ_lt hn)
      rw [show accAt V c ((⟨n + 1, hn⟩ : Fin cfg2.N).val - 1) (Nat.lt_of_le_of_lt (Nat.sub_le _ _) (⟨n + 1, hn⟩ : Fin cfg2.N).isLt) = accAt V c n (Nat.lt_of_succ_lt hn) from rfl, ih']
      have hhalf : halfOf (⟨n, Nat.lt_of_succ_lt hn⟩ : Fin cfg2.N) = halfOf ⟨n + 1, hn⟩ := Fin.ext (by show n / 4 = (n + 1) / 4; omega)
      rw [hhalf, show (n + 1) % 4 + 1 = (n % 4 + 1) + 1 from by omega,
        Finset.sum_range_succ (fun k => tileDotN V c (halfOf ⟨n + 1, hn⟩) k b d) (n % 4 + 1)]
      congr 1
      unfold tileDotN
      rw [dif_pos (by omega : n % 4 + 1 < 4)]
      exact congrArg (fun k => tileDot V c _ k b d) (Fin.ext (by show (n + 1) % 4 = n % 4 + 1; omega))

/-- On the last tile the stored output entry: the four tiles' dot products summed, plus the bias entry. -/
theorem out_entry (c : Dev nD) (t : Fin cfg2.N) (h3 : t.val % 4 = 3) (b : Fin 64) (d : Fin 512) :
    ((dat2 V c).after 3 t : Vec Ideal S64x512 .f32) (ix2 b d)
      = (∑ k : Fin 4, tileDot V c (halfOf t) k b d) + (V c main_arg5 : S1024.Idx → EReal) (ix1 (featAt (halfOf t) d)) := by
  rw [after2_3]
  refine (fc_bias (accAt V c t.val t.isLt) (iblk2 V c 2 t) b d).trans ?_
  rw [iblk2_2_apply V c t d, accAt_sum V c b d t.val t.isLt, h3, Finset.sum_range]
  refine congrArg (· + _) (Finset.sum_congr rfl fun k _ => ?_)
  show dite _ _ _ = _
  rw [dif_pos k.isLt]

end Cert.KernelIdeal.Hand

end
-- ==== Proof.KI.PayAttn.lean ====
/-
  The attention kernel's two blocks, read entry by entry over the extended reals.

  A block holds two batches. For batch bb of the block, being batch b of the whole arrays: the score at (k, q) is the
  contraction of key row k with query row q; the column maximum over the 16 keys is a fold of max from −∞ and the
  column sum is a sum over the 16 keys, each computed for the fixed (bb, q), reshaped to a unit key axis and broadcast
  back along it; the weight is the exponential of the shifted score over the column sum; the energy at (k, d) is the
  contraction over the 2048 queries of the weights with the query features (both narrowed to a shorter float format
  first, which is the identity on extended reals).
-/
import proofs.«168501_j15375982920258_2_alg».proof.Proof.Gen.KernelIdeal.Skeleton
import proofs.«168501_j15375982920258_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.PayValue

open Cert.KernelIdeal Cert.KernelIdeal.Gen Cert.AttnSpec Idealize.ShloMosaic Idealize.ShloMosaic.ValueIdx
open scoped BigOperators

/-! ## The score contraction: [2, 16, 1024] with [2, 2048, 1024], batched on axis 0, over the feature axis -/

theorem sc_lhs0 (i : S2x16x2048.Idx) (q : dot_S2x16x1024_S2x2048x1024_S2x16x2048_2_2_1_1_0_0.contr.Idx) :
    (dot_S2x16x1024_S2x2048x1024_S2x16x2048_2_2_1_1_0_0.lhsIdx i q 0).val = (i 0).val := by
  unfold DotDims.lhsIdx
  rw [dif_pos (show (0 : Fin S2x16x1024.rank) ∈ dot_S2x16x1024_S2x2048x1024_S2x16x2048_2_2_1_1_0_0.lhsBatch by decide)]
  rfl
theorem sc_lhs1 (i : S2x16x2048.Idx) (q : dot_S2x16x1024_S2x2048x1024_S2x16x2048_2_2_1_1_0_0.contr.Idx) :
    (dot_S2x16x1024_S2x2048x1024_S2x16x2048_2_2_1_1_0_0.lhsIdx i q 1).val = (i 1).val := by
  unfold DotDims.lhsIdx
  rw [dif_neg (show ¬(1 : Fin S2x16x1024.rank) ∈ dot_S2x16x1024_S2x2048x1024_S2x16x2048_2_2_1_1_0_0.lhsBatch by decide),
    dif_pos (show (1 : Fin S2x16x1024.rank) ∈ dot_S2x16x1024_S2x2048x1024_S2x16x2048_2_2_1_1_0_0.lhsNonContracting by decide)]
  rfl
theorem sc_lhs2 (i : S2x16x2048.Idx) (q : dot_S2x16x1024_S2x2048x1024_S2x16x2048_2_2_1_1_0_0.contr.Idx) :
    (dot_S2x16x1024_S2x2048x1024_S2x16x2048_2_2_1_1_0_0.lhsIdx i q 2).val = (q ⟨0, by decide⟩).val :=
  dot_S2x16x1024_S2x2048x1024_S2x16x2048_2_2_1_1_0_0.lhsIdx_val_of_single rfl i q
theorem sc_rhs0 (i : S2x16x2048.Idx) (q : dot_S2x16x1024_S2x2048x1024_S2x16x2048_2_2_1_1_0_0.contr.Idx) :
    (dot_S2x16x1024_S2x2048x1024_S2x16x2048_2_2_1_1_0_0.rhsIdx i q 0).val = (i 0).val := by
  unfold DotDims.rhsIdx
  rw [dif_pos (show (0 : Fin S2x2048x1024.rank) ∈ dot_S2x16x1024_S2x2048x1024_S2x16x2048_2_2_1_1_0_0.rhsBatch by decide)]
  rfl
theorem sc_rhs1 (i : S2x16x2048.Idx) (q : dot_S2x16x1024_S2x2048x1024_S2x16x2048_2_2_1_1_0_0.contr.Idx) :
    (dot_S2x16x1024_S2x2048x1024_S2x16x2048_2_2_1_1_0_0.rhsIdx i q 1).val = (i 2).val := by
  unfold DotDims.rhsIdx
  rw [dif_neg (show ¬(1 : Fin S2x2048x1024.rank) ∈ dot_S2x16x1024_S2x2048x1024_S2x16x2048_2_2_1_1_0_0.rhsBatch by decide),
    dif_pos (show (1 : Fin S2x2048x1024.rank) ∈ dot_S2x16x1024_S2x2048x1024_S2x16x2048_2_2_1_1_0_0.rhsNonContracting by decide)]
  rfl
theorem sc_rhs2 (i : S2x16x2048.Idx) (q : dot_S2x16x1024_S2x2048x1024_S2x16x2048_2_2_1_1_0_0.contr.Idx) :
    (dot_S2x16x1024_S2x2048x1024_S2x16x2048_2_2_1_1_0_0.rhsIdx i q 2).val = (q ⟨0, by decide⟩).val :=
  dot_S2x16x1024_S2x2048x1024_S2x16x2048_2_2_1_1_0_0.rhsIdx_val_of_single rfl i q

/-- Into a zero accumulator, entry (bb, k, q) of the score product is the sum over the 1024 features of the left operand
    at (bb, k, d) times the right operand at (bb, q, d). -/
theorem sc_matmul_apply {φ₁ φ₂ : FTy} (prec : Option ContractPrecision) (lhs : FVec Ideal S2x16x1024 φ₁)
    (rhs : FVec Ideal S2x2048x1024 φ₂) (bb : Fin 2) (k : Fin 16) (q : Fin 2048) :
    FloatOps.matmul dot_S2x16x1024_S2x2048x1024_S2x16x2048_2_2_1_1_0_0 prec lhs rhs
        (constant (F := Ideal) S2x16x2048 .f32 0x00000000#32) (ix3 bb k q)
      = ∑ d : Fin 1024, lhs (ix3 bb k d) * rhs (ix3 bb q d) := by
  rw [Ideal.matmul_constant_zero_apply,
    ← Equiv.sum_comp (ValueIdx.contrEquiv1 dot_S2x16x1024_S2x2048x1024_S2x16x2048_2_2_1_1_0_0 1024 rfl rfl).symm]
  refine Finset.sum_congr rfl fun d _ => ?_
  have hk := ValueIdx.contrEquiv1_symm_val dot_S2x16x1024_S2x2048x1024_S2x16x2048_2_2_1_1_0_0 1024 rfl rfl d
  have el : dot_S2x16x1024_S2x2048x1024_S2x16x2048_2_2_1_1_0_0.lhsIdx (ix3 bb k q)
      ((ValueIdx.contrEquiv1 dot_S2x16x1024_S2x2048x1024_S2x16x2048_2_2_1_1_0_0 1024 rfl rfl).symm d) = ix3 bb k d :=
    funext fun a => Fin.ext (by
      match a with
      | ⟨0, _⟩ => exact sc_lhs0 _ _
      | ⟨1, _⟩ => exact sc_lhs1 _ _
      | ⟨2, _⟩ => exact (sc_lhs2 _ _).trans hk)
  have er : dot_S2x16x1024_S2x2048x1024_S2x16x2048_2_2_1_1_0_0.rhsIdx (ix3 bb k q)
      ((ValueIdx.contrEquiv1 dot_S2x16x1024_S2x2048x1024_S2x16x2048_2_2_1_1_0_0 1024 rfl rfl).symm d) = ix3 bb q d :=
    funext fun a => Fin.ext (by
      match a with
      | ⟨0, _⟩ => exact sc_rhs0 _ _
      | ⟨1, _⟩ => exact sc_rhs1 _ _
      | ⟨2, _⟩ => exact (sc_rhs2 _ _).trans hk)
  rw [el, er]

/-! ## The energy contraction: [2, 16, 2048] with [2, 2048, 1024], batched on axis 0, over the query axis -/

theorem en_lhs0 (i : S2x16x1024.Idx) (q : dot_S2x16x2048_S2x2048x1024_S2x16x1024_2_1_1_2_0_0.contr.Idx) :
    (dot_S2x16x2048_S2x2048x1024_S2x16x1024_2_1_1_2_0_0.lhsIdx i q 0).val = (i 0).val := by
  unfold DotDims.lhsIdx
  rw [dif_pos (show (0 : Fin S2x16x2048.rank) ∈ dot_S2x16x2048_S2x2048x1024_S2x16x1024_2_1_1_2_0_0.lhsBatch by decide)]
  rfl
theorem en_lhs1 (i : S2x16x1024.Idx) (q : dot_S2x16x2048_S2x2048x1024_S2x16x1024_2_1_1_2_0_0.contr.Idx) :
    (dot_S2x16x2048_S2x2048x1024_S2x16x1024_2_1_1_2_0_0.lhsIdx i q 1).val = (i 1).val := by
  unfold DotDims.lhsIdx
  rw [dif_neg (show ¬(1 : Fin S2x16x2048.rank) ∈ dot_S2x16x2048_S2x2048x1024_S2x16x1024_2_1_1_2_0_0.lhsBatch by decide),
    dif_pos (show (1 : Fin S2x16x2048.rank) ∈ dot_S2x16x2048_S2x2048x1024_S2x16x1024_2_1_1_2_0_0.lhsNonContracting by decide)]
  rfl
theorem en_lhs2 (i : S2x16x1024.Idx) (q : dot_S2x16x2048_S2x2048x1024_S2x16x1024_2_1_1_2_0_0.contr.Idx) :
    (dot_S2x16x2048_S2x2048x1024_S2x16x1024_2_1_1_2_0_0.lhsIdx i q 2).val = (q ⟨0, by decide⟩).val :=
  dot_S2x16x2048_S2x2048x1024_S2x16x1024_2_1_1_2_0_0.lhsIdx_val_of_single rfl i q
theorem en_rhs0 (i : S2x16x1024.Idx) (q : dot_S2x16x2048_S2x2048x1024_S2x16x1024_2_1_1_2_0_0.contr.Idx) :
    (dot_S2x16x2048_S2x2048x1024_S2x16x1024_2_1_1_2_0_0.rhsIdx i q 0).val = (i 0).val := by
  unfold DotDims.rhsIdx
  rw [dif_pos (show (0 : Fin S2x2048x1024.rank) ∈ dot_S2x16x2048_S2x2048x1024_S2x16x1024_2_1_1_2_0_0.rhsBatch by decide)]
  rfl
theorem en_rhs1 (i : S2x16x1024.Idx) (q : dot_S2x16x2048_S2x2048x1024_S2x16x1024_2_1_1_2_0_0.contr.Idx) :
    (dot_S2x16x2048_S2x2048x1024_S2x16x1024_2_1_1_2_0_0.rhsIdx i q 1).val = (q ⟨0, by decide⟩).val :=
  dot_S2x16x2048_S2x2048x1024_S2x16x1024_2_1_1_2_0_0.rhsIdx_val_of_single rfl i q
theorem en_rhs2 (i : S2x16x1024.Idx) (q : dot_S2x16x2048_S2x2048x1024_S2x16x1024_2_1_1_2_0_0.contr.Idx) :
    (dot_S2x16x2048_S2x2048x1024_S2x16x1024_2_1_1_2_0_0.rhsIdx i q 2).val = (i 2).val := by
  unfold DotDims.rhsIdx
  rw [dif_neg (show ¬(2 : Fin S2x2048x1024.rank) ∈ dot_S2x16x2048_S2x2048x1024_S2x16x1024_2_1_1_2_0_0.rhsBatch by decide),
    dif_pos (show (2 : Fin S2x2048x1024.rank) ∈ dot_S2x16x2048_S2x2048x1024_S2x16x1024_2_1_1_2_0_0.rhsNonContracting by decide)]
  rfl

/-- Into a zero accumulator, entry (bb, k, d) of the energy product is the sum over the 2048 queries of the left operand
    at (bb, k, q) times the right operand at (bb, q, d). -/
theorem en_matmul_apply {φ₁ φ₂ : FTy} (prec : Option ContractPrecision) (lhs : FVec Ideal S2x16x2048 φ₁)
    (rhs : FVec Ideal S2x2048x1024 φ₂) (bb : Fin 2) (k : Fin 16) (d : Fin 1024) :
    FloatOps.matmul dot_S2x16x2048_S2x2048x1024_S2x16x1024_2_1_1_2_0_0 prec lhs rhs
        (constant (F := Ideal) S2x16x1024 .f32 0x00000000#32) (ix3 bb k d)
      = ∑ q : Fin 2048, lhs (ix3 bb k q) * rhs (ix3 bb q d) := by
  rw [Ideal.matmul_constant_zero_apply,
    ← Equiv.sum_comp (ValueIdx.contrEquiv1 dot_S2x16x2048_S2x2048x1024_S2x16x1024_2_1_1_2_0_0 2048 rfl rfl).symm]
  refine Finset.sum_congr rfl fun q _ => ?_
  have hk := ValueIdx.contrEquiv1_symm_val dot_S2x16x2048_S2x2048x1024_S2x16x1024_2_1_1_2_0_0 2048 rfl rfl q
  have el : dot_S2x16x2048_S2x2048x1024_S2x16x1024_2_1_1_2_0_0.lhsIdx (ix3 bb k d)
      ((ValueIdx.contrEquiv1 dot_S2x16x2048_S2x2048x1024_S2x16x1024_2_1_1_2_0_0 2048 rfl rfl).symm q) = ix3 bb k q :=
    funext fun a => Fin.ext (by
      match a with
      | ⟨0, _⟩ => exact en_lhs0 _ _
      | ⟨1, _⟩ => exact en_lhs1 _ _
      | ⟨2, _⟩ => exact (en_lhs2 _ _).trans hk)
  have er : dot_S2x16x2048_S2x2048x1024_S2x16x1024_2_1_1_2_0_0.rhsIdx (ix3 bb k d)
      ((ValueIdx.contrEquiv1 dot_S2x16x2048_S2x2048x1024_S2x16x1024_2_1_1_2_0_0 2048 rfl rfl).symm q) = ix3 bb q d :=
    funext fun a => Fin.ext (by
      match a with
      | ⟨0, _⟩ => exact en_rhs0 _ _
      | ⟨1, _⟩ => exact (en_rhs1 _ _).trans hk
      | ⟨2, _⟩ => exact en_rhs2 _ _)
  rw [el, er]

/-! ## Reductions over the key axis, and the broadcast back along it -/

/-- Putting key k back into the reduced index (bb, q) gives (bb, k, q). -/
theorem lift_keys (bb : Fin 2) (q : Fin 2048) (k : Fin (S2x16x2048.size 1)) :
    reduces_S2x16x2048_S2x2048.lift (ix2 bb q) k = ix3 bb (⟨k.val, k.isLt⟩ : Fin 16) q := by
  funext c; apply Fin.ext
  fin_cases c <;> rfl

/-- The maximum over the key axis at (bb, q): the fold of max from −∞ over the 16 keys. -/
theorem colmax_apply (v : FVec Ideal S2x16x2048 .f32) (hφ : FKind.Formats .f32)
    (hacc : (0xFF800000#32 : BitVec 32) = FKind.maximumf.neutral .f32 hφ) (bb : Fin 2) (q : Fin 2048) :
    multiReduction (F := Ideal) .maximumf [1] S2x2048 v 0xFF800000#32 reduces_S2x16x2048_S2x2048 hφ hacc (ix2 bb q)
      = (Finset.univ : Finset (Fin 16)).fold max negInf (fun k => v (ix3 bb k q)) := by
  refine (Ideal.multiReduction_maximumf_single v 0xFF800000#32 reduces_S2x16x2048_S2x2048 hφ hacc (ix2 bb q)).trans ?_
  have hf : (v ∘ reduces_S2x16x2048_S2x2048.lift (ix2 bb q)) = fun k : Fin 16 => v (ix3 bb k q) :=
    funext fun k => by
      show v (reduces_S2x16x2048_S2x2048.lift (ix2 bb q) k) = v (ix3 bb (⟨k.val, k.isLt⟩ : Fin 16) q)
      rw [lift_keys]
  unfold negInf
  exact congrArg (fun f => Finset.fold max (Ideal.ofBits .f32 0xFF800000#32) f (Finset.univ : Finset (Fin 16))) hf

/-- The sum over the key axis at (bb, q): the sum over the 16 keys. -/
theorem colsum_apply (v : FVec Ideal S2x16x2048 .f32) (hφ : FKind.Formats .f32)
    (hacc : (0x00000000#32 : BitVec 32) = FKind.add.neutral .f32 hφ) (bb : Fin 2) (q : Fin 2048) :
    multiReduction (F := Ideal) .add [1] S2x2048 v 0x00000000#32 reduces_S2x16x2048_S2x2048 hφ hacc (ix2 bb q)
      = ∑ k : Fin 16, v (ix3 bb k q) := by
  refine (Ideal.multiReduction_add_single v 0x00000000#32 reduces_S2x16x2048_S2x2048 hφ hacc (ix2 bb q)).trans ?_
  exact Finset.sum_congr rfl fun k _ => congrArg v (lift_keys bb q k)

/-- A [2, 2048] array given a unit key axis and broadcast along the 16 keys reads, at (bb, k, q), its entry (bb, q). -/
theorem keepdims_apply (w : FVec Ideal S2x2048 .f32) (bb : Fin 2) (k : Fin 16) (q : Fin 2048) :
    broadcastTo S2x16x2048 (shapeCast S2x1x2048 w shapeCasts_S2x2048_S2x1x2048) broadcasts_S2x1x2048_S2x16x2048 (ix3 bb k q)
      = w (ix2 bb q) := by
  refine (broadcastTo_apply _ broadcasts_S2x1x2048_S2x16x2048 (ix3 bb k q) (ix3 bb (⟨0, Nat.one_pos⟩ : Fin 1) q) (fun a => by
    match a with
    | ⟨0, _⟩ => show bb.val = if (2 : Nat) = 1 then 0 else bb.val; rw [if_neg (by decide)]
    | ⟨1, _⟩ => show (0 : Nat) = if (1 : Nat) = 1 then 0 else k.val; rw [if_pos rfl]
    | ⟨2, _⟩ => show q.val = if (2048 : Nat) = 1 then 0 else q.val; rw [if_neg (by decide)])).trans ?_
  exact shapeCast_apply w shapeCasts_S2x2048_S2x1x2048 (ix3 bb (⟨0, Nat.one_pos⟩ : Fin 1) q) (ix2 bb q)
    (by rewrite [Shape.rowMajor_val_two, Shape.rowMajor_val_three]
        show bb.val * 2048 + q.val = (bb.val * 1 + 0) * 2048 + q.val; omega)

/-! ## The two blocks -/

section
variable (x0 : Vec Ideal S2x16x1024 .f32) (x1 : Vec Ideal S2x2048x1024 .f32) (key : KeyA) (query : QueryA) (b : Fin 64) (bb : Fin 2)
  (h0 : ∀ (k : Fin 16) (d : Fin 1024), x0 (ix3 bb k d) = key (ix3 b k d))
  (h1 : ∀ (q : Fin 2048) (d : Fin 1024), x1 (ix3 bb q d) = query (ix3 b q d))
include h0 h1

/-- The score product of the two input blocks, at batch bb, is the score of batch b. -/
theorem score_pay (prec : Option ContractPrecision) (k : Fin 16) (q : Fin 2048) :
    FloatOps.matmul (φ₁ := .f32) (φ₂ := .f32) dot_S2x16x1024_S2x2048x1024_S2x16x2048_2_2_1_1_0_0 prec x0 x1
        (constant (F := Ideal) S2x16x2048 .f32 0x00000000#32) (ix3 bb k q) = score key query b k q := by
  refine (sc_matmul_apply prec x0 x1 bb k q).trans ?_
  unfold score
  exact Finset.sum_congr rfl fun d _ => by rw [h0, h1]

/-- The exponential of the score less its column maximum, as the kernel computes it from any array that holds the
    scores at batch bb. -/
theorem expo_pay (M : FVec Ideal S2x16x2048 .f32) (hM : ∀ (k : Fin 16) (q : Fin 2048), M (ix3 bb k q) = score key query b k q)
    (hφ : FKind.Formats .f32) (hacc : (0xFF800000#32 : BitVec 32) = FKind.maximumf.neutral .f32 hφ) (k : Fin 16) (q : Fin 2048) :
    exp (subf M (broadcastTo S2x16x2048 (shapeCast S2x1x2048
        (multiReduction (F := Ideal) .maximumf [1] S2x2048 M 0xFF800000#32 reduces_S2x16x2048_S2x2048 hφ hacc)
        shapeCasts_S2x2048_S2x1x2048) broadcasts_S2x1x2048_S2x16x2048)) (ix3 bb k q) = expo key query b k q := by
  unfold expo colMax
  refine congrArg Ideal.exp ?_
  refine (subf_apply _ _ _).trans (congrArg₂ (· - ·) (hM k q) ?_)
  refine (keepdims_apply _ bb k q).trans ((colmax_apply M hφ hacc bb q).trans ?_)
  exact congrArg (fun f => Finset.fold max negInf f (Finset.univ : Finset (Fin 16))) (funext fun k' => hM k' q)

/-- The attention block: entry (bb, k, q) is the softmax weight of (b, k, q). -/
theorem attn_pay (k : Fin 16) (q : Fin 2048) : k0_pay1 (F := Ideal) x0 x1 (ix3 bb k q) = attn key query b k q := by
  unfold k0_pay1 attn colSum
  have hM := score_pay x0 x1 key query b bb h0 h1 (some .fp32)
  refine (divf_apply _ _ _).trans (congrArg₂ Ideal.div ?_ ?_)
  · exact expo_pay x0 x1 key query b bb h0 h1 _ hM _ _ k q
  · refine (keepdims_apply _ bb k q).trans ((colsum_apply _ _ _ bb q).trans (Finset.sum_congr rfl fun k' _ => ?_))
    exact expo_pay x0 x1 key query b bb h0 h1 _ hM _ _ k' q

/-- The energy block: entry (bb, k, d) is the energy of (b, k, d). -/
theorem energy_pay (k : Fin 16) (d : Fin 1024) : k0_pay2 (F := Ideal) x0 x1 (ix3 bb k d) = energy key query b k d := by
  unfold k0_pay2 energy
  refine (en_matmul_apply none _ _ bb k d).trans (Finset.sum_congr rfl fun q _ => ?_)
  show k0_pay1 (F := Ideal) x0 x1 (ix3 bb k q) * x1 (ix3 bb q d) = _
  rw [attn_pay x0 x1 key query b bb h0 h1, h1]

end

end Cert.KernelIdeal.PayValue

end
-- ==== Proof.KI.PayLin.lean ====
/-
  The hidden layer's kernel block, read entry by entry over the extended reals.

  Row r of the block belongs to one (batch, key) pair. Entry (r, d) is the hyperbolic tangent of: the contraction of
  the energy row with row d of the first weight half, plus the contraction of the key row with row d of the second
  weight half, plus bias entry d. The operands are narrowed to a shorter float format before each contraction, which
  is the identity on extended reals, and the casts of an array to its own shape are the identity.
-/
import proofs.«168501_j15375982920258_2_alg».proof.Proof.Gen.KernelIdeal.Skeleton
import proofs.«168501_j15375982920258_2_alg».proof.Proof.Spec
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Cert.AttnSpec Idealize.ShloMosaic Idealize.ShloMosaic.ValueIdx
open scoped BigOperators

/-! ## The contraction of a [512, 1024] block with a [1024, 1024] block over their second axes -/

theorem lin_lhs0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem lin_lhs1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem lin_rhs0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem lin_rhs1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator, entry (r, d) of the product is the sum over the 1024 shared positions of row r of the left
    operand times row d of the right operand. -/
theorem lin_matmul_apply {φ₁ φ₂ : FTy} (prec : Option ContractPrecision) (lhs : FVec Ideal S512x1024 φ₁)
    (rhs : FVec Ideal S1024x1024 φ₂) (r : Fin 512) (d : Fin 1024) :
    FloatOps.matmul dot_S512x1024_S1024x1024_S512x1024_1_1_0_0_n_n prec lhs rhs (constant (F := Ideal) S512x1024 .f32 0x00000000#32) (ix2 r d)
      = ∑ f : Fin 1024, lhs (ix2 r f) * rhs (ix2 d f) := by
  rw [Ideal.matmul_constant_zero_apply,
    ← Equiv.sum_comp (ValueIdx.contrEquiv1 dot_S512x1024_S1024x1024_S512x1024_1_1_0_0_n_n 1024 rfl rfl).symm]
  refine Finset.sum_congr rfl fun f _ => ?_
  have hk := ValueIdx.contrEquiv1_symm_val dot_S512x1024_S1024x1024_S512x1024_1_1_0_0_n_n 1024 rfl rfl f
  have el : dot_S512x1024_S1024x1024_S512x1024_1_1_0_0_n_n.lhsIdx (ix2 r d)
      ((ValueIdx.contrEquiv1 dot_S512x1024_S1024x1024_S512x1024_1_1_0_0_n_n 1024 rfl rfl).symm f) = ix2 r f :=
    funext fun a => Fin.ext (by
      match a with
      | ⟨0, _⟩ => exact lin_lhs0 _ _
      | ⟨1, _⟩ => exact (lin_lhs1 _ _).trans hk)
  have er : dot_S512x1024_S1024x1024_S512x1024_1_1_0_0_n_n.rhsIdx (ix2 r d)
      ((ValueIdx.contrEquiv1 dot_S512x1024_S1024x1024_S512x1024_1_1_0_0_n_n 1024 rfl rfl).symm f) = ix2 d f :=
    funext fun a => Fin.ext (by
      match a with
      | ⟨0, _⟩ => exact lin_rhs0 _ _
      | ⟨1, _⟩ => exact (lin_rhs1 _ _).trans hk)
  rw [el, er]

/-- The bias vector viewed as one row and broadcast down the 512 rows reads entry d in column d. -/
theorem lin_bias_apply (x4 : Vec Ideal S1024 .f32) (r : Fin 512) (d : Fin 1024) :
    broadcastTo S512x1024 (shapeCast S1x1024 x4 shapeCasts_S1024_S1x1024) broadcasts_S1x1024_S512x1024 (ix2 r d) = x4 (ix1 d) := by
  refine (broadcastTo_apply _ broadcasts_S1x1024_S512x1024 (ix2 r d) (ix2 (⟨0, Nat.one_pos⟩ : Fin 1) d) (fun a => by
    match a with
    | ⟨0, _⟩ => show (0 : Nat) = if (1 : Nat) = 1 then 0 else r.val; rw [if_pos rfl]
    | ⟨1, _⟩ => show d.val = if (1024 : Nat) = 1 then 0 else d.val; rw [if_neg (by decide)])).trans ?_
  exact shapeCast_apply x4 shapeCasts_S1024_S1x1024 (ix2 (⟨0, Nat.one_pos⟩ : Fin 1) d) (ix1 d)
    (by rewrite [Shape.rowMajor_val_one, Shape.rowMajor_val_two]; show d.val = 0 * 1024 + d.val; omega)

/-- The hidden block: given that row r of the two left operands is the energy row and the key row of (b, k), that the
    two weight blocks are the two halves of the weight matrix, and that the bias block is the bias, entry (r, d) is the
    hidden value of (b, k, d). -/
theorem hidden_pay (x0 x1 : Vec Ideal S512x1024 .f32) (x2 x3 : Vec Ideal S1024x1024 .f32) (x4 : Vec Ideal S1024 .f32)
    (key : KeyA) (query : QueryA) (wlin : WlinA) (blin : BiasA)
    (b : Fin 64) (k : Fin 16) (r : Fin 512)
    (h0 : ∀ f : Fin 1024, x0 (ix2 r f) = energy key query b k f) (h1 : ∀ f : Fin 1024, x1 (ix2 r f) = key (ix3 b k f))
    (h2 : ∀ d f : Fin 1024, x2 (ix2 d f) = wlin (ix2 d (loCol f))) (h3 : ∀ d f : Fin 1024, x3 (ix2 d f) = wlin (ix2 d (hiCol f)))
    (h4 : ∀ d : Fin 1024, x4 (ix1 d) = blin (ix1 d))
    (d : Fin 1024) : k1_pay1 (F := Ideal) x0 x1 x2 x3 x4 (ix2 r d) = hidden key query wlin blin b k d := by
  unfold k1_pay1
  rw [shapeCast_self, shapeCast_self, shapeCast_self, shapeCast_self]
  unfold Cert.AttnSpec.hidden
  refine congrArg Ideal.tanh ?_
  refine (addf_apply _ _ _).trans (congrArg₂ (· + ·) ((addf_apply _ _ _).trans (congrArg₂ (· + ·) ?_ ?_)) ?_)
  · refine (lin_matmul_apply none _ _ r d).trans (Finset.sum_congr rfl fun f _ => ?_)
    show x0 (ix2 r f) * x2 (ix2 d f) = _
    rw [h0, h2]
  · refine (lin_matmul_apply none _ _ r d).trans (Finset.sum_congr rfl fun f _ => ?_)
    show x1 (ix2 r f) * x3 (ix2 d f) = _
    rw [h1, h3]
  · exact (lin_bias_apply x4 r d).trans (h4 d)

end Cert.KernelIdeal.PayValue

end
-- ==== Proof.KI.Value.lean ====
/-
  The idealized program's two results, as functions of its six arguments.

  Region by region: the attention kernel leaves the softmax array and the energy array (each block of two batches is
  the specification's block); the linear kernel, reading the re-laid energy and key rows and the two halves of the first
  weight matrix, leaves the hidden rows (row 16·b + k is the specification's hidden vector of (b, k)); re-laid to
  [64, 16384] these are the flattened hidden features; the last kernel's four-tile accumulation plus bias is the
  specification's output. Nothing here needs the inputs to be finite: every step is an equation of finite sums and
  pointwise operations on the extended reals.
-/
import proofs.«168501_j15375982920258_2_alg».proof.Proof.KI.Host
import proofs.«168501_j15375982920258_2_alg».proof.Proof.KI.Arr0
import proofs.«168501_j15375982920258_2_alg».proof.Proof.KI.Arr1
import proofs.«168501_j15375982920258_2_alg».proof.Proof.KI.FcValue
import proofs.«168501_j15375982920258_2_alg».proof.Proof.KI.PayAttn
import proofs.«168501_j15375982920258_2_alg».proof.Proof.KI.PayLin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AttnSpec Cert.KernelIdeal.PayValue Idealize.ShloMosaic.ValueIdx
open scoped BigOperators

variable (m : (ℓ : Loc nD τ sig) → Buf (Elt Ideal) ℓ) (ρ : Dev nD → PrngReg)

/-- The six arguments as the specification's arrays. -/
abbrev keyOf (c : Dev nD) : KeyA := m ((c : Thread nD τ).loc main_arg0)
abbrev queryOf (c : Dev nD) : QueryA := m ((c : Thread nD τ).loc main_arg1)
abbrev wlinOf (c : Dev nD) : WlinA := m ((c : Thread nD τ).loc main_arg2)
abbrev blinOf (c : Dev nD) : BiasA := m ((c : Thread nD τ).loc main_arg3)
abbrev wfcOf (c : Dev nD) : WfcA := m ((c : Thread nD τ).loc main_arg4)
abbrev bfcOf (c : Dev nD) : BiasA := m ((c : Thread nD τ).loc main_arg5)

/-! ## The attention region -/

/-- The energy array: `energy` at (b, k, d). -/
def energyArr (key : KeyA) (query : QueryA) : S64x16x1024.Idx → EReal := fun i => energy key query (i 0) (i 1) (i 2)

theorem attn_after0 (c : Dev nD) : (dat0 (E0 m ρ) c).arrAt 3 cfg0.N = attnArr (keyOf m c) (queryOf m c) :=
  arrAt0_3_eq (E0 m ρ) c _ fun t bb k q => by
    rw [after0_3, attnBlk_eq]
    exact attn_pay _ _ (keyOf m c) (queryOf m c) (batchOf t bb) bb
      (fun k d => iblk0_0_apply (E0 m ρ) c t bb k d) (fun q d => iblk0_1_apply (E0 m ρ) c t bb q d) k q

theorem energy_after0 (c : Dev nD) : (dat0 (E0 m ρ) c).arrAt 2 cfg0.N = energyArr (keyOf m c) (queryOf m c) :=
  arrAt0_2_eq (E0 m ρ) c _ fun t bb k d => by
    rw [after0_2, energyBlk_eq]
    exact energy_pay _ _ (keyOf m c) (queryOf m c) (batchOf t bb) bb
      (fun k d => iblk0_0_apply (E0 m ρ) c t bb k d) (fun q d => iblk0_1_apply (E0 m ρ) c t bb q d) k d

theorem E1_energy (c : Dev nD) : (E1 m ρ c main_v0_0 : S64x16x1024.Idx → EReal) = energyArr (keyOf m c) (queryOf m c) :=
  (M1_arr m ρ c 2).trans (energy_after0 m ρ c)

/-! ## The linear region -/

/-- The hidden rows: row r stands for the pair (r / 16, r % 16). -/
def hiddenRows (key : KeyA) (query : QueryA) (wlin : WlinA) (blin : BiasA) : S1024x1024.Idx → EReal :=
  fun i => Cert.AttnSpec.hidden key query wlin blin (batchOfRow (i 0)) (keyOfRow (i 0)) (i 1)

theorem hidden_after1 (c : Dev nD) :
    (dat1 (E2 m ρ) c).arrAt 5 cfg1.N = hiddenRows (keyOf m c) (queryOf m c) (wlinOf m c) (blinOf m c) :=
  arrAt1_5_eq (E2 m ρ) c _ fun t r d => by
    rw [after1_5, hiddenBlk_eq]
    exact hidden_pay _ _ _ _ _ (keyOf m c) (queryOf m c) (wlinOf m c) (blinOf m c)
      (batchOfRow (rowAt t r)) (keyOfRow (rowAt t r)) r
      (fun f => by rw [iblk1_0_apply (E2 m ρ) c t r f, E2_v1_apply, E1_energy]; rfl)
      (fun f => by rw [iblk1_1_apply (E2 m ρ) c t r f, E2_v2_apply])
      (fun d f => by rw [iblk1_2_apply (E2 m ρ) c t d f, E2_v3_apply]; rfl)
      (fun d f => by rw [iblk1_3_apply (E2 m ρ) c t d f, E2_v4_apply]; rfl)
      (fun d => by rw [iblk1_4_apply (E2 m ρ) c t d, E2_main_arg3])
      d

theorem E3_hidden (c : Dev nD) :
    (E3 m ρ c main_v5 : S1024x1024.Idx → EReal) = hiddenRows (keyOf m c) (queryOf m c) (wlinOf m c) (blinOf m c) :=
  (M3_arr m ρ c 5).trans (hidden_after1 m ρ c)

/-- The flattened hidden features at (b, j): the hidden vector of (b, j / 1024) at j % 1024. -/
theorem flat_apply (c : Dev nD) (b : Fin 64) (j : Fin 16384) :
    (E4 m ρ c main_v6 : S64x16384.Idx → EReal) (ix2 b j)
      = Cert.AttnSpec.hidden (keyOf m c) (queryOf m c) (wlinOf m c) (blinOf m c) b (rowOf j) (colOf j) := by
  rw [E4_v6_apply, E3_hidden]
  show Cert.AttnSpec.hidden _ _ _ _ (batchOfRow _) (keyOfRow _) _ = _
  have hb : batchOfRow (⟨16 * b.val + j.val / 1024, by omega⟩ : Fin 1024) = b := Fin.ext (by show (16 * b.val + j.val / 1024) / 16 = b.val; omega)
  have hk : keyOfRow (⟨16 * b.val + j.val / 1024, by omega⟩ : Fin 1024) = rowOf j := Fin.ext (by show (16 * b.val + j.val / 1024) % 16 = j.val / 1024; omega)
  rw [hb, hk]
  rfl

/-! ## The last region -/

theorem out_after2 (c : Dev nD) :
    (dat2 (E4 m ρ) c).arrAt 3 cfg2.N
      = outArr (keyOf m c) (queryOf m c) (wlinOf m c) (blinOf m c) (wfcOf m c) (bfcOf m c) :=
  arrAt2_3_eq (E4 m ρ) c _ fun t h3 b d => by
    rw [out_entry (E4 m ρ) c t h3 b d, E4_main_arg5]
    show _ = Cert.AttnSpec.out _ _ _ _ _ _ b (featAt (halfOf t) d)
    unfold Cert.AttnSpec.out
    refine congrArg (· + _) (Finset.sum_congr rfl fun k _ => ?_)
    unfold tileDot tileDotOf
    refine Finset.sum_congr rfl fun f _ => ?_
    rw [show colAt k f = tileCol k f from rfl, flat_apply, E4_main_arg4]

/-! ## The run with both results named -/

theorem M5_out (c : Dev nD) : (M5 m ρ c (Proc.devRef .tc main_v7) : S64x1024.Idx → EReal)
    = outArr (keyOf m c) (queryOf m c) (wlinOf m c) (blinOf m c) (wfcOf m c) (bfcOf m c) :=
  (M5_arr m ρ c 3).trans (out_after2 m ρ c)

theorem M5_attn (c : Dev nD) : (M5 m ρ c (Proc.devRef .tc main_v0_1) : S64x16x2048.Idx → EReal)
    = attnArr (keyOf m c) (queryOf m c) :=
  calc M5 m ρ c (Proc.devRef .tc main_v0_1)
    _ = M4 m ρ c (Proc.devRef .tc main_v0_1) := M5_of_ne m ρ c main_v0_1 (by decide)
    _ = M3 m ρ c (Proc.devRef .tc main_v0_1) := StableHlo.after_of_writes_sub hostOps2 _ hostOps2_writes (by decide)
    _ = M2 m ρ c (Proc.devRef .tc main_v0_1) := M3_of_ne m ρ c main_v0_1 (by decide)
    _ = M1 m ρ c (Proc.devRef .tc main_v0_1) := StableHlo.after_of_writes_sub hostOps1 _ hostOps1_writes (by decide)
    _ = (dat0 (E0 m ρ) c).arrAt 3 cfg0.N := M1_arr m ρ c 3
    _ = attnArr (keyOf m c) (queryOf m c) := attn_after0 m ρ c

/-- Every weakly fair execution of the idealized program terminates with the first result at the specification's output
    array, the second at its softmax array, and the arguments as launched. -/
theorem value_run : θ_run defs (onTc (τ := τ) (main (F := Ideal))) ⟨m, fun _ => 0, ρ⟩ (fun r => ∀ c : Dev nD,
      r.2.mem ((c.tc : Thread nD τ).loc main_v7) = outArr (keyOf m c) (queryOf m c) (wlinOf m c) (blinOf m c) (wfcOf m c) (bfcOf m c)
      ∧ r.2.mem ((c.tc : Thread nD τ).loc main_v0_1) = attnArr (keyOf m c) (queryOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v7 (by decide))).trans (M5_out m ρ c),
     (h c _ (mem_uc main_v0_1 (by decide))).trans (M5_attn m ρ c),
     (h c _ (mem_uc main_arg0 (by decide))).trans (M5_main_arg0 m ρ c),
     (h c _ (mem_uc main_arg1 (by decide))).trans (M5_main_arg1 m ρ c),
     (h c _ (mem_uc main_arg2 (by decide))).trans (M5_main_arg2 m ρ c),
     (h c _ (mem_uc main_arg3 (by decide))).trans (M5_main_arg3 m ρ c),
     (h c _ (mem_uc main_arg4 (by decide))).trans (M5_main_arg4 m ρ c),
     (h c _ (mem_uc main_arg5 (by decide))).trans (M5_main_arg5 m ρ c)⟩)
    (run_all m ρ)

end Cert.KernelIdeal.Hand

end
-- ==== Proof.RefSums.lean ====
/-
  Regroupings of finite sums and one order fact on the extended reals, stated for arbitrary summands.

  * A sum over the 2048 concatenated features is the sum over its first 1024 plus the sum over its last 1024.
  * A sum over the 16384 flattened features is the sum over four tiles of 4096 consecutive features.
  * The float word 0xFF800000 denotes the bottom element −∞, so taking the maximum with it changes nothing.

  Addition on the extended reals is commutative and associative, so none of these needs a finiteness hypothesis;
  the two regroupings hold in any additive commutative monoid.
-/
import proofs.«168501_j15375982920258_2_alg».proof.Proof.Spec
import Mathlib.Algebra.BigOperators.Fin

noncomputable section

namespace Cert.ReferenceIdeal.RefValue

open Idealize.ShloMosaic Cert.AttnSpec
open scoped BigOperators

/-- A sum over 2048 indices splits at 1024 into the sum over the low half and the sum over the high half. -/
theorem sum_halves {M : Type*} [AddCommMonoid M] (g : Fin 2048 → M) :
    ∑ j : Fin 2048, g j = (∑ f : Fin 1024, g (loCol f)) + ∑ f : Fin 1024, g (hiCol f) :=
  Fin.sum_univ_add (a := 1024) (b := 1024) g

/-- Position f of tile t is the image of the pair (t, f) under the standard bijection between pairs
    (one of 4, one of 4096) and the 16384 indices, whose value is f + 4096 t. -/
theorem tileCol_eq (t : Fin 4) (f : Fin 4096) :
    (finProdFinEquiv (m := 4) (n := 4096) (t, f) : Fin 16384) = tileCol t f :=
  Fin.ext (by show f.val + 4096 * t.val = 4096 * t.val + f.val; omega)

/-- A sum over 16384 indices is the sum over the four tiles of the sums inside each tile. -/
theorem sum_tiles {M : Type*} [AddCommMonoid M] (g : Fin 16384 → M) :
    ∑ j : Fin 16384, g j = ∑ t : Fin 4, ∑ f : Fin 4096, g (tileCol t f) := by
  rw [← Equiv.sum_comp (finProdFinEquiv (m := 4) (n := 4096)) g, Fintype.sum_prod_type]
  exact Finset.sum_congr rfl fun t _ => Finset.sum_congr rfl fun f _ => congrArg g (tileCol_eq t f)

/-- −∞ is neutral for the maximum. -/
theorem max_negInf (x : EReal) : max negInf x = x := by
  unfold negInf
  simp [Ideal.ofBits, Ideal.ieee]

end Cert.ReferenceIdeal.RefValue

end
-- ==== Proof.RefAttn.lean ====
/-
  The attention weights of the reference, read entry by entry.

  Each intermediate array of the reference program is identified, at explicit coordinates, with the corresponding
  function of the specification: the scores (a contraction over the 1024 features), the column maximum over the 16
  keys (a fold of max from −∞; the reference additionally takes the maximum with a broadcast −∞, which changes
  nothing), the exponentials of the shifted scores, their column sums (the float sum starts from the zero word, which
  is 0), and the quotient. The last theorem states that the second result of the reference is the array of softmax
  weights over the key axis.
-/
import proofs.«168501_j15375982920258_2_alg».proof.Proof.Gen.ReferenceIdeal.Read
import proofs.«168501_j15375982920258_2_alg».proof.Proof.Spec
import proofs.«168501_j15375982920258_2_alg».proof.Proof.RefSums
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.AttnSpec
open Idealize.ShloMosaic Idealize.ShloMosaic.ValueIdx
open scoped BigOperators

variable (x0 : (⟨S64x16x1024, .f32⟩ : BufTy).Contents (Elt Ideal)) (x1 : (⟨S64x2048x1024, .f32⟩ : BufTy).Contents (Elt Ideal))

/-- The scores: entry (b, k, q) is the inner product of key row (b, k) and query row (b, q). -/
theorem v0_at (b : Fin 64) (k : Fin 16) (q : Fin 2048) :
    val_main_v0 (F := Ideal) x0 x1 (ix3 b k q) = score x0 x1 b k q := by
  rw [val_main_v0_apply]
  unfold score
  refine Finset.sum_congr rfl fun d _ => ?_
  have el : lidx_main_v0 (ix3 b k q) d = ix3 b k d :=
    funext fun a => Fin.ext (by match a with | ⟨0, _⟩ => rfl | ⟨1, _⟩ => rfl | ⟨2, _⟩ => rfl)
  have er : ridx_main_v0 (ix3 b k q) d = ix3 b q d :=
    funext fun a => Fin.ext (by match a with | ⟨0, _⟩ => rfl | ⟨1, _⟩ => rfl | ⟨2, _⟩ => rfl)
  rw [el, er]

/-- The key axis is the one the reduction removes. -/
theorem reduces_keys : S64x16x2048.Reduces [1] S64x2048 := by decide

/-- Putting key k back into the reduced index (b, q) gives (b, k, q). -/
theorem lift_keys (b : Fin 64) (q : Fin 2048) (k : Fin (S64x16x2048.size 1)) :
    reduces_keys.lift (ix2 b q) k = ix3 b (⟨k.val, k.isLt⟩ : Fin 16) q := by
  funext c; apply Fin.ext
  fin_cases c <;> rfl

/-- The reduction with a maximum body over the key axis: entry (b, q) is the maximum, from −∞, of the 16 scores. -/
theorem v1_at (b : Fin 64) (q : Fin 2048) :
    val_main_v1 (F := Ideal) x0 x1 (ix2 b q) = colMax x0 x1 b q := by
  unfold val_main_v1
  refine (Host.reduce_eq_fold_single (FloatOps.maximumf (F := Ideal) (φ := .f32)) (val_main_v0 (F := Ideal) x0 x1)
    (val_main_cst (F := Ideal)) reducesTo_S64x16x2048_S64x2048_d1 reduces_keys h_S_ (ix2 b q)).trans ?_
  have hf : (val_main_v0 (F := Ideal) x0 x1 ∘ reduces_keys.lift (ix2 b q)) = fun k : Fin 16 => score x0 x1 b k q :=
    funext fun k => by
      show val_main_v0 (F := Ideal) x0 x1 (reduces_keys.lift (ix2 b q) k) = score x0 x1 b (⟨k.val, k.isLt⟩ : Fin 16) q
      rw [lift_keys, v0_at]
  unfold colMax negInf
  exact congrArg (fun f => Finset.fold max (Ideal.ofBits .f32 0xFF800000#32) f (Finset.univ : Finset (Fin 16))) hf

/-- Taking the maximum with a broadcast −∞ changes nothing. -/
theorem v3_at (b : Fin 64) (q : Fin 2048) :
    val_main_v3 (F := Ideal) x0 x1 (ix2 b q) = colMax x0 x1 b q := by
  rw [val_main_v3_apply, val_main_v2_apply, val_main_cst_0_apply, v1_at]
  exact max_negInf _

/-- The column maximum broadcast back along the key axis. -/
theorem v5_at (b : Fin 64) (k : Fin 16) (q : Fin 2048) :
    val_main_v5 (F := Ideal) x0 x1 (ix3 b k q) = colMax x0 x1 b q := by
  rw [val_main_v5_apply, val_main_v4_apply]
  have e : idx_main_v4 (idx_main_v5 (ix3 b k q)) = ix2 b q :=
    funext fun a => Fin.ext (by match a with | ⟨0, _⟩ => rfl | ⟨1, _⟩ => rfl)
  rw [e, v3_at]

/-- The exponential of the score less its column maximum. -/
theorem v7_at (b : Fin 64) (k : Fin 16) (q : Fin 2048) :
    val_main_v7 (F := Ideal) x0 x1 (ix3 b k q) = expo x0 x1 b k q := by
  rw [val_main_v7_apply, val_main_v6_apply, v0_at, v5_at]
  rfl

/-- The float sum over the key axis starts from the zero word, which is 0: entry (b, q) is the sum of the 16
    exponentials. -/
theorem v8_at (b : Fin 64) (q : Fin 2048) :
    val_main_v8 (F := Ideal) x0 x1 (ix2 b q) = colSum x0 x1 b q := by
  rw [val_main_v8_apply, val_main_cst_1_apply]
  show Ideal.ofBits .f32 0x00000000#32 + _ = _
  rw [Ideal.ofBits_zero_f32, zero_add]
  unfold colSum
  refine Finset.sum_congr rfl fun k _ => ?_
  have e : idx_main_v8 (ix2 b q) k = ix3 b k q :=
    funext fun a => Fin.ext (by match a with | ⟨0, _⟩ => rfl | ⟨1, _⟩ => rfl | ⟨2, _⟩ => rfl)
  rw [e, v7_at]

/-- The column sum broadcast back along the key axis. -/
theorem v10_at (b : Fin 64) (k : Fin 16) (q : Fin 2048) :
    val_main_v10 (F := Ideal) x0 x1 (ix3 b k q) = colSum x0 x1 b q := by
  rw [val_main_v10_apply, val_main_v9_apply]
  have e : idx_main_v9 (idx_main_v10 (ix3 b k q)) = ix2 b q :=
    funext fun a => Fin.ext (by match a with | ⟨0, _⟩ => rfl | ⟨1, _⟩ => rfl)
  rw [e, v8_at]

/-- The softmax weight: the exponential over its column sum. -/
theorem v11_at (b : Fin 64) (k : Fin 16) (q : Fin 2048) :
    val_main_v11 (F := Ideal) x0 x1 (ix3 b k q) = attn x0 x1 b k q := by
  rw [val_main_v11_apply, v7_at, v10_at]
  rfl

/-- The second result of the reference is the array of softmax weights over the key axis. -/
theorem ref_attn : val_main_v11 (F := Ideal) x0 x1 = Cert.AttnSpec.attnArr x0 x1 := by
  funext i
  obtain ⟨b, k, q, rfl⟩ : ∃ b k q, i = ix3 b k q := ⟨i 0, i 1, i 2, eq_ix3 i⟩
  rw [v11_at]
  rfl

end Cert.ReferenceIdeal.RefValue

end
-- ==== Proof.RefOut.lean ====
/-
  The output of the reference, read entry by entry.

  Continuing from the softmax weights: the energy (a contraction over the 2048 queries), the concatenation of energy
  and key along the feature axis (read in either half), the hidden pre-activation (a contraction over the 2048
  concatenated features, regrouped as the sum over the energy half plus the sum over the key half) plus its bias, the
  hyperbolic tangent, the row-major flattening of (key, feature) into one axis of 16384, and the last layer (a
  contraction over 16384 against the transposed weight matrix, regrouped as four tiles of 4096) plus its bias.
  The last theorem states that the first result of the reference is the specification's output array.
-/
import proofs.«168501_j15375982920258_2_alg».proof.Proof.Gen.ReferenceIdeal.Read
import proofs.«168501_j15375982920258_2_alg».proof.Proof.Spec
import proofs.«168501_j15375982920258_2_alg».proof.Proof.RefSums
import proofs.«168501_j15375982920258_2_alg».proof.Proof.RefAttn
import Idealize.ShloMosaic.Lib.Pipeline.Value

noncomputable section

namespace Cert.ReferenceIdeal.RefValue

open Cert.ReferenceIdeal Cert.ReferenceIdeal.Gen Cert.ReferenceIdeal.Read Cert.AttnSpec
open Idealize.ShloMosaic Idealize.ShloMosaic.ValueIdx
open scoped BigOperators

variable (x0 : (⟨S64x16x1024, .f32⟩ : BufTy).Contents (Elt Ideal)) (x1 : (⟨S64x2048x1024, .f32⟩ : BufTy).Contents (Elt Ideal))
  (x2 : (⟨S1024x2048, .f32⟩ : BufTy).Contents (Elt Ideal)) (x3 : (⟨S1024, .f32⟩ : BufTy).Contents (Elt Ideal))
  (x4 : (⟨S1024x16384, .f32⟩ : BufTy).Contents (Elt Ideal)) (x5 : (⟨S1024, .f32⟩ : BufTy).Contents (Elt Ideal))

/-- The energy: entry (b, k, d) is the sum over the queries of weight times query feature. -/
theorem v12_at (b : Fin 64) (k : Fin 16) (d : Fin 1024) :
    val_main_v12 (F := Ideal) x0 x1 (ix3 b k d) = energy x0 x1 b k d := by
  rw [val_main_v12_apply]
  unfold energy
  refine Finset.sum_congr rfl fun q _ => ?_
  have el : lidx_main_v12 (ix3 b k d) q = ix3 b k q :=
    funext fun a => Fin.ext (by match a with | ⟨0, _⟩ => rfl | ⟨1, _⟩ => rfl | ⟨2, _⟩ => rfl)
  have er : ridx_main_v12 (ix3 b k d) q = ix3 b q d :=
    funext fun a => Fin.ext (by match a with | ⟨0, _⟩ => rfl | ⟨1, _⟩ => rfl | ⟨2, _⟩ => rfl)
  rw [el, er, v11_at]

/-- The concatenated features, first half: the energy. -/
theorem v13_lo (b : Fin 64) (k : Fin 16) (f : Fin 1024) :
    val_main_v13 (F := Ideal) x0 x1 (ix3 b k (loCol f)) = energy x0 x1 b k f := by
  unfold val_main_v13
  rw [concatenate_pair_apply_left 2 (val_main_v12 (F := Ideal) x0 x1) x0
    concatenates_S64x16x1024_S64x16x1024_S64x16x2048_d2 (ix3 b k (loCol f)) rfl (ix3 b k f)
    (fun a => by match a with | ⟨0, _⟩ => rfl | ⟨1, _⟩ => rfl | ⟨2, _⟩ => rfl)]
  exact v12_at x0 x1 b k f

/-- The concatenated features, second half: the key. -/
theorem v13_hi (b : Fin 64) (k : Fin 16) (f : Fin 1024) :
    val_main_v13 (F := Ideal) x0 x1 (ix3 b k (hiCol f)) = x0 (ix3 b k f) := by
  unfold val_main_v13
  exact concatenate_pair_apply_right 2 (val_main_v12 (F := Ideal) x0 x1) x0
    concatenates_S64x16x1024_S64x16x1024_S64x16x2048_d2 (ix3 b k (hiCol f)) rfl rfl (ix3 b k f)
    (fun a ha => by
      match a with
      | ⟨0, _⟩ => rfl
      | ⟨1, _⟩ => rfl
      | ⟨2, _⟩ => exact absurd rfl ha)
    (by show f.val + 1024 = 1024 + f.val; omega)

/-- The contraction over the 2048 concatenated features, as its energy half plus its key half. -/
theorem v14_at (b : Fin 64) (k : Fin 16) (d : Fin 1024) :
    val_main_v14 (F := Ideal) x0 x1 x2 (ix3 b k d)
      = (∑ f : Fin 1024, energy x0 x1 b k f * x2 (ix2 d (loCol f)))
        + ∑ f : Fin 1024, x0 (ix3 b k f) * x2 (ix2 d (hiCol f)) := by
  rw [val_main_v14_apply, sum_halves]
  have el : ∀ j : Fin 2048, lidx_main_v14 (ix3 b k d) j = ix3 b k j := fun j =>
    funext fun a => Fin.ext (by match a with | ⟨0, _⟩ => rfl | ⟨1, _⟩ => rfl | ⟨2, _⟩ => rfl)
  have er : ∀ j : Fin 2048, ridx_main_v14 (ix3 b k d) j = ix2 d j := fun j =>
    funext fun a => Fin.ext (by match a with | ⟨0, _⟩ => rfl | ⟨1, _⟩ => rfl)
  congr 1
  · refine Finset.sum_congr rfl fun f _ => ?_
    rw [el, er, v13_lo]
  · refine Finset.sum_congr rfl fun f _ => ?_
    rw [el, er, v13_hi]

/-- The hidden layer: the hyperbolic tangent of the contraction plus the bias. -/
theorem v18_at (b : Fin 64) (k : Fin 16) (d : Fin 1024) :
    val_main_v18 (F := Ideal) x0 x1 x2 x3 (ix3 b k d) = hidden x0 x1 x2 x3 b k d := by
  rw [val_main_v18_apply, val_main_v17_apply, v14_at, val_main_v16_apply, val_main_v15_apply]
  have e : idx_main_v15 (idx_main_v16 (ix3 b k d)) = ix1 d :=
    funext fun a => Fin.ext (by match a with | ⟨0, _⟩ => rfl)
  rw [e]
  rfl

/-- The row-major flattening of (key, feature): flattened feature j of batch b is the hidden value at key j / 1024,
    feature j % 1024. -/
theorem v19_at (b : Fin 64) (j : Fin 16384) :
    val_main_v19 (F := Ideal) x0 x1 x2 x3 (ix2 b j) = hidden x0 x1 x2 x3 b (rowOf j) (colOf j) := by
  rw [val_main_v19_apply]
  have e : idx_main_v19 (ix2 b j) = ix3 b (rowOf j) (colOf j) :=
    funext fun a => Fin.ext (by
      have hb : b.val < 64 := b.isLt
      have hj : j.val < 16384 := j.isLt
      match a with
      | ⟨0, _⟩ => show (b.val * 16384 + j.val) / 16384 = b.val; omega
      | ⟨1, _⟩ => show (b.val * 16384 + j.val) / 1024 % 16 = j.val / 1024; omega
      | ⟨2, _⟩ => show (b.val * 16384 + j.val) % 1024 = j.val % 1024; omega)
  rw [e, v18_at]

/-- The last contraction over the 16384 flattened features against the transposed weights, as four tiles of 4096. -/
theorem v21_at (b : Fin 64) (d : Fin 1024) :
    val_main_v21 (F := Ideal) x0 x1 x2 x3 x4 (ix2 b d)
      = ∑ t : Fin 4, ∑ f : Fin 4096,
          hidden x0 x1 x2 x3 b (rowOf (tileCol t f)) (colOf (tileCol t f)) * x4 (ix2 d (tileCol t f)) := by
  rw [val_main_v21_apply, sum_tiles]
  have el : ∀ j : Fin 16384, lidx_main_v21 (ix2 b d) j = ix2 b j := fun j =>
    funext fun a => Fin.ext (by match a with | ⟨0, _⟩ => rfl | ⟨1, _⟩ => rfl)
  have er : ∀ j : Fin 16384, idx_main_v20 (ridx_main_v21 (ix2 b d) j) = ix2 d j := fun j =>
    funext fun a => Fin.ext (by match a with | ⟨0, _⟩ => rfl | ⟨1, _⟩ => rfl)
  refine Finset.sum_congr rfl fun t _ => Finset.sum_congr rfl fun f _ => ?_
  rw [el, v19_at, val_main_v20_apply, er]

/-- The output: the last contraction plus its bias. -/
theorem v24_at (b : Fin 64) (d : Fin 1024) :
    val_main_v24 (F := Ideal) x0 x1 x2 x3 x4 x5 (ix2 b d) = out x0 x1 x2 x3 x4 x5 b d := by
  rw [val_main_v24_apply, v21_at, val_main_v23_apply, val_main_v22_apply]
  have e : idx_main_v22 (idx_main_v23 (ix2 b d)) = ix1 d :=
    funext fun a => Fin.ext (by match a with | ⟨0, _⟩ => rfl)
  rw [e]
  rfl

/-- The first result of the reference is the specification's output array. -/
theorem ref_out : val_main_v24 (F := Ideal) x0 x1 x2 x3 x4 x5 = Cert.AttnSpec.outArr x0 x1 x2 x3 x4 x5 := by
  funext i
  obtain ⟨b, d, rfl⟩ : ∃ b d, i = ix2 b d := ⟨i 0, i 1, eq_ix2 i⟩
  rw [v24_at]
  rfl

end Cert.ReferenceIdeal.RefValue

end
-- ==== Proof.lean ====
/-
  An attention block in three stages against its plain formulation: scores of 16 keys against 2048 queries per batch,
  a softmax over the KEY axis, the energy (softmax-weighted sum of the queries), a tanh layer over the concatenation of
  energy and key, and a final linear layer over the 16 · 1024 flattened hidden features. Results: the final output
  [64, 1024] and the softmax array [64, 16, 2048].

  The kernel program computes the same function in three grid-pipelined stages: (1) per block of two batches the
  scores, the column maximum, exp of the difference, the column sum, the quotient, and the energy as a second product;
  (2) per block of 512 flattened (batch, key) rows the tanh layer, its 2048-long contraction taken as two 1024-long
  halves against the two column halves of the weight matrix; (3) the last layer as a sum over four contraction tiles
  accumulated in a scratch buffer, per half of the output features, the bias added on the last tile. On the extended
  reals each stage is the specification's term exactly (Proof/Spec.lean): a change of float format is the identity, and
  the only differences between the two programs are how finite sums are grouped — two halves, four tiles, a zero start —
  which the additive commutative monoid of the extended reals does not see. So no finiteness of the inputs is used.

  The three frames: the word-level and the idealized kernel programs run to the end through their three regions with
  the arguments untouched (Proof/K/Frame.lean, Proof/KI/Frame.lean: one body obligation per region, the third region
  carrying its accumulator in the region invariant); the reference is a straight line of host operations. The
  idealization rewrote nothing, so it preserves the program trivially.
-/
import proofs.«168501_j15375982920258_2_alg».proof.Defs
import proofs.«168501_j15375982920258_2_alg».proof.Proof.Gen.Kernel
import proofs.«168501_j15375982920258_2_alg».proof.Proof.Gen.KernelIdeal
import proofs.«168501_j15375982920258_2_alg».proof.Proof.Gen.ReferenceIdeal
import proofs.«168501_j15375982920258_2_alg».proof.Proof.Gen.ReferenceIdeal.Run
import proofs.«168501_j15375982920258_2_alg».proof.Proof.Gen.ReferenceIdeal.Read
import proofs.«168501_j15375982920258_2_alg».proof.Proof.Gen.Pre_finite_inputs
import proofs.«168501_j15375982920258_2_alg».proof.Proof.K.Frame
import proofs.«168501_j15375982920258_2_alg».proof.Proof.KI.Frame
import proofs.«168501_j15375982920258_2_alg».proof.Proof.KI.Value
import proofs.«168501_j15375982920258_2_alg».proof.Proof.RefOut

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_ideal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's run with its two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

/-- Both idealized programs end with the specification's two arrays of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.AttnSpec.outArr (Cert.KernelIdeal.Hand.keyOf m c) (Cert.KernelIdeal.Hand.queryOf m c) (Cert.KernelIdeal.Hand.wlinOf m c) (Cert.KernelIdeal.Hand.blinOf m c) (Cert.KernelIdeal.Hand.wfcOf m c) (Cert.KernelIdeal.Hand.bfcOf m c), fun c => Cert.AttnSpec.attnArr (Cert.KernelIdeal.Hand.keyOf m c) (Cert.KernelIdeal.Hand.queryOf m c),
    Cert.KernelIdeal.Hand.value_run m ρ, ?_⟩
  refine (θ_run Cert.ReferenceIdeal.defs _ _).mono (fun _ h c => ⟨?_, ?_, (h c).2.2⟩) (Cert.ReferenceIdeal.Value.run (F := Ideal) m' ρ')
  · obtain ⟨h0, h1, h2, h3, h4, h5⟩ := hagree c
    rw [(h c).1, Cert.ReferenceIdeal.Read.val_main_v24_eq, Cert.ReferenceIdeal.RefValue.ref_out, h0, h1, h2, h3, h4, h5]
  · obtain ⟨h0, h1, -⟩ := hagree c
    rw [(h c).2.1, Cert.ReferenceIdeal.Read.val_main_v11_eq, Cert.ReferenceIdeal.RefValue.ref_attn, h0, h1]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
